-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x544x960 : Shape := ⟨4, ![16, 3, 544, 960]⟩
abbrev S16 : Shape := ⟨1, ![16]⟩
abbrev S_ : Shape := ⟨0, ![]⟩

class Facts : Prop where
  bcast_S_S16x3x544x960 : S_.BroadcastsInDim S16x3x544x960 (![] : Fin 0 → Fin S16x3x544x960.rank)
  reducesTo_S16x3x544x960_S_d0_1_2_3 : S16x3x544x960.ReducesTo [0, 1, 2, 3] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x3x544x960 .f32) (main_arg1 : FVec F S16 .f32) (main_arg2 : FVec F S16 .f32) : IVec S_ 1 :=
  let main_v0 : FVec F S16x3x544x960 .f32 := Host.absf main_arg0
  let main_cst : FVec F S_ .f32 := constant S_ .f32 0x7F800000#32
  let main_v1 : FVec F S16x3x544x960 .f32 := broadcastInDim S16x3x544x960 ![] bcast_S_S16x3x544x960 main_cst
  let main_v2 : IVec S16x3x544x960 1 := cmpf .olt main_v0 main_v1
  let main_c : IVec S_ 1 := constantI S_ 1 1#1
  let main_v3 : IVec S_ 1 := (fun x v => Host.reduce IntOp.andi x v reducesTo_S16x3x544x960_S_d0_1_2_3 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16x3x544x960 : Shape := ⟨4, ![16, 3, 544, 960]⟩
abbrev S16 : Shape := ⟨1, ![16]⟩
abbrev S16x128 : Shape := ⟨2, ![16, 128]⟩
abbrev S16x3x16x960 : Shape := ⟨4, ![16, 3, 16, 960]⟩
abbrev S16x16x960 : Shape := ⟨3, ![16, 16, 960]⟩
abbrev S16x16 : Shape := ⟨2, ![16, 16]⟩
abbrev S16x1 : Shape := ⟨2, ![16, 1]⟩
abbrev S_ : Shape := ⟨0, ![]⟩
abbrev S1x16 : Shape := ⟨2, ![1, 16]⟩
abbrev S5x16 : Shape := ⟨2, ![5, 16]⟩
abbrev S1 : Shape := ⟨1, ![1]⟩

abbrev nBuf : Space → Nat
  | .hbm => 148
  | .vmem => 5
  | .smem => 0
  | _ => 0

abbrev hbmTy0_0 (i : Nat) : BufTy := match i % 128 with
  | 0 => ⟨S16x3x544x960, .f32⟩
  | 1 => ⟨S16, .f32⟩
  | 2 => ⟨S16, .f32⟩
  | 3 => ⟨S16x128, .f32⟩
  | 4 => ⟨S16x128, .f32⟩
  | 5 => ⟨S16x128, .f32⟩
  | 6 => ⟨S16x1, .f32⟩
  | 7 => ⟨S16, .f32⟩
  | 8 => ⟨S16x1, .f32⟩
  | 9 => ⟨S16, .f32⟩
  | 10 => ⟨S16x1, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .i1⟩
  | 22 => ⟨S_, .f32⟩
  | 23 => ⟨S16, .f32⟩
  | 24 => ⟨S16, .i1⟩
  | 25 => ⟨S16, .i1⟩
  | 26 => ⟨S_, .f32⟩
  | 27 => ⟨S16, .f32⟩
  | 28 => ⟨S16, .i1⟩
  | 29 => ⟨S16, .i1⟩
  | 30 => ⟨S_, .f32⟩
  | 31 => ⟨S16, .f32⟩
  | 32 => ⟨S16, .i1⟩
  | 33 => ⟨S_, .f32⟩
  | 34 => ⟨S16, .f32⟩
  | 35 => ⟨S16, .i1⟩
  | 36 => ⟨S_, .f32⟩
  | 37 => ⟨S16, .f32⟩
  | 38 => ⟨S16, .i1⟩
  | 39 => ⟨S_, .f32⟩
  | 40 => ⟨S16, .f32⟩
  | 41 => ⟨S16, .i1⟩
  | 42 => ⟨S16, .i1⟩
  | 43 => ⟨S_, .f32⟩
  | 44 => ⟨S16, .f32⟩
  | 45 => ⟨S16, .i1⟩
  | 46 => ⟨S16, .i1⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .i1⟩
  | 60 => ⟨S16, .i1⟩
  | 61 => ⟨S1x16, .i1⟩
  | 62 => ⟨S1x16, .i1⟩
  | 63 => ⟨S1x16, .i1⟩
  | 64 => ⟨S1x16, .i1⟩
  | 65 => ⟨S1x16, .i1⟩
  | 66 => ⟨S5x16, .i1⟩
  | 67 => ⟨S5x16, .i32⟩
  | 68 => ⟨S_, .i1⟩
  | 69 => ⟨S_, .i32⟩
  | 70 => ⟨S16, .i1⟩
  | 71 => ⟨S16, .i32⟩
  | 72 => ⟨S_, .f32⟩
  | 73 => ⟨S16, .f32⟩
  | 74 => ⟨S16, .f32⟩
  | 75 => ⟨S16, .f32⟩
  | 76 => ⟨S16, .f32⟩
  | 77 => ⟨S16, .f32⟩
  | 78 => ⟨S_, .i32⟩
  | 79 => ⟨S16, .i32⟩
  | 80 => ⟨S16, .i1⟩
  | 81 => ⟨S_, .i32⟩
  | 82 => ⟨S16, .i32⟩
  | 83 => ⟨S16, .i1⟩
  | 84 => ⟨S16, .f32⟩
  | 85 => ⟨S_, .i32⟩
  | 86 => ⟨S16, .i32⟩
  | 87 => ⟨S16, .i1⟩
  | 88 => ⟨S_, .i32⟩
  | 89 => ⟨S16, .i32⟩
  | 90 => ⟨S16, .i1⟩
  | 91 => ⟨S16, .f32⟩
  | 92 => ⟨S16, .f32⟩
  | 93 => ⟨S16, .f32⟩
  | 94 => ⟨S1, .f32⟩
  | 95 => ⟨S_, .f32⟩
  | 96 => ⟨S1, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S16, .f32⟩
  | 105 => ⟨S16, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S16, .f32⟩
  | 113 => ⟨S16, .f32⟩
  | 114 => ⟨S_, .f32⟩
  | 115 => ⟨S_, .f32⟩
  | 116 => ⟨S16, .f32⟩
  | 117 => ⟨S16, .f32⟩
  | 118 => ⟨S16, .f32⟩
  | 119 => ⟨S16, .f32⟩
  | 120 => ⟨S_, .f32⟩
  | 121 => ⟨S_, .i1⟩
  | 122 => ⟨S_, .f32⟩
  | 123 => ⟨S_, .f32⟩
  | 124 => ⟨S_, .f32⟩
  | 125 => ⟨S_, .f32⟩
  | 126 => ⟨S16, .f32⟩
  | 127 => ⟨S16, .f32⟩
  | _ => ⟨S16x3x544x960, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S_, .f32⟩
  | 5 => ⟨S_, .f32⟩
  | 6 => ⟨S16, .f32⟩
  | 7 => ⟨S16, .f32⟩
  | 8 => ⟨S_, .f32⟩
  | 9 => ⟨S_, .f32⟩
  | 10 => ⟨S16, .f32⟩
  | 11 => ⟨S16, .f32⟩
  | 12 => ⟨S16, .f32⟩
  | 13 => ⟨S16, .f32⟩
  | 14 => ⟨S1x16, .f32⟩
  | 15 => ⟨S1x16, .f32⟩
  | 16 => ⟨S1x16, .f32⟩
  | 17 => ⟨S1x16, .f32⟩
  | 18 => ⟨S1x16, .f32⟩
  | 19 => ⟨S5x16, .f32⟩
  | _ => ⟨S16x3x544x960, .f32⟩

abbrev hbmTy (i : Nat) : BufTy := match i / 128 with
  | 0 => hbmTy0_0 i
  | 1 => hbmTy0_1 i
  | _ => ⟨S16x3x544x960, .f32⟩

abbrev bufTy : (tb : Table) → Fin (tcTables nBuf tb) → BufTy
  | .hbm, ⟨i, _⟩ => hbmTy i
  | .local _ .vmem, ⟨0, _⟩ => ⟨S16x3x16x960, .f32⟩
  | .local _ .vmem, ⟨1, _⟩ => ⟨S16x3x16x960, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | _, _ => ⟨S16x3x544x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_cst_10 : Ref sig .tc := ⟨.hbm, 48, rfl⟩
abbrev main_v32 : Ref sig .tc := ⟨.hbm, 49, rfl⟩
abbrev main_cst_11 : Ref sig .tc := ⟨.hbm, 50, rfl⟩
abbrev main_cst_12 : Ref sig .tc := ⟨.hbm, 51, rfl⟩
abbrev main_v33 : Ref sig .tc := ⟨.hbm, 52, rfl⟩
abbrev main_cst_13 : Ref sig .tc := ⟨.hbm, 53, rfl⟩
abbrev main_cst_14 : Ref sig .tc := ⟨.hbm, 54, rfl⟩
abbrev main_v34 : Ref sig .tc := ⟨.hbm, 55, rfl⟩
abbrev main_cst_15 : Ref sig .tc := ⟨.hbm, 56, rfl⟩
abbrev main_cst_16 : Ref sig .tc := ⟨.hbm, 57, rfl⟩
abbrev main_v35 : Ref sig .tc := ⟨.hbm, 58, rfl⟩
abbrev main_c : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call0_v0 : Ref sig .tc := ⟨.hbm, 67, rfl⟩
abbrev main_call0_c : Ref sig .tc := ⟨.hbm, 68, rfl⟩
abbrev main_call0_c_0 : Ref sig .tc := ⟨.hbm, 69, rfl⟩
abbrev main_call0_v1_0 : Ref sig .tc := ⟨.hbm, 70, rfl⟩
abbrev main_v43 : Ref sig .tc := ⟨.hbm, 71, rfl⟩
abbrev main_cst_17 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_18 : Ref sig .tc := ⟨.hbm, 78, rfl⟩
abbrev main_v49 : Ref sig .tc := ⟨.hbm, 79, rfl⟩
abbrev main_v50 : Ref sig .tc := ⟨.hbm, 80, rfl⟩
abbrev main_c_19 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_20 : Ref sig .tc := ⟨.hbm, 85, rfl⟩
abbrev main_v54 : Ref sig .tc := ⟨.hbm, 86, rfl⟩
abbrev main_v55 : Ref sig .tc := ⟨.hbm, 87, rfl⟩
abbrev main_c_21 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_22 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_cst_24 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_25 : Ref sig .tc := ⟨.hbm, 106, rfl⟩
abbrev main_v70 : Ref sig .tc := ⟨.hbm, 107, rfl⟩
abbrev main_cst_26 : Ref sig .tc := ⟨.hbm, 108, rfl⟩
abbrev main_v71 : Ref sig .tc := ⟨.hbm, 109, rfl⟩
abbrev main_cst_27 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_28 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_29 : Ref sig .tc := ⟨.hbm, 120, rfl⟩
abbrev main_v80 : Ref sig .tc := ⟨.hbm, 121, rfl⟩
abbrev main_cst_30 : Ref sig .tc := ⟨.hbm, 122, rfl⟩
abbrev main_v81 : Ref sig .tc := ⟨.hbm, 123, rfl⟩
abbrev main_cst_31 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_32 : Ref sig .tc := ⟨.hbm, 128, rfl⟩
abbrev main_v85 : Ref sig .tc := ⟨.hbm, 129, rfl⟩
abbrev main_cst_33 : Ref sig .tc := ⟨.hbm, 130, rfl⟩
abbrev main_v86 : Ref sig .tc := ⟨.hbm, 131, rfl⟩
abbrev main_cst_34 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_35 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x3x16x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S16x128_S16x128_0_0 : ∀ a, (![0, 0] : Fin 2 → Nat) a + S16x128.size a ≤ S16x128.size a
  h_S16x128 : 0 < S16x128.numel
  inb_S16x3x16x960_S16x3x16x960_0_0_0_0 : ∀ a, (![0, 0, 0, 0] : Fin 4 → Nat) a + S16x3x16x960.size a ≤ S16x3x16x960.size a
  h_S16x3x16x960 : 0 < S16x3x16x960.numel
  reduces_S16x3x16x960_S16x16x960 : S16x3x16x960.Reduces [1] S16x16x960
  natLt_1_32 : 1 < 32
  reduces_S16x16x960_S16x16 : S16x16x960.Reduces [2] S16x16
  reduces_S16x16_S16 : S16x16.Reduces [1] S16
  shapeCasts_S16x128_S16x128 : S16x128.ShapeCasts S16x128
  shapeCasts_S16_S16x1 : S16.ShapeCasts S16x1
  shapeCasts_S16x1_S16x1 : S16x1.ShapeCasts S16x1
  broadcasts_S16x1_S16x128 : S16x1.Broadcasts S16x128
  slices_S16x128_S16x1_0_0 : S16x128.Slices ![0, 0] S16x1
  shapeCasts_S16x1_S16 : S16x1.ShapeCasts S16
  bcast_S_S16 : S_.BroadcastsInDim S16 (![] : Fin 0 → Fin S16.rank)
  bcast_S16_S1x16_1 : S16.BroadcastsInDim S1x16 (![1] : Fin 1 → Fin S1x16.rank)
  concatenates_S1x16_S1x16_S1x16_S1x16_S1x16_S5x16_d0 : Shape.Concatenates [S1x16, S1x16, S1x16, S1x16, S1x16] S5x16 0
  reducesTo_S5x16_S16_d0 : S5x16.ReducesTo [0] S16
  h_S_ : 0 < S_.numel
  slices_S16_S1_15 : S16.Slices ![15] S1
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x16x960.size a ≤ S16x3x544x960.size a
  hwx0_0 : ∀ i : grid0.Coords, EltTy.bits .f32 = 32 ∨ (Rect.block (s := S16x3x544x960) S16x3x16x960.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

abbrev win0_0 : Pipeline.Window sig grid0 :=
  Pipeline.Window.ofSpec (Memref.whole main_arg0) S16x3x16x960.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S16x128.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S16x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S16x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x3x544x960 : Shape := ⟨4, ![16, 3, 544, 960]⟩
abbrev S16 : Shape := ⟨1, ![16]⟩
abbrev S_ : Shape := ⟨0, ![]⟩
abbrev S16x544x960 : Shape := ⟨3, ![16, 544, 960]⟩
abbrev S16x522240 : Shape := ⟨2, ![16, 522240]⟩
abbrev S1x16 : Shape := ⟨2, ![1, 16]⟩
abbrev S5x16 : Shape := ⟨2, ![5, 16]⟩
abbrev S1 : Shape := ⟨1, ![1]⟩

abbrev nBuf : Space → Nat
  | .hbm => 167
  | .vmem => 0
  | .smem => 0
  | _ => 0

abbrev hbmTy0_0 (i : Nat) : BufTy := match i % 128 with
  | 0 => ⟨S16x3x544x960, .f32⟩
  | 1 => ⟨S16, .f32⟩
  | 2 => ⟨S16, .f32⟩
  | 3 => ⟨S_, .f32⟩
  | 4 => ⟨S16x544x960, .f32⟩
  | 5 => ⟨S_, .f32⟩
  | 6 => ⟨S16x544x960, .f32⟩
  | 7 => ⟨S16x544x960, .f32⟩
  | 8 => ⟨S16x522240, .f32⟩
  | 9 => ⟨S_, .f32⟩
  | 10 => ⟨S16x522240, .f32⟩
  | 11 => ⟨S16x522240, .i1⟩
  | 12 => ⟨S_, .f32⟩
  | 13 => ⟨S16x522240, .f32⟩
  | 14 => ⟨S16x522240, .i1⟩
  | 15 => ⟨S16x522240, .i1⟩
  | 16 => ⟨S16x522240, .f32⟩
  | 17 => ⟨S_, .f32⟩
  | 18 => ⟨S16, .f32⟩
  | 19 => ⟨S_, .f32⟩
  | 20 => ⟨S16x522240, .f32⟩
  | 21 => ⟨S16x522240, .i1⟩
  | 22 => ⟨S_, .f32⟩
  | 23 => ⟨S16x522240, .f32⟩
  | 24 => ⟨S16x522240, .i1⟩
  | 25 => ⟨S16x522240, .i1⟩
  | 26 => ⟨S16x522240, .f32⟩
  | 27 => ⟨S_, .f32⟩
  | 28 => ⟨S16, .f32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .i1⟩
  | 41 => ⟨S_, .f32⟩
  | 42 => ⟨S16, .f32⟩
  | 43 => ⟨S16, .i1⟩
  | 44 => ⟨S16, .i1⟩
  | 45 => ⟨S_, .f32⟩
  | 46 => ⟨S16, .f32⟩
  | 47 => ⟨S16, .i1⟩
  | 48 => ⟨S16, .i1⟩
  | 49 => ⟨S_, .f32⟩
  | 50 => ⟨S16, .f32⟩
  | 51 => ⟨S16, .i1⟩
  | 52 => ⟨S_, .f32⟩
  | 53 => ⟨S16, .f32⟩
  | 54 => ⟨S16, .i1⟩
  | 55 => ⟨S_, .f32⟩
  | 56 => ⟨S16, .f32⟩
  | 57 => ⟨S16, .i1⟩
  | 58 => ⟨S_, .f32⟩
  | 59 => ⟨S16, .f32⟩
  | 60 => ⟨S16, .i1⟩
  | 61 => ⟨S16, .i1⟩
  | 62 => ⟨S_, .f32⟩
  | 63 => ⟨S16, .f32⟩
  | 64 => ⟨S16, .i1⟩
  | 65 => ⟨S16, .i1⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .i1⟩
  | 79 => ⟨S16, .i1⟩
  | 80 => ⟨S1x16, .i1⟩
  | 81 => ⟨S1x16, .i1⟩
  | 82 => ⟨S1x16, .i1⟩
  | 83 => ⟨S1x16, .i1⟩
  | 84 => ⟨S1x16, .i1⟩
  | 85 => ⟨S5x16, .i1⟩
  | 86 => ⟨S5x16, .i32⟩
  | 87 => ⟨S_, .i1⟩
  | 88 => ⟨S_, .i32⟩
  | 89 => ⟨S16, .i1⟩
  | 90 => ⟨S16, .i32⟩
  | 91 => ⟨S_, .f32⟩
  | 92 => ⟨S16, .f32⟩
  | 93 => ⟨S16, .f32⟩
  | 94 => ⟨S16, .f32⟩
  | 95 => ⟨S16, .f32⟩
  | 96 => ⟨S16, .f32⟩
  | 97 => ⟨S_, .i32⟩
  | 98 => ⟨S16, .i32⟩
  | 99 => ⟨S16, .i1⟩
  | 100 => ⟨S_, .i32⟩
  | 101 => ⟨S16, .i32⟩
  | 102 => ⟨S16, .i1⟩
  | 103 => ⟨S16, .f32⟩
  | 104 => ⟨S_, .i32⟩
  | 105 => ⟨S16, .i32⟩
  | 106 => ⟨S16, .i1⟩
  | 107 => ⟨S_, .i32⟩
  | 108 => ⟨S16, .i32⟩
  | 109 => ⟨S16, .i1⟩
  | 110 => ⟨S16, .f32⟩
  | 111 => ⟨S16, .f32⟩
  | 112 => ⟨S16, .f32⟩
  | 113 => ⟨S1, .f32⟩
  | 114 => ⟨S_, .f32⟩
  | 115 => ⟨S1, .f32⟩
  | 116 => ⟨S_, .f32⟩
  | 117 => ⟨S_, .f32⟩
  | 118 => ⟨S_, .i1⟩
  | 119 => ⟨S_, .f32⟩
  | 120 => ⟨S_, .f32⟩
  | 121 => ⟨S_, .f32⟩
  | 122 => ⟨S_, .f32⟩
  | 123 => ⟨S16, .f32⟩
  | 124 => ⟨S16, .f32⟩
  | 125 => ⟨S_, .f32⟩
  | 126 => ⟨S_, .i1⟩
  | 127 => ⟨S_, .f32⟩
  | _ => ⟨S16x3x544x960, .f32⟩

abbrev hbmTy0_1 (i : Nat) : BufTy := match i % 128 with
  | 0 => ⟨S_, .f32⟩
  | 1 => ⟨S_, .f32⟩
  | 2 => ⟨S_, .f32⟩
  | 3 => ⟨S16, .f32⟩
  | 4 => ⟨S16, .f32⟩
  | 5 => ⟨S_, .f32⟩
  | 6 => ⟨S_, .f32⟩
  | 7 => ⟨S16, .f32⟩
  | 8 => ⟨S16, .f32⟩
  | 9 => ⟨S16, .f32⟩
  | 10 => ⟨S16, .f32⟩
  | 11 => ⟨S_, .f32⟩
  | 12 => ⟨S_, .i1⟩
  | 13 => ⟨S_, .f32⟩
  | 14 => ⟨S_, .f32⟩
  | 15 => ⟨S_, .f32⟩
  | 16 => ⟨S_, .f32⟩
  | 17 => ⟨S16, .f32⟩
  | 18 => ⟨S16, .f32⟩
  | 19 => ⟨S_, .f32⟩
  | 20 => ⟨S_, .i1⟩
  | 21 => ⟨S_, .f32⟩
  | 22 => ⟨S_, .f32⟩
  | 23 => ⟨S_, .f32⟩
  | 24 => ⟨S_, .f32⟩
  | 25 => ⟨S16, .f32⟩
  | 26 => ⟨S16, .f32⟩
  | 27 => ⟨S_, .f32⟩
  | 28 => ⟨S_, .f32⟩
  | 29 => ⟨S16, .f32⟩
  | 30 => ⟨S16, .f32⟩
  | 31 => ⟨S16, .f32⟩
  | 32 => ⟨S16, .f32⟩
  | 33 => ⟨S1x16, .f32⟩
  | 34 => ⟨S1x16, .f32⟩
  | 35 => ⟨S1x16, .f32⟩
  | 36 => ⟨S1x16, .f32⟩
  | 37 => ⟨S1x16, .f32⟩
  | 38 => ⟨S5x16, .f32⟩
  | _ => ⟨S16x3x544x960, .f32⟩

abbrev hbmTy (i : Nat) : BufTy := match i / 128 with
  | 0 => hbmTy0_0 i
  | 1 => hbmTy0_1 i
  | _ => ⟨S16x3x544x960, .f32⟩

abbrev bufTy : (tb : Table) → Fin (tcTables nBuf tb) → BufTy
  | .hbm, ⟨i, _⟩ => hbmTy i
  | _, _ => ⟨S16x3x544x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_cst_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_cst_9 : Ref sig .tc := ⟨.hbm, 35, rfl⟩
abbrev main_v22 : Ref sig .tc := ⟨.hbm, 36, rfl⟩
abbrev main_v23 : Ref sig .tc := ⟨.hbm, 37, rfl⟩
abbrev main_cst_10 : Ref sig .tc := ⟨.hbm, 38, rfl⟩
abbrev main_v24 : Ref sig .tc := ⟨.hbm, 39, rfl⟩
abbrev main_v25 : Ref sig .tc := ⟨.hbm, 40, rfl⟩
abbrev main_cst_11 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_12 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_13 : Ref sig .tc := ⟨.hbm, 49, rfl⟩
abbrev main_v32 : Ref sig .tc := ⟨.hbm, 50, rfl⟩
abbrev main_v33 : Ref sig .tc := ⟨.hbm, 51, rfl⟩
abbrev main_cst_14 : Ref sig .tc := ⟨.hbm, 52, rfl⟩
abbrev main_v34 : Ref sig .tc := ⟨.hbm, 53, rfl⟩
abbrev main_v35 : Ref sig .tc := ⟨.hbm, 54, rfl⟩
abbrev main_cst_15 : Ref sig .tc := ⟨.hbm, 55, rfl⟩
abbrev main_v36 : Ref sig .tc := ⟨.hbm, 56, rfl⟩
abbrev main_v37 : Ref sig .tc := ⟨.hbm, 57, rfl⟩
abbrev main_cst_16 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_17 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_18 : Ref sig .tc := ⟨.hbm, 66, rfl⟩
abbrev main_cst_19 : Ref sig .tc := ⟨.hbm, 67, rfl⟩
abbrev main_v44 : Ref sig .tc := ⟨.hbm, 68, rfl⟩
abbrev main_cst_20 : Ref sig .tc := ⟨.hbm, 69, rfl⟩
abbrev main_cst_21 : Ref sig .tc := ⟨.hbm, 70, rfl⟩
abbrev main_v45 : Ref sig .tc := ⟨.hbm, 71, rfl⟩
abbrev main_cst_22 : Ref sig .tc := ⟨.hbm, 72, rfl⟩
abbrev main_cst_23 : Ref sig .tc := ⟨.hbm, 73, rfl⟩
abbrev main_v46 : Ref sig .tc := ⟨.hbm, 74, rfl⟩
abbrev main_cst_24 : Ref sig .tc := ⟨.hbm, 75, rfl⟩
abbrev main_cst_25 : Ref sig .tc := ⟨.hbm, 76, rfl⟩
abbrev main_v47 : Ref sig .tc := ⟨.hbm, 77, rfl⟩
abbrev main_c : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call0_v0 : Ref sig .tc := ⟨.hbm, 86, rfl⟩
abbrev main_call0_c : Ref sig .tc := ⟨.hbm, 87, rfl⟩
abbrev main_call0_c_0 : Ref sig .tc := ⟨.hbm, 88, rfl⟩
abbrev main_call0_v1_0 : Ref sig .tc := ⟨.hbm, 89, rfl⟩
abbrev main_v55 : Ref sig .tc := ⟨.hbm, 90, rfl⟩
abbrev main_cst_26 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_27 : Ref sig .tc := ⟨.hbm, 97, rfl⟩
abbrev main_v61 : Ref sig .tc := ⟨.hbm, 98, rfl⟩
abbrev main_v62 : Ref sig .tc := ⟨.hbm, 99, rfl⟩
abbrev main_c_28 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_29 : Ref sig .tc := ⟨.hbm, 104, rfl⟩
abbrev main_v66 : Ref sig .tc := ⟨.hbm, 105, rfl⟩
abbrev main_v67 : Ref sig .tc := ⟨.hbm, 106, rfl⟩
abbrev main_c_30 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_31 : Ref sig .tc := ⟨.hbm, 117, rfl⟩
abbrev main_v77 : Ref sig .tc := ⟨.hbm, 118, rfl⟩
abbrev main_cst_32 : Ref sig .tc := ⟨.hbm, 119, rfl⟩
abbrev main_v78 : Ref sig .tc := ⟨.hbm, 120, rfl⟩
abbrev main_cst_33 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_34 : Ref sig .tc := ⟨.hbm, 125, rfl⟩
abbrev main_v82 : Ref sig .tc := ⟨.hbm, 126, rfl⟩
abbrev main_cst_35 : Ref sig .tc := ⟨.hbm, 127, rfl⟩
abbrev main_v83 : Ref sig .tc := ⟨.hbm, 128, rfl⟩
abbrev main_cst_36 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_37 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_38 : Ref sig .tc := ⟨.hbm, 139, rfl⟩
abbrev main_v92 : Ref sig .tc := ⟨.hbm, 140, rfl⟩
abbrev main_cst_39 : Ref sig .tc := ⟨.hbm, 141, rfl⟩
abbrev main_v93 : Ref sig .tc := ⟨.hbm, 142, rfl⟩
abbrev main_cst_40 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_41 : Ref sig .tc := ⟨.hbm, 147, rfl⟩
abbrev main_v97 : Ref sig .tc := ⟨.hbm, 148, rfl⟩
abbrev main_cst_42 : Ref sig .tc := ⟨.hbm, 149, rfl⟩
abbrev main_v98 : Ref sig .tc := ⟨.hbm, 150, rfl⟩
abbrev main_cst_43 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_44 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩

abbrev nD : Nat := 1
abbrev τ : Topo := Topo.v7x

variable {F : FTy → Type} [FloatOps F]

class Facts₀ : Prop where
  reducesTo_S16x3x544x960_S16x544x960_d1 : S16x3x544x960.ReducesTo [1] S16x544x960
  h_S_ : 0 < S_.numel
  bcast_S_S16x544x960 : S_.BroadcastsInDim S16x544x960 (![] : Fin 0 → Fin S16x544x960.rank)
  shapeCasts_S16x544x960_S16x522240 : S16x544x960.ShapeCasts S16x522240
  bcast_S_S16x522240 : S_.BroadcastsInDim S16x522240 (![] : Fin 0 → Fin S16x522240.rank)
  reducesTo_S16x522240_S16_d1 : S16x522240.ReducesTo [1] S16
  bcast_S_S16 : S_.BroadcastsInDim S16 (![] : Fin 0 → Fin S16.rank)
  reducesTo_S16x544x960_S16_d1_2 : S16x544x960.ReducesTo [1, 2] S16
  bcast_S16_S1x16_1 : S16.BroadcastsInDim S1x16 (![1] : Fin 1 → Fin S1x16.rank)
  concatenates_S1x16_S1x16_S1x16_S1x16_S1x16_S5x16_d0 : Shape.Concatenates [S1x16, S1x16, S1x16, S1x16, S1x16] S5x16 0
  reducesTo_S5x16_S16_d0 : S5x16.ReducesTo [0] S16
  slices_S16_S1_15 : S16.Slices ![15] S1
  shapeCasts_S1_S_ : S1.ShapeCasts S_

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

class Facts : Prop extends Facts₀ where

variable [Facts]
-- ==== Proof.KB.Tail.lean ====
/-
  The host lines that follow the kernel's region, as far as the frame needs them.

  After the region @main runs nine stretches of host operations (142 in all: slices of the three
  accumulators, the scalar tail, the final stack).  Each operation touches unscoped TensorCore buffers
  only, allocates nothing, and writes exactly one buffer, its own result, which is neither one of the
  four arrays the pipeline stages (the image and the three accumulators) nor an argument.  So the
  lines run from the region's exit, leave the arrays as the region left them and the arguments as
  launched.
-/
import proofs.«164688_j20031727468607_2_alg».proof.Proof.Gen.Kernel.Launch
import proofs.«164688_j20031727468607_2_alg».proof.Proof.Gen.Kernel.Skeleton
import proofs.«164688_j20031727468607_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hist

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations after the region, in order. -/
abbrev tailOps : List (List (HloOp τ sig (Elt F))) :=
  [hostOps1, hostOps1_1, hostOps1_2, hostOps1_3, hostOps1_4, hostOps1_5, hostOps1_6, hostOps1_7, hostOps1_8]

/-- Core `c`'s TensorCore buffers when the region is entered: as launched (no host line precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall])
    (by simp only [List.Forall]) main_chain

/-- A property of every operation of every stretch, from the property of each stretch. -/
theorem tailOps_forall {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) (h7 : (hostOps1_7 : List (HloOp τ sig (Elt F))).Forall P)
    (h8 : (hostOps1_8 : List (HloOp τ sig (Elt F))).Forall P) :
    ∀ ops ∈ (tailOps : List (List (HloOp τ sig (Elt F)))), ∀ op ∈ ops, P op := by
  intro ops hops op hop
  simp only [List.mem_cons, List.mem_nil_iff, or_false] at hops
  rcases hops with rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tailOps_forall (P := fun op => op.bufs ⊆ StableHlo.tcRefs τ sig)
    hostOps1_sub hostOps1_1_sub hostOps1_2_sub hostOps1_3_sub hostOps1_4_sub hostOps1_5_sub hostOps1_6_sub hostOps1_7_sub hostOps1_8_sub ops hops op hop)

/-- They allocate nothing. -/
theorem sfx_fresh : ∀ ops ∈ (tailOps : List (List (HloOp τ sig (Elt F)))), ∀ op ∈ ops, op.fresh = ∅ :=
  tailOps_forall hostOps1_fresh hostOps1_1_fresh hostOps1_2_fresh hostOps1_3_fresh hostOps1_4_fresh hostOps1_5_fresh hostOps1_6_fresh hostOps1_7_fresh hostOps1_8_fresh

/-- An operation writes neither an argument nor one of the three accumulator arrays. -/
def Keeps (op : HloOp τ sig (Elt F)) : Prop :=
  Proc.devRef .tc main_arg0 ∉ op.writes ∧ Proc.devRef .tc main_arg1 ∉ op.writes ∧ Proc.devRef .tc main_arg2 ∉ op.writes
    ∧ Proc.devRef .tc main_v0_0 ∉ op.writes ∧ Proc.devRef .tc main_v0_1 ∉ op.writes ∧ Proc.devRef .tc main_v0_2 ∉ op.writes

theorem hostOps1_keeps : (hostOps1 : List (HloOp τ sig (Elt F))).Forall Keeps := by
  simp only [hostOps1, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_1_keeps : (hostOps1_1 : List (HloOp τ sig (Elt F))).Forall Keeps := by
  simp only [hostOps1_1, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_2_keeps : (hostOps1_2 : List (HloOp τ sig (Elt F))).Forall Keeps := by
  simp only [hostOps1_2, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_3_keeps : (hostOps1_3 : List (HloOp τ sig (Elt F))).Forall Keeps := by
  simp only [hostOps1_3, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_4_keeps : (hostOps1_4 : List (HloOp τ sig (Elt F))).Forall Keeps := by
  simp only [hostOps1_4, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_5_keeps : (hostOps1_5 : List (HloOp τ sig (Elt F))).Forall Keeps := by
  simp only [hostOps1_5, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_6_keeps : (hostOps1_6 : List (HloOp τ sig (Elt F))).Forall Keeps := by
  simp only [hostOps1_6, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_7_keeps : (hostOps1_7 : List (HloOp τ sig (Elt F))).Forall Keeps := by
  simp only [hostOps1_7, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_8_keeps : (hostOps1_8 : List (HloOp τ sig (Elt F))).Forall Keeps := by
  simp only [hostOps1_8, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)

/-- Every later line keeps the arguments and the accumulator arrays. -/
theorem tail_keeps : ∀ ops ∈ (tailOps : List (List (HloOp τ sig (Elt F)))), ∀ op ∈ ops, Keeps op :=
  tailOps_forall hostOps1_keeps hostOps1_1_keeps hostOps1_2_keeps hostOps1_3_keeps hostOps1_4_keeps hostOps1_5_keeps hostOps1_6_keeps hostOps1_7_keeps hostOps1_8_keeps

/-- So they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hk := tail_keeps ops hops op hop
  fin_cases w
  · exact hk.1
  · exact hk.2.2.2.1
  · exact hk.2.2.2.2.1
  · exact hk.2.2.2.2.2

/-- A buffer no later line writes, and no array of the pipeline, ends as launched. -/
theorem afterTail_kept (dats : (p : Fin 1) → (c : Dev nD) → Dat τ (Elt F) Unit ℕ (UR sig nD τ) ℕ (cfgs p) c) (c : Dev nD)
    (b : Ref sig .tc) (hb : ∀ ops ∈ (tailOps : List (List (HloOp τ sig (Elt F)))), ∀ op ∈ ops, Proc.devRef .tc b ∉ op.writes)
    (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact hb ops hops op hop'),
    Pipeline.withArrays_of_ne _ c (V0 m c) _ b hne]
  rfl

theorem afterTail_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  afterTail_kept m dats c main_arg1 (fun ops hops op hop => (tail_keeps ops hops op hop).2.1) (by decide)

theorem afterTail_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  afterTail_kept m dats c main_arg2 (fun ops hops op hop => (tail_keeps ops hops op hop).2.2.1) (by decide)

end Cert.Kernel.Hist

end
-- ==== Proof.KB.Runs.lean ====
/-
  What the two runs of the kernel body share.

  The pipeline stages four windows: the image, tile by tile (34 tiles of 16 rows, fetched at every point),
  and the three accumulators [16,128], each one whole block resident across the grid and written back
  after the last point only.  The body branches once, on "this is the first grid point": there it first
  stores zeros into the three accumulators; at every point it then adds the tile's three per-image sums,
  spread along the 128 lanes, to what the accumulators hold.
-/
import proofs.«164688_j20031727468607_2_alg».proof.Proof.KB.Tail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hist

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem V_main_arg0 (c : Dev nD) : V m c main_arg0 = m ((c : Thread nD τ).loc main_arg0) := rfl

/-! ## The frame claim's post from the frame run's -/

/-- For any proof data whose arrays are the region-entry contents, a run to the library's frame post read at the three
    argument arrays — the image a staged input, the two exposure vectors buffers no window stages and no later line
    writes — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (afterTail_arg1 m dats c),
     ((h c).2 main_arg2 (Pipeline.mem_restRefs_of main_arg2 (by decide) (by decide))).trans (afterTail_arg2 m dats c)⟩) h

/-! ## The body's branch condition -/

/-- The condition of the body's one branch, from the grid coordinate: "the coordinate is zero". -/
abbrev cond0_0 (i : grid0.Coords) : Prop := (Scalar.cmpi .ne (Scalar.extui (Scalar.cmpi .eq (BitVec.ofNat 32 (i 0).val) 0#32)) 0#32) = 1#1
/-- It holds at the first point only — decided over the 34 points. -/
theorem hcond0_0 : ∀ t : Fin cfg0.N, cond0_0 (grid0.coords t) ↔ t.val % 34 = 0 :=
  (by decide +kernel : ∀ t : Fin grid0.N, cond0_0 (grid0.coords t) ↔ t.val % 34 = 0)

/-! ## The staging memrefs -/

/-- One staging buffer of each accumulator window, through which its contents are stated. -/
abbrev VO0_1 : View sig .tc .vmem S16x128 .f32 := (Memref.whole cc0_stg1_0 : Memref sig .tc .vmem S16x128 .f32).view
abbrev VO0_2 : View sig .tc .vmem S16x128 .f32 := (Memref.whole cc0_stg2_0 : Memref sig .tc .vmem S16x128 .f32).view
abbrev VO0_3 : View sig .tc .vmem S16x128 .f32 := (Memref.whole cc0_stg3_0 : Memref sig .tc .vmem S16x128 .f32).view
/-- Each window's current staging memref at point `t`, as the pipeline passes it, and its wholeness. -/
abbrev ms0_0 (t : Fin cfg0.N) : Memref sig .tc .vmem S16x3x16x960 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)

end Cert.Kernel.Hist

end
-- ==== Proof.KB.RunA.lean ====
/-
  The kernel body at the FIRST grid point: it stores zeros into the three accumulators, then adds the
  tile's per-image sums to what it reads back.  On whole staging memrefs — the image tile at its
  contents, the accumulators at anything — the body runs to its end without a fault, the tile's
  buffer as it was and each accumulator's buffer overwritten by the stores the run finds.
-/
import proofs.«164688_j20031727468607_2_alg».proof.Proof.KB.Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hist

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each accumulator's staging memref, as pieces (last first), with the proof that the
    body runs to the continuation holding the tile's buffer as it was and each accumulator's with its pieces written. -/
noncomputable def kernelRun0_A (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) :
    Σ' (L1 : List (View.Piece (Elt F) S16x128 .f32)), Σ' (L2 : List (View.Piece (Elt F) S16x128 .f32)), { L3 : List (View.Piece (Elt F) S16x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__hist_kernel i arg1 harg1 arg2 harg2 arg3 harg3 arg4 harg4) K } := by
  refine ⟨?_, ?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    iexists _; iexact H3

end Cert.Kernel.Hist

end
-- ==== Proof.KB.RunB.lean ====
/-
  The kernel body at a LATER grid point: it adds the tile's per-image sums to what the three
  accumulators hold.  On whole staging memrefs — the image tile and the three accumulators at their
  contents — the body runs to its end without a fault, the tile's buffer as it was and each
  accumulator's buffer overwritten by the stores the run finds.
-/
import proofs.«164688_j20031727468607_2_alg».proof.Proof.KB.RunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hist

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each accumulator's staging memref, as pieces (last first), with the proof that the
    body runs to the continuation holding the tile's buffer as it was and each accumulator's with its pieces written. -/
noncomputable def kernelRun0_B (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) :
    Σ' (L1 : List (View.Piece (Elt F) S16x128 .f32)), Σ' (L2 : List (View.Piece (Elt F) S16x128 .f32)), { L3 : List (View.Piece (Elt F) S16x128 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2 ∗ owns (c : Thread nD τ) arg4 fullShare xo3
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__hist_kernel i arg1 harg1 arg2 harg2 arg3 harg3 arg4 harg4) K } := by
  refine ⟨?_, ?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    iexists _; iexact H3

end Cert.Kernel.Hist

end
-- ==== Proof.KB.Frame.lean ====
/-
  The frame of the kernel program: what the three accumulators hold after each grid point, the proof data
  of the pipeline, the body's obligation at every point, the run of @main and the frame claim.

  After the first point each accumulator holds what the first run's stores leave (zeros, then the first
  tile's sums added); after a later point what that run's stores leave over what the point before left:
  the accumulators are not written back between points (only after the last), so each point finds them as
  the point before left them.  The image's tile is found at its block at every point.
-/
import proofs.«164688_j20031727468607_2_alg».proof.Proof.KB.RunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hist

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces run A finds for accumulator 1 tile its block, so they cover it. -/
theorem cover0_A_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) (y : S16x128.Idx) :
    ∃ pc ∈ (kernelRun0_A c i arg1 harg1 arg2 harg2 arg3 harg3 arg4 harg4 hc0 x0).1, y ∈ pc.1.set :=
  View.cover_of_tiledL (kernelRun0_A c i arg1 harg1 arg2 harg2 arg3 harg3 arg4 harg4 hc0 x0).1 S16x128.size (by sl_kernel_rfl) y

/-- What run A leaves in accumulator 1's staging buffer: its pieces read back. -/
def out0_A_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) : Vec F S16x128 .f32 :=
  VO0_1.read (Elt F) (VO0_1.writes (Elt F) VO0_1.junk (kernelRun0_A c i arg1 harg1 arg2 harg2 arg3 harg3 arg4 harg4 hc0 x0).1)

/-- The pieces run A finds for accumulator 2 tile its block, so they cover it. -/
theorem cover0_A_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) (y : S16x128.Idx) :
    ∃ pc ∈ (kernelRun0_A c i arg1 harg1 arg2 harg2 arg3 harg3 arg4 harg4 hc0 x0).2.1, y ∈ pc.1.set :=
  View.cover_of_tiledL (kernelRun0_A c i arg1 harg1 arg2 harg2 arg3 harg3 arg4 harg4 hc0 x0).2.1 S16x128.size (by sl_kernel_rfl) y

/-- What run A leaves in accumulator 2's staging buffer: its pieces read back. -/
def out0_A_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) : Vec F S16x128 .f32 :=
  VO0_2.read (Elt F) (VO0_2.writes (Elt F) VO0_2.junk (kernelRun0_A c i arg1 harg1 arg2 harg2 arg3 harg3 arg4 harg4 hc0 x0).2.1)

/-- The pieces run A finds for accumulator 3 tile its block, so they cover it. -/
theorem cover0_A_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) (y : S16x128.Idx) :
    ∃ pc ∈ (kernelRun0_A c i arg1 harg1 arg2 harg2 arg3 harg3 arg4 harg4 hc0 x0).2.2.1, y ∈ pc.1.set :=
  View.cover_of_tiledL (kernelRun0_A c i arg1 harg1 arg2 harg2 arg3 harg3 arg4 harg4 hc0 x0).2.2.1 S16x128.size (by sl_kernel_rfl) y

/-- What run A leaves in accumulator 3's staging buffer: its pieces read back. -/
def out0_A_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) : Vec F S16x128 .f32 :=
  VO0_3.read (Elt F) (VO0_3.writes (Elt F) VO0_3.junk (kernelRun0_A c i arg1 harg1 arg2 harg2 arg3 harg3 arg4 harg4 hc0 x0).2.2.1)

/-- The pieces run B finds for accumulator 1 tile its block, so they cover it. -/
theorem cover0_B_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) (y : S16x128.Idx) :
    ∃ pc ∈ (kernelRun0_B c i arg1 harg1 arg2 harg2 arg3 harg3 arg4 harg4 hc0 x0 xo1 xo2 xo3).1, y ∈ pc.1.set :=
  View.cover_of_tiledL (kernelRun0_B c i arg1 harg1 arg2 harg2 arg3 harg3 arg4 harg4 hc0 x0 xo1 xo2 xo3).1 S16x128.size (by sl_kernel_rfl) y

/-- What run B leaves in accumulator 1's staging buffer: its pieces read back. -/
def out0_B_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) : Vec F S16x128 .f32 :=
  VO0_1.read (Elt F) (VO0_1.writes (Elt F) VO0_1.junk (kernelRun0_B c i arg1 harg1 arg2 harg2 arg3 harg3 arg4 harg4 hc0 x0 xo1 xo2 xo3).1)

/-- The pieces run B finds for accumulator 2 tile its block, so they cover it. -/
theorem cover0_B_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) (y : S16x128.Idx) :
    ∃ pc ∈ (kernelRun0_B c i arg1 harg1 arg2 harg2 arg3 harg3 arg4 harg4 hc0 x0 xo1 xo2 xo3).2.1, y ∈ pc.1.set :=
  View.cover_of_tiledL (kernelRun0_B c i arg1 harg1 arg2 harg2 arg3 harg3 arg4 harg4 hc0 x0 xo1 xo2 xo3).2.1 S16x128.size (by sl_kernel_rfl) y

/-- What run B leaves in accumulator 2's staging buffer: its pieces read back. -/
def out0_B_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) : Vec F S16x128 .f32 :=
  VO0_2.read (Elt F) (VO0_2.writes (Elt F) VO0_2.junk (kernelRun0_B c i arg1 harg1 arg2 harg2 arg3 harg3 arg4 harg4 hc0 x0 xo1 xo2 xo3).2.1)

/-- The pieces run B finds for accumulator 3 tile its block, so they cover it. -/
theorem cover0_B_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) (y : S16x128.Idx) :
    ∃ pc ∈ (kernelRun0_B c i arg1 harg1 arg2 harg2 arg3 harg3 arg4 harg4 hc0 x0 xo1 xo2 xo3).2.2.1, y ∈ pc.1.set :=
  View.cover_of_tiledL (kernelRun0_B c i arg1 harg1 arg2 harg2 arg3 harg3 arg4 harg4 hc0 x0 xo1 xo2 xo3).2.2.1 S16x128.size (by sl_kernel_rfl) y

/-- What run B leaves in accumulator 3's staging buffer: its pieces read back. -/
def out0_B_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) : Vec F S16x128 .f32 :=
  VO0_3.read (Elt F) (VO0_3.writes (Elt F) VO0_3.junk (kernelRun0_B c i arg1 harg1 arg2 harg2 arg3 harg3 arg4 harg4 hc0 x0 xo1 xo2 xo3).2.2.1)

/-! ## What the accumulators hold after each point -/

/-- The accumulation: what the three accumulators' staging buffers hold after the body at position `n`. -/
def outsAt0 (c : Dev nD) : (n : ℕ) → n < cfg0.N → Vec F S16x128 .f32 × Vec F S16x128 .f32 × Vec F S16x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩),
       out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩))
  | n + 1, hn =>
    if h0 : (n + 1) % 34 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2)

/-- At the first point: the first run's contents. -/
theorem outsAt0_A (c : Dev nD) (t : Fin cfg0.N) (h0 : t.val % 34 = 0) :
    outsAt0 m c t.val t.isLt = (out0_A_1 c (grid0.coords t) (ms0_0 t) (hs0_0 t) (ms0_1 t) (hs0_1 t) (ms0_2 t) (hs0_2 t) (ms0_3 t) (hs0_3 t) ((hcond0_0 t).mpr h0) (iblk m c 0 t),
       out0_A_2 c (grid0.coords t) (ms0_0 t) (hs0_0 t) (ms0_1 t) (hs0_1 t) (ms0_2 t) (hs0_2 t) (ms0_3 t) (hs0_3 t) ((hcond0_0 t).mpr h0) (iblk m c 0 t),
       out0_A_3 c (grid0.coords t) (ms0_0 t) (hs0_0 t) (ms0_1 t) (hs0_1 t) (ms0_2 t) (hs0_2 t) (ms0_3 t) (hs0_3 t) ((hcond0_0 t).mpr h0) (iblk m c 0 t)) := by
  obtain ⟨n, hn⟩ := t
  cases n with
  | zero => exact rfl
  | succ n => exact (dif_pos h0).trans rfl

/-- At a later point: the later run's contents, over what the point before left. -/
theorem outsAt0_B (c : Dev nD) (t : Fin cfg0.N) (h0 : ¬t.val % 34 = 0) :
    outsAt0 m c t.val t.isLt = (out0_B_1 c (grid0.coords t) (ms0_0 t) (hs0_0 t) (ms0_1 t) (hs0_1 t) (ms0_2 t) (hs0_2 t) (ms0_3 t) (hs0_3 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the tile's buffer at its block and the
    accumulators' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2 := by dsimp only [dats]

/-- The tile's current staging buffer holds its block at every point. -/
theorem before0_0 (c : Dev nD) (t : Fin cfg0.N) (d) : (dats m 0 c).before 0 t d = iblk m c 0 t :=
  before0_0_of m (dats m 0 c) (A_eq m c 0) (after0_0 m c) t d

/-- At a later point accumulator 1's staging buffer holds what the body left at the point before: it was not written
    back between. -/
theorem before0_1_B (c : Dev nD) (t : Fin cfg0.N) (h0 : ¬t.val % 34 = 0) (d) :
    (dats m 0 c).before 1 t d = (outsAt0 m c (t.val - 1) (Nat.lt_of_le_of_lt (Nat.sub_le _ _) t.isLt)).1 := by
  have hN : t.val < 34 := lt_of_lt_of_eq t.isLt (show cfg0.N = 34 from N_0)
  rw [Dat.before_out_kept _ 1 rfl t (by omega) (Bool.eq_false_iff.mpr fun h => by have := (flush0_1 _).mp h; dsimp only at this; omega)
    (fun _ => rfl) (fun _ _ => rfl)]
  dsimp only [dats]

/-- At a later point accumulator 2's staging buffer holds what the body left at the point before: it was not written
    back between. -/
theorem before0_2_B (c : Dev nD) (t : Fin cfg0.N) (h0 : ¬t.val % 34 = 0) (d) :
    (dats m 0 c).before 2 t d = (outsAt0 m c (t.val - 1) (Nat.lt_of_le_of_lt (Nat.sub_le _ _) t.isLt)).2.1 := by
  have hN : t.val < 34 := lt_of_lt_of_eq t.isLt (show cfg0.N = 34 from N_0)
  rw [Dat.before_out_kept _ 2 rfl t (by omega) (Bool.eq_false_iff.mpr fun h => by have := (flush0_2 _).mp h; dsimp only at this; omega)
    (fun _ => rfl) (fun _ _ => rfl)]
  dsimp only [dats]

/-- At a later point accumulator 3's staging buffer holds what the body left at the point before: it was not written
    back between. -/
theorem before0_3_B (c : Dev nD) (t : Fin cfg0.N) (h0 : ¬t.val % 34 = 0) (d) :
    (dats m 0 c).before 3 t d = (outsAt0 m c (t.val - 1) (Nat.lt_of_le_of_lt (Nat.sub_le _ _) t.isLt)).2.2 := by
  have hN : t.val < 34 := lt_of_lt_of_eq t.isLt (show cfg0.N = 34 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body at any point: the tile's memref holds its block; the closed form says whether the point is the first; at a
    later point each accumulator holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 34 := lt_of_lt_of_eq t.isLt (show cfg0.N = 34 from N_0)
  by_cases h0 : t.val % 34 = 0
  · rw [outsAt0_A m c t h0]
    (try dsimp only)
    unfold out0_A_1 out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t)).2.2.2 Set.univ _)
    isplitl [H0]; · iexact H0
    isplitl [H1]; · iexists _; iexact H1
    isplitl [H2]; · iexists _; iexact H2
    isplitl [H3]; · iexists _; iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _)
    isplitl [H2]
    · unfold owns; iexists _; isplitr
      swap; · iexact H2
      ipureintro; exact View.read_writes_of_cover _ _ _ _ _ (cover0_A_2 c _ _ _ _ _ _ _ _ _ _ _)
    unfold owns; iexists _; isplitr
    swap; · iexact H3
    ipureintro; exact View.read_writes_of_cover _ _ _ _ _ (cover0_A_3 c _ _ _ _ _ _ _ _ _ _ _)
  · rw [outsAt0_B m c t h0]
    (try dsimp only)
    simp only [before0_1_B m c t h0, before0_2_B m c t h0, before0_3_B m c t h0]
    unfold out0_B_1 out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) _ _ _).2.2.2 Set.univ _)
    isplitl [H0]; · iexact H0
    isplitl [H1]; · iexact H1
    isplitl [H2]; · iexact H2
    isplitl [H3]; · iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every array of the pipeline ending at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to its end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hist

end
-- ==== Proof.KI.Tail.lean ====
/-
  The host lines that follow the kernel's region, as far as the frame needs them.

  After the region @main runs nine stretches of host operations (142 in all: slices of the three
  accumulators, the scalar tail, the final stack).  Each operation touches unscoped TensorCore buffers
  only, allocates nothing, and writes exactly one buffer, its own result, which is neither one of the
  four arrays the pipeline stages (the image and the three accumulators) nor an argument.  So the
  lines run from the region's exit, leave the arrays as the region left them and the arguments as
  launched.
-/
import proofs.«164688_j20031727468607_2_alg».proof.Proof.Gen.KernelIdeal.Launch
import proofs.«164688_j20031727468607_2_alg».proof.Proof.Gen.KernelIdeal.Skeleton
import proofs.«164688_j20031727468607_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stretches of host operations after the region, in order. -/
abbrev tailOps : List (List (HloOp τ sig (Elt F))) :=
  [hostOps1, hostOps1_1, hostOps1_2, hostOps1_3, hostOps1_4, hostOps1_5, hostOps1_6, hostOps1_7, hostOps1_8]

/-- Core `c`'s TensorCore buffers when the region is entered: as launched (no host line precedes it). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall])
    (by simp only [List.Forall]) main_chain

/-- A property of every operation of every stretch, from the property of each stretch. -/
theorem tailOps_forall {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) (h7 : (hostOps1_7 : List (HloOp τ sig (Elt F))).Forall P)
    (h8 : (hostOps1_8 : List (HloOp τ sig (Elt F))).Forall P) :
    ∀ ops ∈ (tailOps : List (List (HloOp τ sig (Elt F)))), ∀ op ∈ ops, P op := by
  intro ops hops op hop
  simp only [List.mem_cons, List.mem_nil_iff, or_false] at hops
  rcases hops with rfl | rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop
  · exact (List.forall_iff_forall_mem.mp h8) op hop

/-- The later lines touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tailOps_forall (P := fun op => op.bufs ⊆ StableHlo.tcRefs τ sig)
    hostOps1_sub hostOps1_1_sub hostOps1_2_sub hostOps1_3_sub hostOps1_4_sub hostOps1_5_sub hostOps1_6_sub hostOps1_7_sub hostOps1_8_sub ops hops op hop)

/-- They allocate nothing. -/
theorem sfx_fresh : ∀ ops ∈ (tailOps : List (List (HloOp τ sig (Elt F)))), ∀ op ∈ ops, op.fresh = ∅ :=
  tailOps_forall hostOps1_fresh hostOps1_1_fresh hostOps1_2_fresh hostOps1_3_fresh hostOps1_4_fresh hostOps1_5_fresh hostOps1_6_fresh hostOps1_7_fresh hostOps1_8_fresh

/-- An operation writes neither an argument nor one of the three accumulator arrays. -/
def Keeps (op : HloOp τ sig (Elt F)) : Prop :=
  Proc.devRef .tc main_arg0 ∉ op.writes ∧ Proc.devRef .tc main_arg1 ∉ op.writes ∧ Proc.devRef .tc main_arg2 ∉ op.writes
    ∧ Proc.devRef .tc main_v0_0 ∉ op.writes ∧ Proc.devRef .tc main_v0_1 ∉ op.writes ∧ Proc.devRef .tc main_v0_2 ∉ op.writes

theorem hostOps1_keeps : (hostOps1 : List (HloOp τ sig (Elt F))).Forall Keeps := by
  simp only [hostOps1, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_1_keeps : (hostOps1_1 : List (HloOp τ sig (Elt F))).Forall Keeps := by
  simp only [hostOps1_1, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_2_keeps : (hostOps1_2 : List (HloOp τ sig (Elt F))).Forall Keeps := by
  simp only [hostOps1_2, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_3_keeps : (hostOps1_3 : List (HloOp τ sig (Elt F))).Forall Keeps := by
  simp only [hostOps1_3, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_4_keeps : (hostOps1_4 : List (HloOp τ sig (Elt F))).Forall Keeps := by
  simp only [hostOps1_4, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_5_keeps : (hostOps1_5 : List (HloOp τ sig (Elt F))).Forall Keeps := by
  simp only [hostOps1_5, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_6_keeps : (hostOps1_6 : List (HloOp τ sig (Elt F))).Forall Keeps := by
  simp only [hostOps1_6, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_7_keeps : (hostOps1_7 : List (HloOp τ sig (Elt F))).Forall Keeps := by
  simp only [hostOps1_7, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)
theorem hostOps1_8_keeps : (hostOps1_8 : List (HloOp τ sig (Elt F))).Forall Keeps := by
  simp only [hostOps1_8, List.Forall, Keeps, StableHlo.nullary_writes, StableHlo.unary_writes, StableHlo.binary_writes, StableHlo.ternary_writes, StableHlo.quaternary_writes, StableHlo.reshape_writes, StableHlo.nary_writes, Finset.mem_singleton]
  repeat' apply And.intro
  all_goals exact StableHlo.devRef_ne_of_ne (by decide)

/-- Every later line keeps the arguments and the accumulator arrays. -/
theorem tail_keeps : ∀ ops ∈ (tailOps : List (List (HloOp τ sig (Elt F)))), ∀ op ∈ ops, Keeps op :=
  tailOps_forall hostOps1_keeps hostOps1_1_keeps hostOps1_2_keeps hostOps1_3_keeps hostOps1_4_keeps hostOps1_5_keeps hostOps1_6_keeps hostOps1_7_keeps hostOps1_8_keeps

/-- So they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  have hk := tail_keeps ops hops op hop
  fin_cases w
  · exact hk.1
  · exact hk.2.2.2.1
  · exact hk.2.2.2.2.1
  · exact hk.2.2.2.2.2

/-- A buffer no later line writes, and no array of the pipeline, ends as launched. -/
theorem afterTail_kept (dats : (p : Fin 1) → (c : Dev nD) → Dat τ (Elt F) Unit ℕ (UR sig nD τ) ℕ (cfgs p) c) (c : Dev nD)
    (b : Ref sig .tc) (hb : ∀ ops ∈ (tailOps : List (List (HloOp τ sig (Elt F)))), ∀ op ∈ ops, Proc.devRef .tc b ∉ op.writes)
    (hne : ∀ w, Pipeline.arrRef spec0 w ≠ b) :
    Pipeline.afterTail₀ cfgs dats 0 (V0 m) tailOps c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact hb ops hops op hop'),
    Pipeline.withArrays_of_ne _ c (V0 m c) _ b hne]
  rfl

theorem afterTail_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  afterTail_kept m dats c main_arg1 (fun ops hops op hop => (tail_keeps ops hops op hop).2.1) (by decide)

theorem afterTail_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) :=
  afterTail_kept m dats c main_arg2 (fun ops hops op hop => (tail_keeps ops hops op hop).2.2.1) (by decide)

end Cert.KernelIdeal.Hist

end
-- ==== Proof.KI.Runs.lean ====
/-
  What the two runs of the kernel body share.

  The pipeline stages four windows: the image, tile by tile (34 tiles of 16 rows, fetched at every point),
  and the three accumulators [16,128], each one whole block resident across the grid and written back
  after the last point only.  The body branches once, on "this is the first grid point": there it first
  stores zeros into the three accumulators; at every point it then adds the tile's three per-image sums,
  spread along the 128 lanes, to what the accumulators hold.
-/
import proofs.«164688_j20031727468607_2_alg».proof.Proof.KI.Tail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem V_main_arg0 (c : Dev nD) : V m c main_arg0 = m ((c : Thread nD τ).loc main_arg0) := rfl

/-! ## The frame claim's post from the frame run's -/

/-- For any proof data whose arrays are the region-entry contents, a run to the library's frame post read at the three
    argument arrays — the image a staged input, the two exposure vectors buffers no window stages and no later line
    writes — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (afterTail_arg1 m dats c),
     ((h c).2 main_arg2 (Pipeline.mem_restRefs_of main_arg2 (by decide) (by decide))).trans (afterTail_arg2 m dats c)⟩) h

/-! ## The body's branch condition -/

/-- The condition of the body's one branch, from the grid coordinate: "the coordinate is zero". -/
abbrev cond0_0 (i : grid0.Coords) : Prop := (Scalar.cmpi .ne (Scalar.extui (Scalar.cmpi .eq (BitVec.ofNat 32 (i 0).val) 0#32)) 0#32) = 1#1
/-- It holds at the first point only — decided over the 34 points. -/
theorem hcond0_0 : ∀ t : Fin cfg0.N, cond0_0 (grid0.coords t) ↔ t.val % 34 = 0 :=
  (by decide +kernel : ∀ t : Fin grid0.N, cond0_0 (grid0.coords t) ↔ t.val % 34 = 0)

/-! ## The staging memrefs -/

/-- One staging buffer of each accumulator window, through which its contents are stated. -/
abbrev VO0_1 : View sig .tc .vmem S16x128 .f32 := (Memref.whole cc0_stg1_0 : Memref sig .tc .vmem S16x128 .f32).view
abbrev VO0_2 : View sig .tc .vmem S16x128 .f32 := (Memref.whole cc0_stg2_0 : Memref sig .tc .vmem S16x128 .f32).view
abbrev VO0_3 : View sig .tc .vmem S16x128 .f32 := (Memref.whole cc0_stg3_0 : Memref sig .tc .vmem S16x128 .f32).view
/-- Each window's current staging memref at point `t`, as the pipeline passes it, and its wholeness. -/
abbrev ms0_0 (t : Fin cfg0.N) : Memref sig .tc .vmem S16x3x16x960 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128 .f32 := win0_3.stage (cfg0.slots t 3)
abbrev hs0_3 (t : Fin cfg0.N) : (ms0_3 t).IsWhole := hstage0_3 ((cfg0.slots t 3).cast nbuf0_3)

end Cert.KernelIdeal.Hist

end
-- ==== Proof.KI.RunA.lean ====
/-
  The kernel body at the FIRST grid point: it stores zeros into the three accumulators, then adds the
  tile's per-image sums to what it reads back.  On whole staging memrefs — the image tile at its
  contents, the accumulators at anything — the body runs to its end without a fault, the tile's
  buffer as it was and each accumulator's buffer overwritten by the stores the run finds.
-/
import proofs.«164688_j20031727468607_2_alg».proof.Proof.KI.Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each accumulator's staging memref, as pieces (last first), with the proof that the
    body runs to the continuation holding the tile's buffer as it was and each accumulator's with its pieces written. -/
noncomputable def kernelRun0_A (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) :
    Σ' (L1 : List (View.Piece (Elt F) S16x128 .f32)), Σ' (L2 : List (View.Piece (Elt F) S16x128 .f32)), { L3 : List (View.Piece (Elt F) S16x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__hist_kernel i arg1 harg1 arg2 harg2 arg3 harg3 arg4 harg4) K } := by
  refine ⟨?_, ?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%d1, %f1, -, H1⟩, ⟨%d2, %f2, -, H2⟩, ⟨%d3, %f3, -, H3⟩, Hk⟩
    obtain rfl := harg1.eq_unread hf0
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    iexists _; iexact H3

end Cert.KernelIdeal.Hist

end
-- ==== Proof.KI.RunB.lean ====
/-
  The kernel body at a LATER grid point: it adds the tile's per-image sums to what the three
  accumulators hold.  On whole staging memrefs — the image tile and the three accumulators at their
  contents — the body runs to its end without a fault, the tile's buffer as it was and each
  accumulator's buffer overwritten by the stores the run finds.
-/
import proofs.«164688_j20031727468607_2_alg».proof.Proof.KI.RunA
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each accumulator's staging memref, as pieces (last first), with the proof that the
    body runs to the continuation holding the tile's buffer as it was and each accumulator's with its pieces written. -/
noncomputable def kernelRun0_B (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) :
    Σ' (L1 : List (View.Piece (Elt F) S16x128 .f32)), Σ' (L2 : List (View.Piece (Elt F) S16x128 .f32)), { L3 : List (View.Piece (Elt F) S16x128 .f32) //
      ∀ (E : Set ℕ) (K : PUnit → sProp 𝕄),
        iprop(owns (c : Thread nD τ) arg1 fullShare x0 ∗ owns (c : Thread nD τ) arg2 fullShare xo1 ∗ owns (c : Thread nD τ) arg3 fullShare xo2 ∗ owns (c : Thread nD τ) arg4 fullShare xo3
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc0__hist_kernel i arg1 harg1 arg2 harg2 arg3 harg3 arg4 harg4) K } := by
  refine ⟨?_, ?_, ?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]; · iexists _; iexact H1
    isplitl [H2]; · iexists _; iexact H2
    iexists _; iexact H3

end Cert.KernelIdeal.Hist

end
-- ==== Proof.KI.Frame.lean ====
/-
  The frame of the kernel program: what the three accumulators hold after each grid point, the proof data
  of the pipeline, the body's obligation at every point, the run of @main and the frame claim.

  After the first point each accumulator holds what the first run's stores leave (zeros, then the first
  tile's sums added); after a later point what that run's stores leave over what the point before left:
  the accumulators are not written back between points (only after the last), so each point finds them as
  the point before left them.  The image's tile is found at its block at every point.
-/
import proofs.«164688_j20031727468607_2_alg».proof.Proof.KI.RunB
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hist

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces run A finds for accumulator 1 tile its block, so they cover it. -/
theorem cover0_A_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) (y : S16x128.Idx) :
    ∃ pc ∈ (kernelRun0_A c i arg1 harg1 arg2 harg2 arg3 harg3 arg4 harg4 hc0 x0).1, y ∈ pc.1.set :=
  View.cover_of_tiledL (kernelRun0_A c i arg1 harg1 arg2 harg2 arg3 harg3 arg4 harg4 hc0 x0).1 S16x128.size (by sl_kernel_rfl) y

/-- What run A leaves in accumulator 1's staging buffer: its pieces read back. -/
def out0_A_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) : Vec F S16x128 .f32 :=
  VO0_1.read (Elt F) (VO0_1.writes (Elt F) VO0_1.junk (kernelRun0_A c i arg1 harg1 arg2 harg2 arg3 harg3 arg4 harg4 hc0 x0).1)

/-- The pieces run A finds for accumulator 2 tile its block, so they cover it. -/
theorem cover0_A_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) (y : S16x128.Idx) :
    ∃ pc ∈ (kernelRun0_A c i arg1 harg1 arg2 harg2 arg3 harg3 arg4 harg4 hc0 x0).2.1, y ∈ pc.1.set :=
  View.cover_of_tiledL (kernelRun0_A c i arg1 harg1 arg2 harg2 arg3 harg3 arg4 harg4 hc0 x0).2.1 S16x128.size (by sl_kernel_rfl) y

/-- What run A leaves in accumulator 2's staging buffer: its pieces read back. -/
def out0_A_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) : Vec F S16x128 .f32 :=
  VO0_2.read (Elt F) (VO0_2.writes (Elt F) VO0_2.junk (kernelRun0_A c i arg1 harg1 arg2 harg2 arg3 harg3 arg4 harg4 hc0 x0).2.1)

/-- The pieces run A finds for accumulator 3 tile its block, so they cover it. -/
theorem cover0_A_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) (y : S16x128.Idx) :
    ∃ pc ∈ (kernelRun0_A c i arg1 harg1 arg2 harg2 arg3 harg3 arg4 harg4 hc0 x0).2.2.1, y ∈ pc.1.set :=
  View.cover_of_tiledL (kernelRun0_A c i arg1 harg1 arg2 harg2 arg3 harg3 arg4 harg4 hc0 x0).2.2.1 S16x128.size (by sl_kernel_rfl) y

/-- What run A leaves in accumulator 3's staging buffer: its pieces read back. -/
def out0_A_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : cond0_0 i)
    (x0 : Vec F S16x3x16x960 .f32) : Vec F S16x128 .f32 :=
  VO0_3.read (Elt F) (VO0_3.writes (Elt F) VO0_3.junk (kernelRun0_A c i arg1 harg1 arg2 harg2 arg3 harg3 arg4 harg4 hc0 x0).2.2.1)

/-- The pieces run B finds for accumulator 1 tile its block, so they cover it. -/
theorem cover0_B_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) (y : S16x128.Idx) :
    ∃ pc ∈ (kernelRun0_B c i arg1 harg1 arg2 harg2 arg3 harg3 arg4 harg4 hc0 x0 xo1 xo2 xo3).1, y ∈ pc.1.set :=
  View.cover_of_tiledL (kernelRun0_B c i arg1 harg1 arg2 harg2 arg3 harg3 arg4 harg4 hc0 x0 xo1 xo2 xo3).1 S16x128.size (by sl_kernel_rfl) y

/-- What run B leaves in accumulator 1's staging buffer: its pieces read back. -/
def out0_B_1 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) : Vec F S16x128 .f32 :=
  VO0_1.read (Elt F) (VO0_1.writes (Elt F) VO0_1.junk (kernelRun0_B c i arg1 harg1 arg2 harg2 arg3 harg3 arg4 harg4 hc0 x0 xo1 xo2 xo3).1)

/-- The pieces run B finds for accumulator 2 tile its block, so they cover it. -/
theorem cover0_B_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) (y : S16x128.Idx) :
    ∃ pc ∈ (kernelRun0_B c i arg1 harg1 arg2 harg2 arg3 harg3 arg4 harg4 hc0 x0 xo1 xo2 xo3).2.1, y ∈ pc.1.set :=
  View.cover_of_tiledL (kernelRun0_B c i arg1 harg1 arg2 harg2 arg3 harg3 arg4 harg4 hc0 x0 xo1 xo2 xo3).2.1 S16x128.size (by sl_kernel_rfl) y

/-- What run B leaves in accumulator 2's staging buffer: its pieces read back. -/
def out0_B_2 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) : Vec F S16x128 .f32 :=
  VO0_2.read (Elt F) (VO0_2.writes (Elt F) VO0_2.junk (kernelRun0_B c i arg1 harg1 arg2 harg2 arg3 harg3 arg4 harg4 hc0 x0 xo1 xo2 xo3).2.1)

/-- The pieces run B finds for accumulator 3 tile its block, so they cover it. -/
theorem cover0_B_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) (y : S16x128.Idx) :
    ∃ pc ∈ (kernelRun0_B c i arg1 harg1 arg2 harg2 arg3 harg3 arg4 harg4 hc0 x0 xo1 xo2 xo3).2.2.1, y ∈ pc.1.set :=
  View.cover_of_tiledL (kernelRun0_B c i arg1 harg1 arg2 harg2 arg3 harg3 arg4 harg4 hc0 x0 xo1 xo2 xo3).2.2.1 S16x128.size (by sl_kernel_rfl) y

/-- What run B leaves in accumulator 3's staging buffer: its pieces read back. -/
def out0_B_3 (c : Dev nD) (i : grid0.Coords) (arg1 : Memref sig .tc .vmem S16x3x16x960 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (hc0 : ¬cond0_0 i)
    (x0 : Vec F S16x3x16x960 .f32) (xo1 : Vec F S16x128 .f32) (xo2 : Vec F S16x128 .f32) (xo3 : Vec F S16x128 .f32) : Vec F S16x128 .f32 :=
  VO0_3.read (Elt F) (VO0_3.writes (Elt F) VO0_3.junk (kernelRun0_B c i arg1 harg1 arg2 harg2 arg3 harg3 arg4 harg4 hc0 x0 xo1 xo2 xo3).2.2.1)

/-! ## What the accumulators hold after each point -/

/-- The accumulation: what the three accumulators' staging buffers hold after the body at position `n`. -/
def outsAt0 (c : Dev nD) : (n : ℕ) → n < cfg0.N → Vec F S16x128 .f32 × Vec F S16x128 .f32 × Vec F S16x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩),
       out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩))
  | n + 1, hn =>
    if h0 : (n + 1) % 34 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (outsAt0 c n (Nat.lt_of_succ_lt hn)).1 (outsAt0 c n (Nat.lt_of_succ_lt hn)).2.1 (outsAt0 c n (Nat.lt_of_succ_lt hn)).2.2)

/-- At the first point: the first run's contents. -/
theorem outsAt0_A (c : Dev nD) (t : Fin cfg0.N) (h0 : t.val % 34 = 0) :
    outsAt0 m c t.val t.isLt = (out0_A_1 c (grid0.coords t) (ms0_0 t) (hs0_0 t) (ms0_1 t) (hs0_1 t) (ms0_2 t) (hs0_2 t) (ms0_3 t) (hs0_3 t) ((hcond0_0 t).mpr h0) (iblk m c 0 t),
       out0_A_2 c (grid0.coords t) (ms0_0 t) (hs0_0 t) (ms0_1 t) (hs0_1 t) (ms0_2 t) (hs0_2 t) (ms0_3 t) (hs0_3 t) ((hcond0_0 t).mpr h0) (iblk m c 0 t),
       out0_A_3 c (grid0.coords t) (ms0_0 t) (hs0_0 t) (ms0_1 t) (hs0_1 t) (ms0_2 t) (hs0_2 t) (ms0_3 t) (hs0_3 t) ((hcond0_0 t).mpr h0) (iblk m c 0 t)) := by
  obtain ⟨n, hn⟩ := t
  cases n with
  | zero => exact rfl
  | succ n => exact (dif_pos h0).trans rfl

/-- At a later point: the later run's contents, over what the point before left. -/
theorem outsAt0_B (c : Dev nD) (t : Fin cfg0.N) (h0 : ¬t.val % 34 = 0) :
    outsAt0 m c t.val t.isLt = (out0_B_1 c (grid0.coords t) (ms0_0 t) (hs0_0 t) (ms0_1 t) (hs0_1 t) (ms0_2 t) (hs0_2 t) (ms0_3 t) (hs0_3 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` the tile's buffer at its block and the
    accumulators' at `outsAt0`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
    | ⟨2, _⟩ => (outsAt0 m c t.val t.isLt).2.1
    | ⟨3, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]
theorem after0_2 (c : Dev nD) (t : Fin cfg0.N) : (dats m 0 c).after 2 t = (outsAt0 m c t.val t.isLt).2.1 := by dsimp only [dats]
theorem after0_3 (c : Dev nD) (t : Fin cfg0.N) : (dats m 0 c).after 3 t = (outsAt0 m c t.val t.isLt).2.2 := by dsimp only [dats]

/-- The tile's current staging buffer holds its block at every point. -/
theorem before0_0 (c : Dev nD) (t : Fin cfg0.N) (d) : (dats m 0 c).before 0 t d = iblk m c 0 t :=
  before0_0_of m (dats m 0 c) (A_eq m c 0) (after0_0 m c) t d

/-- At a later point accumulator 1's staging buffer holds what the body left at the point before: it was not written
    back between. -/
theorem before0_1_B (c : Dev nD) (t : Fin cfg0.N) (h0 : ¬t.val % 34 = 0) (d) :
    (dats m 0 c).before 1 t d = (outsAt0 m c (t.val - 1) (Nat.lt_of_le_of_lt (Nat.sub_le _ _) t.isLt)).1 := by
  have hN : t.val < 34 := lt_of_lt_of_eq t.isLt (show cfg0.N = 34 from N_0)
  rw [Dat.before_out_kept _ 1 rfl t (by omega) (Bool.eq_false_iff.mpr fun h => by have := (flush0_1 _).mp h; dsimp only at this; omega)
    (fun _ => rfl) (fun _ _ => rfl)]
  dsimp only [dats]

/-- At a later point accumulator 2's staging buffer holds what the body left at the point before: it was not written
    back between. -/
theorem before0_2_B (c : Dev nD) (t : Fin cfg0.N) (h0 : ¬t.val % 34 = 0) (d) :
    (dats m 0 c).before 2 t d = (outsAt0 m c (t.val - 1) (Nat.lt_of_le_of_lt (Nat.sub_le _ _) t.isLt)).2.1 := by
  have hN : t.val < 34 := lt_of_lt_of_eq t.isLt (show cfg0.N = 34 from N_0)
  rw [Dat.before_out_kept _ 2 rfl t (by omega) (Bool.eq_false_iff.mpr fun h => by have := (flush0_2 _).mp h; dsimp only at this; omega)
    (fun _ => rfl) (fun _ _ => rfl)]
  dsimp only [dats]

/-- At a later point accumulator 3's staging buffer holds what the body left at the point before: it was not written
    back between. -/
theorem before0_3_B (c : Dev nD) (t : Fin cfg0.N) (h0 : ¬t.val % 34 = 0) (d) :
    (dats m 0 c).before 3 t d = (outsAt0 m c (t.val - 1) (Nat.lt_of_le_of_lt (Nat.sub_le _ _) t.isLt)).2.2 := by
  have hN : t.val < 34 := lt_of_lt_of_eq t.isLt (show cfg0.N = 34 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body at any point: the tile's memref holds its block; the closed form says whether the point is the first; at a
    later point each accumulator holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 34 := lt_of_lt_of_eq t.isLt (show cfg0.N = 34 from N_0)
  by_cases h0 : t.val % 34 = 0
  · rw [outsAt0_A m c t h0]
    (try dsimp only)
    unfold out0_A_1 out0_A_2 out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t)).2.2.2 Set.univ _)
    isplitl [H0]; · iexact H0
    isplitl [H1]; · iexists _; iexact H1
    isplitl [H2]; · iexists _; iexact H2
    isplitl [H3]; · iexists _; iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _ _)
    isplitl [H2]
    · unfold owns; iexists _; isplitr
      swap; · iexact H2
      ipureintro; exact View.read_writes_of_cover _ _ _ _ _ (cover0_A_2 c _ _ _ _ _ _ _ _ _ _ _)
    unfold owns; iexists _; isplitr
    swap; · iexact H3
    ipureintro; exact View.read_writes_of_cover _ _ _ _ _ (cover0_A_3 c _ _ _ _ _ _ _ _ _ _ _)
  · rw [outsAt0_B m c t h0]
    (try dsimp only)
    simp only [before0_1_B m c t h0, before0_2_B m c t h0, before0_3_B m c t h0]
    unfold out0_B_1 out0_B_2 out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) _ _ _).2.2.2 Set.univ _)
    isplitl [H0]; · iexact H0
    isplitl [H1]; · iexact H1
    isplitl [H2]; · iexact H2
    isplitl [H3]; · iexact H3
    iintro ⟨H0, ⟨%e1, H1⟩, ⟨%e2, H2⟩, ⟨%e3, H3⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _ _ _ _ _)
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, every array of the pipeline ending at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: @main runs to its end, nothing faults, and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hist

end
-- ==== Proof.KI.Pieces.lean ====
/-
  What each run of the kernel body leaves in the three accumulators, as values.

  At a later grid point the body's one store into each accumulator is the payload "what the accumulator
  held, plus the tile's per-image sum spread along the lanes"; at the first point the same payload over
  the zeros the body has just stored there.
-/
import proofs.«164688_j20031727468607_2_alg».proof.Proof.KI.Frame
import Idealize.ShloMosaic.Lib.Pipeline.Value
import Idealize.ShloMosaic.Lib.Tactic

set_option maxRecDepth 16384

noncomputable section

namespace Cert.KernelIdeal.Hist

open Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A later point, accumulator 1: the one covering store's payload over what the accumulator held. -/
theorem out_B_1 (c : Dev nD) (i : grid0.Coords) (a1 : Memref sig .tc .vmem S16x3x16x960 .f32) (h1 : a1.IsWhole) (a2 : Memref sig .tc .vmem S16x128 .f32) (h2 : a2.IsWhole) (a3 : Memref sig .tc .vmem S16x128 .f32) (h3 : a3.IsWhole) (a4 : Memref sig .tc .vmem S16x128 .f32) (h4 : a4.IsWhole) (hc : ¬cond0_0 i)
    (x : Vec F S16x3x16x960 .f32) (xo1 xo2 xo3 : Vec F S16x128 .f32) :
    out0_B_1 c i a1 h1 a2 h2 a3 h3 a4 h4 hc x xo1 xo2 xo3 = k0_pay9 x xo1 := by
  unfold out0_B_1
  rw [View.read_writes_eq_canon _ _ _ (cover0_B_1 c i a1 h1 a2 h2 a3 h3 a4 h4 hc x xo1 xo2 xo3)]
  unfold kernelRun0_B
  dsimp only
  sl_unfold_words
  rw [View.canon_unit_zero hz2]
  simp only [View.readAt_eq_ld, h1.read_unread, h2.read_unread, h3.read_unread, h4.read_unread, View.ld_unit_zero (S := S16x3x16x960) hz4, View.ld_unit_zero (S := S16x128) hz2]

/-- A later point, accumulator 2: the one covering store's payload over what the accumulator held. -/
theorem out_B_2 (c : Dev nD) (i : grid0.Coords) (a1 : Memref sig .tc .vmem S16x3x16x960 .f32) (h1 : a1.IsWhole) (a2 : Memref sig .tc .vmem S16x128 .f32) (h2 : a2.IsWhole) (a3 : Memref sig .tc .vmem S16x128 .f32) (h3 : a3.IsWhole) (a4 : Memref sig .tc .vmem S16x128 .f32) (h4 : a4.IsWhole) (hc : ¬cond0_0 i)
    (x : Vec F S16x3x16x960 .f32) (xo1 xo2 xo3 : Vec F S16x128 .f32) :
    out0_B_2 c i a1 h1 a2 h2 a3 h3 a4 h4 hc x xo1 xo2 xo3 = k0_pay1 (k0_pay7 x) xo2 := by
  unfold out0_B_2
  rw [View.read_writes_eq_canon _ _ _ (cover0_B_2 c i a1 h1 a2 h2 a3 h3 a4 h4 hc x xo1 xo2 xo3)]
  unfold kernelRun0_B
  dsimp only
  sl_unfold_words
  rw [View.canon_unit_zero hz2]
  simp only [View.readAt_eq_ld, h1.read_unread, h2.read_unread, h3.read_unread, h4.read_unread, View.ld_unit_zero (S := S16x3x16x960) hz4, View.ld_unit_zero (S := S16x128) hz2]

/-- A later point, accumulator 3: the one covering store's payload over what the accumulator held. -/
theorem out_B_3 (c : Dev nD) (i : grid0.Coords) (a1 : Memref sig .tc .vmem S16x3x16x960 .f32) (h1 : a1.IsWhole) (a2 : Memref sig .tc .vmem S16x128 .f32) (h2 : a2.IsWhole) (a3 : Memref sig .tc .vmem S16x128 .f32) (h3 : a3.IsWhole) (a4 : Memref sig .tc .vmem S16x128 .f32) (h4 : a4.IsWhole) (hc : ¬cond0_0 i)
    (x : Vec F S16x3x16x960 .f32) (xo1 xo2 xo3 : Vec F S16x128 .f32) :
    out0_B_3 c i a1 h1 a2 h2 a3 h3 a4 h4 hc x xo1 xo2 xo3 = k0_pay2 (k0_pay8 x) xo3 := by
  unfold out0_B_3
  rw [View.read_writes_eq_canon _ _ _ (cover0_B_3 c i a1 h1 a2 h2 a3 h3 a4 h4 hc x xo1 xo2 xo3)]
  unfold kernelRun0_B
  dsimp only
  sl_unfold_words
  rw [View.canon_unit_zero hz2]
  simp only [View.readAt_eq_ld, h1.read_unread, h2.read_unread, h3.read_unread, h4.read_unread, View.ld_unit_zero (S := S16x3x16x960) hz4, View.ld_unit_zero (S := S16x128) hz2]

/-- The first point, accumulator 1: the same payload over the zeros just stored. -/
theorem out_A_1 (c : Dev nD) (i : grid0.Coords) (a1 : Memref sig .tc .vmem S16x3x16x960 .f32) (h1 : a1.IsWhole) (a2 : Memref sig .tc .vmem S16x128 .f32) (h2 : a2.IsWhole) (a3 : Memref sig .tc .vmem S16x128 .f32) (h3 : a3.IsWhole) (a4 : Memref sig .tc .vmem S16x128 .f32) (h4 : a4.IsWhole) (hc : cond0_0 i)
    (x : Vec F S16x3x16x960 .f32) :
    out0_A_1 c i a1 h1 a2 h2 a3 h3 a4 h4 hc x = k0_pay9 x (k0_pay3 (F := F)) := by
  unfold out0_A_1
  rw [View.read_writes_eq_canon _ _ _ (cover0_A_1 c i a1 h1 a2 h2 a3 h3 a4 h4 hc x)]
  unfold kernelRun0_A
  dsimp only
  sl_unfold_words
  rw [View.canon_cons_unit_zero (S := S16x128) hz2, View.readCov_unit_zero (S := S16x128) _ hz2]
  simp only [View.readAt_eq_ld, h1.read_unread, View.ld_unit_zero (S := S16x3x16x960) hz4, View.ld_unit_zero (S := S16x128) hz2]

/-- The first point, accumulator 2: the same payload over the zeros just stored. -/
theorem out_A_2 (c : Dev nD) (i : grid0.Coords) (a1 : Memref sig .tc .vmem S16x3x16x960 .f32) (h1 : a1.IsWhole) (a2 : Memref sig .tc .vmem S16x128 .f32) (h2 : a2.IsWhole) (a3 : Memref sig .tc .vmem S16x128 .f32) (h3 : a3.IsWhole) (a4 : Memref sig .tc .vmem S16x128 .f32) (h4 : a4.IsWhole) (hc : cond0_0 i)
    (x : Vec F S16x3x16x960 .f32) :
    out0_A_2 c i a1 h1 a2 h2 a3 h3 a4 h4 hc x = k0_pay1 (k0_pay7 x) (k0_pay4 (F := F)) := by
  unfold out0_A_2
  rw [View.read_writes_eq_canon _ _ _ (cover0_A_2 c i a1 h1 a2 h2 a3 h3 a4 h4 hc x)]
  unfold kernelRun0_A
  dsimp only
  sl_unfold_words
  rw [View.canon_cons_unit_zero (S := S16x128) hz2, View.readCov_unit_zero (S := S16x128) _ hz2]
  simp only [View.readAt_eq_ld, h1.read_unread, View.ld_unit_zero (S := S16x3x16x960) hz4, View.ld_unit_zero (S := S16x128) hz2]

/-- The first point, accumulator 3: the same payload over the zeros just stored. -/
theorem out_A_3 (c : Dev nD) (i : grid0.Coords) (a1 : Memref sig .tc .vmem S16x3x16x960 .f32) (h1 : a1.IsWhole) (a2 : Memref sig .tc .vmem S16x128 .f32) (h2 : a2.IsWhole) (a3 : Memref sig .tc .vmem S16x128 .f32) (h3 : a3.IsWhole) (a4 : Memref sig .tc .vmem S16x128 .f32) (h4 : a4.IsWhole) (hc : cond0_0 i)
    (x : Vec F S16x3x16x960 .f32) :
    out0_A_3 c i a1 h1 a2 h2 a3 h3 a4 h4 hc x = k0_pay2 (k0_pay8 x) (k0_pay5 (F := F)) := by
  unfold out0_A_3
  rw [View.read_writes_eq_canon _ _ _ (cover0_A_3 c i a1 h1 a2 h2 a3 h3 a4 h4 hc x)]
  unfold kernelRun0_A
  dsimp only
  sl_unfold_words
  rw [View.canon_cons_unit_zero (S := S16x128) hz2, View.readCov_unit_zero (S := S16x128) _ hz2]
  simp only [View.readAt_eq_ld, h1.read_unread, View.ld_unit_zero (S := S16x3x16x960) hz4, View.ld_unit_zero (S := S16x128) hz2]

end Cert.KernelIdeal.Hist

end
-- ==== Proof.KI.Final.lean ====
/-
  What the three accumulator arrays hold when the region ends.

  Each accumulator window's one block is the whole [16,128] array, at block index (0,0) at every grid
  point, and the pipeline writes it back after the last point only.  So the array ends holding exactly
  what the body left in the window's staging buffer after the last point.
-/
import proofs.«164688_j20031727468607_2_alg».proof.Proof.KI.Frame
import Idealize.ShloMosaic.Lib.Pipeline.Value

set_option maxRecDepth 16384

noncomputable section

namespace Cert.KernelIdeal.Hist

open Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The last grid point. -/
def tLast : Fin cfg0.N := ⟨33, by rw [show cfg0.N = 34 from N_0]; decide⟩

theorem lastLt : 33 < cfg0.N := by rw [show cfg0.N = 34 from N_0]; decide

/-- What accumulator 1's staging buffer holds after the last point, as contents of its array. -/
abbrev result1 (c : Dev nD) : Buf (Elt F) ((c : Thread nD τ).loc main_v0_0) := (outsAt0 m c 33 lastLt).1

/-- The one write-back of accumulator 1, after the last point, writes it: block (0,0) of the array is the array. -/
theorem flushed_eq_1 (c : Dev nD) (t : Fin cfg0.N) (hf : (cfg0.win 1).flush t = true) :
    (dats m 0 c).flushed 1 t = ((cfg0.win 1).blk t).view.read (Elt F) (result1 m c) := by
  have hN : cfg0.N = 34 := N_0
  have h3 : t.val = 33 := by have := (flush0_1 t).mp hf; have := t.isLt; omega
  obtain rfl : t = tLast := Fin.ext h3
  show (cfg0.win 1).cut (grid0.coords tLast) ((dats m 0 c).after 1 tLast) = _
  rw [after0_1]
  have hz' : (fun a => win0_1.index tLast a * main_v0_0.ty.shape.size a) = fun _ => 0 := funext fun a => by fin_cases a <;> decide
  exact (Memref.read_access_unit_zero (Elt F) main_v0_0 hz' (fun a => by rw [congrFun hz' a]; simp) (result1 m c)).symm

/-- So accumulator 1's array ends holding what the body left after the last point. -/
theorem final_1 (c : Dev nD) : (dats m 0 c).arrAt 1 cfg0.N = result1 m c :=
  (dats m 0 c).arrAt_eq_of_cover 1 (result1 m c) (flushed_eq_1 m c) fun i =>
    ⟨tLast, (flush0_1 tLast).mpr rfl, by
      show i ∈ ((View.whole main_v0_0).slice (win0_1.rect tLast)).set
      rw [View.set_slice_whole, Rect.mem_set_unit]
      intro a
      have h0 : (i 0 : Nat) < 16 := (i 0).isLt
      have h1 : (i 1 : Nat) < 128 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 16 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 128 from by decide +kernel]; omega⟩

/-- What accumulator 2's staging buffer holds after the last point, as contents of its array. -/
abbrev result2 (c : Dev nD) : Buf (Elt F) ((c : Thread nD τ).loc main_v0_1) := (outsAt0 m c 33 lastLt).2.1

/-- The one write-back of accumulator 2, after the last point, writes it: block (0,0) of the array is the array. -/
theorem flushed_eq_2 (c : Dev nD) (t : Fin cfg0.N) (hf : (cfg0.win 2).flush t = true) :
    (dats m 0 c).flushed 2 t = ((cfg0.win 2).blk t).view.read (Elt F) (result2 m c) := by
  have hN : cfg0.N = 34 := N_0
  have h3 : t.val = 33 := by have := (flush0_2 t).mp hf; have := t.isLt; omega
  obtain rfl : t = tLast := Fin.ext h3
  show (cfg0.win 2).cut (grid0.coords tLast) ((dats m 0 c).after 2 tLast) = _
  rw [after0_2]
  have hz' : (fun a => win0_2.index tLast a * main_v0_1.ty.shape.size a) = fun _ => 0 := funext fun a => by fin_cases a <;> decide
  exact (Memref.read_access_unit_zero (Elt F) main_v0_1 hz' (fun a => by rw [congrFun hz' a]; simp) (result2 m c)).symm

/-- So accumulator 2's array ends holding what the body left after the last point. -/
theorem final_2 (c : Dev nD) : (dats m 0 c).arrAt 2 cfg0.N = result2 m c :=
  (dats m 0 c).arrAt_eq_of_cover 2 (result2 m c) (flushed_eq_2 m c) fun i =>
    ⟨tLast, (flush0_2 tLast).mpr rfl, by
      show i ∈ ((View.whole main_v0_1).slice (win0_2.rect tLast)).set
      rw [View.set_slice_whole, Rect.mem_set_unit]
      intro a
      have h0 : (i 0 : Nat) < 16 := (i 0).isLt
      have h1 : (i 1 : Nat) < 128 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 16 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 128 from by decide +kernel]; omega⟩

/-- What accumulator 3's staging buffer holds after the last point, as contents of its array. -/
abbrev result3 (c : Dev nD) : Buf (Elt F) ((c : Thread nD τ).loc main_v0_2) := (outsAt0 m c 33 lastLt).2.2

/-- The one write-back of accumulator 3, after the last point, writes it: block (0,0) of the array is the array. -/
theorem flushed_eq_3 (c : Dev nD) (t : Fin cfg0.N) (hf : (cfg0.win 3).flush t = true) :
    (dats m 0 c).flushed 3 t = ((cfg0.win 3).blk t).view.read (Elt F) (result3 m c) := by
  have hN : cfg0.N = 34 := N_0
  have h3 : t.val = 33 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v0_2.ty.shape.size a) = fun _ => 0 := funext fun a => by fin_cases a <;> decide
  exact (Memref.read_access_unit_zero (Elt F) main_v0_2 hz' (fun a => by rw [congrFun hz' a]; simp) (result3 m c)).symm

/-- So accumulator 3's array ends holding what the body left after the last point. -/
theorem final_3 (c : Dev nD) : (dats m 0 c).arrAt 3 cfg0.N = result3 m c :=
  (dats m 0 c).arrAt_eq_of_cover 3 (result3 m c) (flushed_eq_3 m c) fun i =>
    ⟨tLast, (flush0_3 tLast).mpr rfl, by
      show i ∈ ((View.whole main_v0_2).slice (win0_3.rect tLast)).set
      rw [View.set_slice_whole, Rect.mem_set_unit]
      intro a
      have h0 : (i 0 : Nat) < 16 := (i 0).isLt
      have h1 : (i 1 : Nat) < 128 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 16 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 128 from by decide +kernel]; omega⟩

end Cert.KernelIdeal.Hist

end
-- ==== Proof.Spec.lean ====
/-
  What both programs compute from the image array, stated once on the extended reals, index by index.

  A pixel's grey value is the sum of its three channels divided by three.  A pixel is bright when its grey
  value lies in [0.75, 1] and dark when it lies in [0, 0.25); each test is the conjunction of two comparison
  bits read as a number, 0 or 1.  Per image the three statistics are the number of bright pixels, the
  number of dark pixels and the sum of the grey values, each a double sum over the 544 rows and 960
  columns.  Addition on the extended reals is commutative and associative, so these sums do not depend on
  the order or grouping in which a program takes them.
-/
import Idealize.ShloMosaic.PureOps.Ideal
import Idealize.ShloMosaic.Lib.ValueIdx

noncomputable section

namespace Cert.Spec

open Idealize.ShloMosaic Idealize.ShloMosaic.ValueIdx

/-- The image array: sixteen images of three channels, 544 rows and 960 columns, as extended reals. -/
abbrev Img : Type := (⟨4, ![16, 3, 544, 960]⟩ : Shape).Idx → EReal

/-- The grey value of pixel `(h, l)` of image `b`: the sum of the three channels divided by three. -/
def gray (x : Img) (b : Fin 16) (h : Fin 544) (l : Fin 960) : EReal :=
  Ideal.div (∑ c : Fin 3, x (ix4 b c h l)) (Ideal.ofBits .f32 0x40400000#32)

/-- 1 when `0.75 ≤ g ≤ 1`, else 0: the conjunction of the two comparison bits, read as a number. -/
def brightBit (g : EReal) : EReal :=
  FloatOps.uitofp (F := Ideal) .f32
    (IntOp.andi (FloatOps.cmpf (F := Ideal) (φ := .f32) .oge g (Ideal.ofBits .f32 0x3F400000#32))
      (FloatOps.cmpf (F := Ideal) (φ := .f32) .ole g (Ideal.ofBits .f32 0x3F800000#32)))

/-- 1 when `0 ≤ g < 0.25`, else 0. -/
def darkBit (g : EReal) : EReal :=
  FloatOps.uitofp (F := Ideal) .f32
    (IntOp.andi (FloatOps.cmpf (F := Ideal) (φ := .f32) .oge g (Ideal.ofBits .f32 0x00000000#32))
      (FloatOps.cmpf (F := Ideal) (φ := .f32) .olt g (Ideal.ofBits .f32 0x3E800000#32)))

/-- The number of bright pixels of image `b`. -/
def bright (x : Img) (b : Fin 16) : EReal := ∑ h : Fin 544, ∑ l : Fin 960, brightBit (gray x b h l)

/-- The number of dark pixels of image `b`. -/
def dark (x : Img) (b : Fin 16) : EReal := ∑ h : Fin 544, ∑ l : Fin 960, darkBit (gray x b h l)

/-- The sum of the grey values of image `b`. -/
def graySum (x : Img) (b : Fin 16) : EReal := ∑ h : Fin 544, ∑ l : Fin 960, gray x b h l

end Cert.Spec

end
-- ==== Proof.BitValue.lean ====
/-
  A one-bit mask read as a number.

  The kernel widens a one-bit mask to 32 bits by zero extension and converts the 32-bit word as a SIGNED
  integer; the specification converts the bit itself as an UNSIGNED integer.  Both give 0 for the bit 0 and 1
  for the bit 1: a zero-extended bit is a non-negative 32-bit word with the bit's value.
-/
import Idealize.ShloMosaic.PureOps.Ideal

namespace Cert.BitValue

open Idealize.ShloMosaic

/-- A bit zero-extended to 32 bits and read signed is the bit read unsigned. -/
theorem toInt_setWidth_bit (w : BitVec 1) : (w.setWidth 32).toInt = (w.toNat : ℤ) := by
  rcases BitVec.eq_zero_or_eq_one w with h | h <;> subst h <;> decide

/-- At the extended reals the signed conversion of a zero-extended bit is the unsigned conversion of the bit. -/
theorem sitofp_setWidth_bit (w : BitVec 1) :
    FloatOps.sitofp (F := Ideal) .f32 (w.setWidth 32) = FloatOps.uitofp (F := Ideal) .f32 w := by
  show (((w.setWidth 32).toInt : ℝ) : EReal) = ((w.toNat : ℝ) : EReal)
  rw [toInt_setWidth_bit, Int.cast_natCast]

end Cert.BitValue
-- ==== Proof.PayLemmas.lean ====
/-
  Sums and layout operations read at an index, at the extended reals.

  A sum reduction of a rank-3 array over its last axis, read at (a, b), is the sum over the last coordinate; of
  a rank-2 array over its last axis, read at a, likewise; of a rank-4 array over its second axis, read at
  (a, b, c), the sum over the second coordinate.  A vector [a] made a column [a, 1] by a shape cast reads,
  at (p, u), the vector at p; a column [a, 1] broadcast to [a, b] reads, at (p, c), the column at (p, 0).
-/
import Idealize.ShloMosaic.PureOps.Ideal.Laws
import Idealize.ShloMosaic.Lib.ValueIdx
import Idealize.ShloMosaic.Lib.Pipeline.Value

noncomputable section

namespace Cert.PayLemmas

open Idealize.ShloMosaic Idealize.ShloMosaic.ValueIdx

/-- A sum over axis 1 of a rank-4 array, read at `(a, b, c)`: the sum over the second coordinate. -/
theorem sum4_axis1 {n0 n1 n2 n3 : ℕ} (src : FVec Ideal ⟨4, ![n0, n1, n2, n3]⟩ .f32)
    (h : (⟨4, ![n0, n1, n2, n3]⟩ : Shape).Reduces [1] ⟨3, ![n0, n2, n3]⟩) (hφ : FKind.Formats .f32)
    (hacc : (0x00000000#32 : BitVec 32) = 0x00000000#32) (a : Fin n0) (b : Fin n2) (c : Fin n3) :
    multiReduction .add [1] ⟨3, ![n0, n2, n3]⟩ src 0x00000000#32 h hφ hacc (ix3 a b c)
      = ∑ k : Fin n1, src (ix4 a k b c) := by
  refine (Ideal.multiReduction_add_single src 0x00000000#32 h hφ hacc (ix3 a b c)).trans ?_
  show ∑ k : Fin n1, src (h.lift (ix3 a b c) k) = ∑ k : Fin n1, src (ix4 a k b c)
  refine Finset.sum_congr rfl fun k _ => congrArg src (funext fun d => ?_)
  match d with
  | ⟨0, _⟩ => rfl
  | ⟨1, _⟩ => rfl
  | ⟨2, _⟩ => rfl
  | ⟨3, _⟩ => rfl

/-- A sum over axis 2 of a rank-3 array, read at `(a, b)`: the sum over the last coordinate. -/
theorem sum3_axis2 {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (a : Fin n0) (b : Fin n1) :
    multiReduction .add [2] ⟨2, ![n0, n1]⟩ src 0x00000000#32 h hφ hacc (ix2 a b)
      = ∑ k : Fin n2, src (ix3 a b k) := by
  refine (Ideal.multiReduction_add_single src 0x00000000#32 h hφ hacc (ix2 a b)).trans ?_
  show ∑ k : Fin n2, src (h.lift (ix2 a b) k) = ∑ k : Fin n2, src (ix3 a b k)
  refine Finset.sum_congr rfl fun k _ => congrArg src (funext fun d => ?_)
  match d with
  | ⟨0, _⟩ => rfl
  | ⟨1, _⟩ => rfl
  | ⟨2, _⟩ => rfl

/-- A sum over axis 1 of a rank-2 array, read at `a`: the sum over the last coordinate. -/
theorem sum2_axis1 {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = 0x00000000#32) (a : Fin n0) :
    multiReduction .add [1] ⟨1, ![n0]⟩ src 0x00000000#32 h hφ hacc (ix1 a)
      = ∑ k : Fin n1, src (ix2 a k) := by
  refine (Ideal.multiReduction_add_single src 0x00000000#32 h hφ hacc (ix1 a)).trans ?_
  show ∑ k : Fin n1, src (h.lift (ix1 a) k) = ∑ k : Fin n1, src (ix2 a k)
  refine Finset.sum_congr rfl fun k _ => congrArg src (funext fun d => ?_)
  match d with
  | ⟨0, _⟩ => rfl
  | ⟨1, _⟩ => rfl

/-- The two reductions in turn: a rank-3 array summed over its last axis and then over its middle axis, read at
    `a`, is the double sum over the two coordinates. -/
theorem sum3_axis2_axis1 {n0 n1 n2 : ℕ} (src : FVec Ideal ⟨3, ![n0, n1, n2]⟩ .f32)
    (h : (⟨3, ![n0, n1, n2]⟩ : Shape).Reduces [2] ⟨2, ![n0, n1]⟩)
    (h' : (⟨2, ![n0, n1]⟩ : Shape).Reduces [1] ⟨1, ![n0]⟩) (hφ hφ' : FKind.Formats .f32)
    (hacc hacc' : (0x00000000#32 : BitVec 32) = 0x00000000#32) (a : Fin n0) :
    multiReduction .add [1] ⟨1, ![n0]⟩
        (multiReduction .add [2] ⟨2, ![n0, n1]⟩ src 0x00000000#32 h hφ hacc) 0x00000000#32 h' hφ' hacc' (ix1 a)
      = ∑ r : Fin n1, ∑ k : Fin n2, src (ix3 a r k) :=
  (sum2_axis1 _ h' hφ' hacc' a).trans (Finset.sum_congr rfl fun r _ => sum3_axis2 src h hφ hacc a r)

section Layout
variable {α : Type}

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector made a column, cast to itself and broadcast along the rows reads, at `(p, c)`, the vector at `p`. -/
theorem column_broadcast_apply {a b : ℕ} (x : (⟨1, ![a]⟩ : Shape).Idx → α)
    (h1 : (⟨1, ![a]⟩ : Shape).ShapeCasts ⟨2, ![a, 1]⟩) (h2 : (⟨2, ![a, 1]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ (shapeCast ⟨2, ![a, 1]⟩ x h1) h2) h3 (ix2 p c) = x (ix1 p) := by
  refine (broadcastTo_a1_ab_apply _ h3 p c).trans ?_
  rw [shapeCast_self]
  exact shapeCast_a_a1_apply x h1 p 0

end Layout

end Cert.PayLemmas

end
-- ==== Proof.KPay.lean ====
/-
  The kernel body's arithmetic read at an index, at the extended reals.

  One grid step holds a tile of sixteen image rows: an array x of shape [16, 3, 16, 960] (image, channel,
  row of the tile, column).  The body forms the tile's grey values (the sum of the three channels divided
  by three), converts the two range tests to numbers, and sums each of the three per-pixel quantities over
  the 960 columns and then over the 16 rows of the tile.  Read at image b each of the three sums is the
  double sum over rows and columns of the corresponding quantity of the specification, taken at the tile's
  grey value.  The one-bit masks are widened to 32 bits and converted as signed integers; a widened bit is
  non-negative, so the result is the bit read as a number, as the specification has it.  The accumulated
  outputs add the per-image sum, made a column and broadcast along the 128 lanes, to what was loaded.
-/
import proofs.«164688_j20031727468607_2_alg».proof.Proof.Gen.KernelIdeal.Skeleton
import proofs.«164688_j20031727468607_2_alg».proof.Proof.Spec
import proofs.«164688_j20031727468607_2_alg».proof.Proof.BitValue
import proofs.«164688_j20031727468607_2_alg».proof.Proof.PayLemmas

noncomputable section

namespace Cert.KernelIdeal.PayValue

open Idealize.ShloMosaic Idealize.ShloMosaic.ValueIdx Cert.KernelIdeal Cert.PayLemmas
open Cert.KernelIdeal.Gen (k0_pay1 k0_pay2 k0_pay3 k0_pay4 k0_pay5 k0_pay6 k0_pay7 k0_pay8 k0_pay9)

/-- The grey value of the tile's pixel `(r, l)` of image `b`: the sum of the three channels divided by three. -/
def tgray (x : Vec Ideal S16x3x16x960 .f32) (b : Fin 16) (r : Fin 16) (l : Fin 960) : EReal :=
  Ideal.div (∑ c : Fin 3, (x (ix4 b c r l) : EReal)) (Ideal.ofBits .f32 0x40400000#32)

/-- The body's grey array read at `(b, r, l)` is the tile's grey value there. -/
theorem pay6_apply (x : Vec Ideal S16x3x16x960 .f32) (b : Fin 16) (r : Fin 16) (l : Fin 960) :
    k0_pay6 (F := Ideal) x (ix3 b r l) = tgray x b r l := by
  unfold k0_pay6 tgray
  exact congrArg (fun s : EReal => Ideal.div s (Ideal.ofBits .f32 0x40400000#32))
    (sum4_axis1 x Gen.reduces_S16x3x16x960_S16x16x960 (.inl rfl) rfl b r l)

/-- The tile's grey sum of image `b`. -/
theorem pay8_apply (x : Vec Ideal S16x3x16x960 .f32) (b : Fin 16) :
    k0_pay8 (F := Ideal) x (ix1 b) = ∑ r : Fin 16, ∑ l : Fin 960, tgray x b r l := by
  unfold k0_pay8
  refine (sum3_axis2_axis1 (k0_pay6 (F := Ideal) x) Gen.reduces_S16x16x960_S16x16 Gen.reduces_S16x16_S16
    (.inl rfl) (.inl rfl) rfl rfl b).trans ?_
  exact Finset.sum_congr rfl fun r _ => Finset.sum_congr rfl fun l _ => pay6_apply x b r l

/-- The tile's count of dark pixels of image `b`. -/
theorem pay7_apply (x : Vec Ideal S16x3x16x960 .f32) (b : Fin 16) :
    k0_pay7 (F := Ideal) x (ix1 b) = ∑ r : Fin 16, ∑ l : Fin 960, Cert.Spec.darkBit (tgray x b r l) := by
  unfold k0_pay7
  refine (sum3_axis2_axis1 _ Gen.reduces_S16x16x960_S16x16 Gen.reduces_S16x16_S16
    (.inl rfl) (.inl rfl) rfl rfl b).trans ?_
  refine Finset.sum_congr rfl fun r _ => Finset.sum_congr rfl fun l _ => ?_
  show FloatOps.sitofp (F := Ideal) .f32
      ((IntOp.andi (FloatOps.cmpf (F := Ideal) (φ := .f32) .oge (k0_pay6 (F := Ideal) x (ix3 b r l)) (Ideal.ofBits .f32 0x00000000#32))
        (FloatOps.cmpf (F := Ideal) (φ := .f32) .olt (k0_pay6 (F := Ideal) x (ix3 b r l)) (Ideal.ofBits .f32 0x3E800000#32))).setWidth 32) = _
  rw [Cert.BitValue.sitofp_setWidth_bit, pay6_apply]
  rfl

/-- The tile's count of bright pixels of image `b`, added along the lanes to what was loaded. -/
theorem pay9_apply (x : Vec Ideal S16x3x16x960 .f32) (v27 : Vec Ideal S16x128 .f32) (b : Fin 16) (q : Fin 128) :
    k0_pay9 (F := Ideal) x v27 (ix2 b q)
      = (v27 (ix2 b q) : EReal) + ∑ r : Fin 16, ∑ l : Fin 960, Cert.Spec.brightBit (tgray x b r l) := by
  unfold k0_pay9
  refine (addf_apply _ _ (ix2 b q)).trans ?_
  refine congrArg₂ (fun u w : EReal => u + w) (congrFun (shapeCast_self v27 _) _) ?_
  refine (column_broadcast_apply _ _ _ _ b q).trans ?_
  refine (sum3_axis2_axis1 _ Gen.reduces_S16x16x960_S16x16 Gen.reduces_S16x16_S16
    (.inl rfl) (.inl rfl) rfl rfl b).trans ?_
  refine Finset.sum_congr rfl fun r _ => Finset.sum_congr rfl fun l _ => ?_
  show FloatOps.sitofp (F := Ideal) .f32
      ((IntOp.andi (FloatOps.cmpf (F := Ideal) (φ := .f32) .oge (k0_pay6 (F := Ideal) x (ix3 b r l)) (Ideal.ofBits .f32 0x3F400000#32))
        (FloatOps.cmpf (F := Ideal) (φ := .f32) .ole (k0_pay6 (F := Ideal) x (ix3 b r l)) (Ideal.ofBits .f32 0x3F800000#32))).setWidth 32) = _
  rw [Cert.BitValue.sitofp_setWidth_bit, pay6_apply]
  rfl

/-- The dark count's accumulation: the per-image sum added along the lanes to what was loaded. -/
theorem pay1_apply (v24 : FVec Ideal S16 .f32) (v34 : Vec Ideal S16x128 .f32) (b : Fin 16) (q : Fin 128) :
    k0_pay1 (F := Ideal) v24 v34 (ix2 b q) = (v34 (ix2 b q) : EReal) + v24 (ix1 b) := by
  unfold k0_pay1
  refine (addf_apply _ _ (ix2 b q)).trans ?_
  exact congrArg₂ (fun u w : EReal => u + w) (congrFun (shapeCast_self v34 _) _) (column_broadcast_apply v24 _ _ _ b q)

/-- The grey sum's accumulation, likewise. -/
theorem pay2_apply (v26 : FVec Ideal S16 .f32) (v41 : Vec Ideal S16x128 .f32) (b : Fin 16) (q : Fin 128) :
    k0_pay2 (F := Ideal) v26 v41 (ix2 b q) = (v41 (ix2 b q) : EReal) + v26 (ix1 b) := by
  unfold k0_pay2
  refine (addf_apply _ _ (ix2 b q)).trans ?_
  exact congrArg₂ (fun u w : EReal => u + w) (congrFun (shapeCast_self v41 _) _) (column_broadcast_apply v26 _ _ _ b q)

/-- The three initial values are zero everywhere. -/
theorem pay3_apply (j : S16x128.Idx) : k0_pay3 (F := Ideal) j = 0 := Ideal.ofBits_zero_f32
theorem pay4_apply (j : S16x128.Idx) : k0_pay4 (F := Ideal) j = 0 := Ideal.ofBits_zero_f32
theorem pay5_apply (j : S16x128.Idx) : k0_pay5 (F := Ideal) j = 0 := Ideal.ofBits_zero_f32

end Cert.KernelIdeal.PayValue

end
-- ==== Proof.KI.Accum.lean ====
/-
  The accumulators as running sums, on the extended reals.

  After grid point n every lane of row b of the first accumulator holds the sum, over the tiles 0 … n, of
  the tile's count of bright pixels of image b; the second likewise for the dark pixels, the third for the
  sum of the grey values.  The first point starts from the zeros it stores (0 + the first tile's sums);
  every later point adds its tile's sums to what the point before left.
-/
import proofs.«164688_j20031727468607_2_alg».proof.Proof.KI.Pieces
import proofs.«164688_j20031727468607_2_alg».proof.Proof.KI.Final
import proofs.«164688_j20031727468607_2_alg».proof.Proof.KPay

set_option maxRecDepth 16384

noncomputable section

namespace Cert.KernelIdeal.Hist

open Cert.KernelIdeal.Gen Cert.KernelIdeal.PayValue
open Idealize.ShloMosaic Idealize.ShloMosaic.TcCoe Idealize.SL.Sem Idealize.ShloMosaic.ValueIdx

variable (m : (ℓ : Loc nD τ sig) → Buf (Elt Ideal) ℓ)

/-- Tile s's count of bright pixels of image b (zero past the grid). -/
def tileBright (c : Dev nD) (s : ℕ) (b : Fin 16) : EReal :=
  if hs : s < cfg0.N then ∑ r : Fin 16, ∑ l : Fin 960, Cert.Spec.brightBit (tgray (iblk m c 0 ⟨s, hs⟩) b r l) else 0
/-- Tile s's count of dark pixels of image b. -/
def tileDark (c : Dev nD) (s : ℕ) (b : Fin 16) : EReal :=
  if hs : s < cfg0.N then ∑ r : Fin 16, ∑ l : Fin 960, Cert.Spec.darkBit (tgray (iblk m c 0 ⟨s, hs⟩) b r l) else 0
/-- Tile s's sum of the grey values of image b. -/
def tileGray (c : Dev nD) (s : ℕ) (b : Fin 16) : EReal :=
  if hs : s < cfg0.N then ∑ r : Fin 16, ∑ l : Fin 960, tgray (iblk m c 0 ⟨s, hs⟩) b r l else 0

/-- After point n the three accumulators hold, at every lane of row b, the sums over the tiles 0 … n. -/
theorem outsAt_eq (c : Dev nD) : ∀ (n : ℕ) (h : n < cfg0.N) (b : Fin 16) (q : Fin 128),
    ((outsAt0 m c n h).1 (ix2 b q) : EReal) = ∑ s ∈ Finset.range (n + 1), tileBright m c s b
    ∧ ((outsAt0 m c n h).2.1 (ix2 b q) : EReal) = ∑ s ∈ Finset.range (n + 1), tileDark m c s b
    ∧ ((outsAt0 m c n h).2.2 (ix2 b q) : EReal) = ∑ s ∈ Finset.range (n + 1), tileGray m c s b
  | 0, h, b, q => by
    rw [outsAt0_A m c ⟨0, h⟩ rfl]
    dsimp only
    rw [out_A_1, out_A_2, out_A_3]
    simp only [Nat.zero_add, Finset.sum_range_one]
    refine ⟨?_, ?_, ?_⟩
    · refine (pay9_apply _ _ b q).trans ?_
      rw [pay3_apply, zero_add]; unfold tileBright; rw [dif_pos h]
    · refine (pay1_apply _ _ b q).trans ?_
      rw [pay4_apply, zero_add, pay7_apply]; unfold tileDark; rw [dif_pos h]
    · refine (pay2_apply _ _ b q).trans ?_
      rw [pay5_apply, zero_add, pay8_apply]; unfold tileGray; rw [dif_pos h]
  | n + 1, h, b, q => by
    have hN : cfg0.N = 34 := N_0
    have hB : ¬(⟨n + 1, h⟩ : Fin cfg0.N).val % 34 = 0 := by dsimp only; omega
    obtain ⟨i1, i2, i3⟩ := outsAt_eq c n (Nat.lt_of_succ_lt h) b q
    rw [outsAt0_B m c ⟨n + 1, h⟩ hB]
    dsimp only
    rw [out_B_1, out_B_2, out_B_3]
    simp only [Finset.sum_range_succ _ (n + 1)]
    refine ⟨?_, ?_, ?_⟩
    · refine (pay9_apply _ _ b q).trans ?_
      exact congrArg₂ (· + ·) i1 (by unfold tileBright; rw [dif_pos h])
    · refine (pay1_apply _ _ b q).trans ?_
      exact congrArg₂ (· + ·) i2 (by rw [pay7_apply]; unfold tileDark; rw [dif_pos h])
    · refine (pay2_apply _ _ b q).trans ?_
      exact congrArg₂ (· + ·) i3 (by rw [pay8_apply]; unfold tileGray; rw [dif_pos h])

/-- So when the region ends, every lane of row b of each accumulator array holds the sum over all 34 tiles. -/
theorem result_apply (c : Dev nD) (b : Fin 16) (q : Fin 128) :
    (result1 m c (ix2 b q) : EReal) = ∑ s ∈ Finset.range 34, tileBright m c s b
    ∧ (result2 m c (ix2 b q) : EReal) = ∑ s ∈ Finset.range 34, tileDark m c s b
    ∧ (result3 m c (ix2 b q) : EReal) = ∑ s ∈ Finset.range 34, tileGray m c s b :=
  outsAt_eq m c 33 lastLt b q

end Cert.KernelIdeal.Hist

end
-- ==== Proof.KI.BlockValue.lean ====
/-
  The image window's block read at an index.

  At grid point t the pipeline fetches the block of the image at block index (0, 0, t, 0): sixteen rows
  of every image and channel.  A block's element sits in the array, on each axis, at the block index times the
  block's size plus its own coordinate; so the block's entry (b, ch, r, l) is the image's entry
  (b, ch, 16 t + r, l), and the tile's grey value at (b, r, l) is the image's grey value at row 16 t + r.
-/
import proofs.«164688_j20031727468607_2_alg».proof.Proof.KI.Runs
import proofs.«164688_j20031727468607_2_alg».proof.Proof.KPay
import proofs.«164688_j20031727468607_2_alg».proof.Proof.Spec
import Idealize.ShloMosaic.Lib.Pipeline.Value

set_option maxRecDepth 16384

noncomputable section

namespace Cert.KernelIdeal.HistValue

open Cert.KernelIdeal Cert.KernelIdeal.Gen Cert.KernelIdeal.Hist Cert.KernelIdeal.PayValue
open Idealize.ShloMosaic Idealize.ShloMosaic.ValueIdx Idealize.ShloMosaic.TcCoe
open Idealize.SL Idealize.SL.Sem

/-- The image window's block index at grid point `t` is `(0, 0, t, 0)`: decided over the 34 points. -/
theorem index0 : ∀ t : Fin cfg0.N, win0_0.index t = ![0, 0, t.val, 0] :=
  (by decide +kernel : ∀ t : Fin grid0.N, win0_0.index t = ![0, 0, t.val, 0])

/-- Row `r` of tile `t` is a row of the image. -/
theorem row_lt (t : Fin cfg0.N) (r : Fin 16) : 16 * t.val + r.val < 544 := by
  have ht : t.val < 34 := lt_of_lt_of_eq t.isLt N_0
  omega

/-- The block of grid point `t` at `(b, ch, r, l)` is the image at `(b, ch, 16 t + r, l)`. -/
theorem iblk0_apply (m : (ℓ : Loc nD τ sig) → Buf (Elt Ideal) ℓ) (c : Dev nD) (t : Fin cfg0.N)
    (b : Fin 16) (ch : Fin 3) (r : Fin 16) (l : Fin 960) :
    iblk m c 0 t (ix4 b ch r l)
      = m ((c : Thread nD τ).loc main_arg0) (ix4 b ch ⟨16 * t.val + r.val, row_lt t r⟩ l) := by
  have hi := index0 t
  have h0 : win0_0.index t (0 : Fin 4) = 0 := congrFun hi 0
  have h1 : win0_0.index t (1 : Fin 4) = 0 := congrFun hi 1
  have h2 : win0_0.index t (2 : Fin 4) = t.val := congrFun hi 2
  have h3 : win0_0.index t (3 : Fin 4) = 0 := congrFun hi 3
  show m ((c : Thread nD τ).loc main_arg0) (((cfg0.win 0).blk t).view.emb (ix4 b ch r l)) = _
  refine congrArg (m ((c : Thread nD τ).loc main_arg0)) (funext fun a => Fin.ext ?_)
  match a with
  | ⟨0, _⟩ => show win0_0.index t (0 : Fin 4) * 16 + 1 * b.val = b.val; omega
  | ⟨1, _⟩ => show win0_0.index t (1 : Fin 4) * 3 + 1 * ch.val = ch.val; omega
  | ⟨2, _⟩ => show win0_0.index t (2 : Fin 4) * 16 + 1 * r.val = 16 * t.val + r.val; omega
  | ⟨3, _⟩ => show win0_0.index t (3 : Fin 4) * 960 + 1 * l.val = l.val; omega

/-- The tile's grey value at `(b, r, l)` is the image's grey value at row `16 t + r`. -/
theorem tgray_iblk0 (m : (ℓ : Loc nD τ sig) → Buf (Elt Ideal) ℓ) (c : Dev nD) (t : Fin cfg0.N)
    (b : Fin 16) (r : Fin 16) (l : Fin 960) :
    tgray (iblk m c 0 t) b r l
      = Cert.Spec.gray (m ((c : Thread nD τ).loc main_arg0)) b ⟨16 * t.val + r.val, row_lt t r⟩ l := by
  unfold tgray Cert.Spec.gray
  exact congrArg (fun s : EReal => Ideal.div s (Ideal.ofBits .f32 0x40400000#32))
    (Finset.sum_congr rfl fun ch _ => iblk0_apply m c t b ch r l)

end Cert.KernelIdeal.HistValue

end
-- ==== Proof.Sums.lean ====
/-
  Re-indexing of finite sums over the rows of an image, in any commutative additive monoid.

  A sum over `Fin (a * b)` is the sum over `a` runs of length `b`: the row `h` is `b * t + r` for exactly one
  pair (run `t`, position `r`).  Conversely a sum over the flat positions `k` of an `a × b` array, read at row
  `k / b` and column `k % b`, is the double sum over rows and columns.  The two facts are stated for general
  extents and then at the extents of the image: 544 rows taken as 34 tiles of 16 rows, and 544 × 960 = 522240
  flat positions.
-/
import Mathlib.Logic.Equiv.Fin.Basic
import Mathlib.Data.Fintype.BigOperators
import Mathlib.Algebra.BigOperators.Fin

namespace Cert.Sums

open scoped BigOperators

/-- Position `r` of run `t`, runs of length `b`, lies below `a * b`. -/
theorem run_lt {a b : ℕ} (t : Fin a) (r : Fin b) : b * t.val + r.val < a * b :=
  calc b * t.val + r.val < b * t.val + b := Nat.add_lt_add_left r.isLt _
    _ = b * (t.val + 1) := (Nat.mul_succ b t.val).symm
    _ ≤ b * a := Nat.mul_le_mul_left b t.isLt
    _ = a * b := Nat.mul_comm b a

/-- A sum over `Fin n`, `n = a * b`, is the sum over `a` runs of length `b`. -/
theorem sum_runs {M : Type*} [AddCommMonoid M] {n : ℕ} (a b : ℕ) (hn : n = a * b) (g : Fin n → M) :
    ∑ t : Fin a, ∑ r : Fin b, g ⟨b * t.val + r.val, hn ▸ run_lt t r⟩ = ∑ h : Fin n, g h := by
  subst hn
  rw [← Equiv.sum_comp finProdFinEquiv g, Fintype.sum_prod_type]
  refine Finset.sum_congr rfl fun t _ => Finset.sum_congr rfl fun r _ => congrArg g (Fin.ext ?_)
  show b * t.val + r.val = r.val + b * t.val
  exact Nat.add_comm _ _

/-- The row of flat position `k` of an `a × b` array. -/
theorem flat_div_lt {n : ℕ} (a b : ℕ) (hn : n = a * b) (k : Fin n) : k.val / b < a :=
  Nat.div_lt_of_lt_mul (by subst hn; exact lt_of_lt_of_eq k.isLt (Nat.mul_comm a b))

/-- The column of flat position `k` of an `a × b` array. -/
theorem flat_mod_lt {n : ℕ} (a b : ℕ) (hn : n = a * b) (k : Fin n) : k.val % b < b :=
  Nat.mod_lt _ (Nat.pos_of_ne_zero fun hb => by
    subst hn; subst hb; exact Nat.not_lt_zero _ k.isLt)

/-- A sum over the flat positions of an `a × b` array, read at row `k / b` and column `k % b`, is the double sum
    over rows and columns. -/
theorem sum_flat {M : Type*} [AddCommMonoid M] {n : ℕ} (a b : ℕ) (hn : n = a * b) (F : Fin a → Fin b → M) :
    ∑ k : Fin n, F ⟨k.val / b, flat_div_lt a b hn k⟩ ⟨k.val % b, flat_mod_lt a b hn k⟩
      = ∑ h : Fin a, ∑ l : Fin b, F h l := by
  subst hn
  rw [← Fintype.sum_prod_type (f := fun p : Fin a × Fin b => F p.1 p.2),
    ← Equiv.sum_comp finProdFinEquiv.symm (fun p : Fin a × Fin b => F p.1 p.2)]
  rfl

/-- The 544 rows taken as 34 tiles of 16 rows. -/
theorem sum_tiles {M : Type*} [AddCommMonoid M] (f : Fin 544 → Fin 960 → M) :
    ∑ t : Fin 34, ∑ r : Fin 16, ∑ l : Fin 960, f ⟨16 * t.val + r.val, by omega⟩ l
      = ∑ h : Fin 544, ∑ l : Fin 960, f h l :=
  sum_runs (n := 544) 34 16 rfl fun h => ∑ l : Fin 960, f h l

/-- The 522240 flat positions of the 544 × 960 image read at row `k / 960` and column `k % 960`. -/
theorem sum_flat_image {M : Type*} [AddCommMonoid M] (f : Fin 544 → Fin 960 → M) :
    ∑ k : Fin 522240, f ⟨k.val / 960, by omega⟩ ⟨k.val % 960, by omega⟩
      = ∑ h : Fin 544, ∑ l : Fin 960, f h l :=
  sum_flat (n := 522240) 544 960 rfl f

end Cert.Sums
-- ==== Proof.KI.Stats.lean ====
/-
  The three accumulator arrays hold the specification's statistics.

  A tile's grey value at row r of tile t is the image's grey value at row 16 t + r; so the sum over the 34
  tiles of a tile's sum over its 16 rows and 960 columns is the double sum over the image's 544 rows and
  960 columns: every lane of row b of the three arrays holds the number of bright pixels, the number of
  dark pixels and the sum of the grey values of image b.
-/
import proofs.«164688_j20031727468607_2_alg».proof.Proof.KI.Accum
import proofs.«164688_j20031727468607_2_alg».proof.Proof.KI.BlockValue
import proofs.«164688_j20031727468607_2_alg».proof.Proof.Sums

set_option maxRecDepth 16384

noncomputable section

namespace Cert.KernelIdeal.Hist

open Cert.KernelIdeal.Gen Cert.KernelIdeal.PayValue
open Idealize.ShloMosaic Idealize.ShloMosaic.TcCoe Idealize.SL.Sem Idealize.ShloMosaic.ValueIdx

variable (m : (ℓ : Loc nD τ sig) → Buf (Elt Ideal) ℓ)

/-- A sum over the 34 tiles by number is the sum over the grid's points, and a pixel function summed tile by tile
    is summed over the image. -/
theorem tiles_sum (c : Dev nD) (g : ℕ → EReal) (f : Fin 544 → Fin 960 → EReal)
    (hg : ∀ (t : Fin 34) (ht : t.val < cfg0.N), g t.val = ∑ r : Fin 16, ∑ l : Fin 960, f ⟨16 * t.val + r.val, by omega⟩ l) :
    ∑ s ∈ Finset.range 34, g s = ∑ h : Fin 544, ∑ l : Fin 960, f h l := by
  rw [Finset.sum_range, ← Cert.Sums.sum_tiles f]
  exact Finset.sum_congr rfl fun t _ => hg t (by rw [show cfg0.N = 34 from N_0]; exact t.isLt)

theorem result1_spec (c : Dev nD) (b : Fin 16) (q : Fin 128) :
    (result1 m c (ix2 b q) : EReal) = Cert.Spec.bright (m ((c : Thread nD τ).loc main_arg0)) b := by
  rw [(result_apply m c b q).1]
  unfold Cert.Spec.bright
  refine tiles_sum c _ (fun h l => Cert.Spec.brightBit (Cert.Spec.gray (m ((c : Thread nD τ).loc main_arg0)) b h l)) fun t ht => ?_
  unfold tileBright; rw [dif_pos ht]
  refine Finset.sum_congr rfl fun r _ => Finset.sum_congr rfl fun l _ => ?_
  rw [Cert.KernelIdeal.HistValue.tgray_iblk0]

theorem result2_spec (c : Dev nD) (b : Fin 16) (q : Fin 128) :
    (result2 m c (ix2 b q) : EReal) = Cert.Spec.dark (m ((c : Thread nD τ).loc main_arg0)) b := by
  rw [(result_apply m c b q).2.1]
  unfold Cert.Spec.dark
  refine tiles_sum c _ (fun h l => Cert.Spec.darkBit (Cert.Spec.gray (m ((c : Thread nD τ).loc main_arg0)) b h l)) fun t ht => ?_
  unfold tileDark; rw [dif_pos ht]
  refine Finset.sum_congr rfl fun r _ => Finset.sum_congr rfl fun l _ => ?_
  rw [Cert.KernelIdeal.HistValue.tgray_iblk0]

theorem result3_spec (c : Dev nD) (b : Fin 16) (q : Fin 128) :
    (result3 m c (ix2 b q) : EReal) = Cert.Spec.graySum (m ((c : Thread nD τ).loc main_arg0)) b := by
  rw [(result_apply m c b q).2.2]
  unfold Cert.Spec.graySum
  refine tiles_sum c _ (fun h l => Cert.Spec.gray (m ((c : Thread nD τ).loc main_arg0)) b h l) fun t ht => ?_
  unfold tileGray; rw [dif_pos ht]
  refine Finset.sum_congr rfl fun r _ => Finset.sum_congr rfl fun l _ => ?_
  rw [Cert.KernelIdeal.HistValue.tgray_iblk0]

end Cert.KernelIdeal.Hist

end
-- ==== Proof.Tail.lean ====
/-
  The scalar tail both programs share, as ONE function of the three per-image statistics (the number of
  bright pixels, the number of dark pixels, the sum of the grey values: vectors of length 16) and the two
  exposure vectors.

  dr = bright / (dark + 1e-5) and avg = graySum / 522240; four conditions on (dr, avg) choose, per image, the
  first that holds (an arg-max over the stacked condition bits, "none" first) and with it one of four
  constant gaps (or 0); the LAST image's avg and gap then move both exposure vectors, by one of three
  rules chosen by two comparisons of that avg; the result stacks dr, avg, the gaps and the two moved
  vectors into a [5,16] array.  Nothing here is ever opened by the proof: both programs apply this same
  function, and only its arguments are compared.
-/
import Idealize.ShloMosaic.PureOps

noncomputable section

namespace Cert.Tail

open Idealize.ShloMosaic

abbrev S16 : Shape := ⟨1, ![16]⟩
abbrev S_ : Shape := ⟨0, ![]⟩
abbrev S1x16 : Shape := ⟨2, ![1, 16]⟩
abbrev S5x16 : Shape := ⟨2, ![5, 16]⟩
abbrev S1 : Shape := ⟨1, ![1]⟩

theorem bcast_S_S16 : S_.BroadcastsInDim S16 (![] : Fin 0 → Fin S16.rank) := by decide
theorem bcast_S16_S1x16_1 : S16.BroadcastsInDim S1x16 (![1] : Fin 1 → Fin S1x16.rank) := by decide
theorem concatenates_5 : Shape.Concatenates [S1x16, S1x16, S1x16, S1x16, S1x16] S5x16 0 := by decide
theorem reducesTo_S5x16_S16_d0 : S5x16.ReducesTo [0] S16 := by decide
theorem h_S_ : 0 < S_.numel := by decide
theorem slices_S16_S1_15 : S16.Slices ![15] S1 := by decide
theorem shapeCasts_S1_S_ : S1.ShapeCasts S_ := by decide

/-- The arg-max's combiner on (bit, position) pairs: keep the pair with the larger bit, and on equal bits
    the one at the smaller position. -/
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

variable {F : FTy → Type} [FloatOps F]

/-- A scalar splat to the sixteen images. -/
abbrev splat16 {α : Type} (x : S_.Idx → α) : S16.Idx → α := broadcastInDim S16 ![] bcast_S_S16 x
/-- A vector of length 16 as one row of a [1,16] array. -/
abbrev row16 {α : Type} (x : S16.Idx → α) : S1x16.Idx → α := broadcastInDim S1x16 ![1] bcast_S16_S1x16_1 x
/-- The last image's entry of a vector of length 16, as a scalar. -/
abbrev last16 {α : Type} (x : S16.Idx → α) : S_.Idx → α :=
  shapeCast S_ (extractStridedSlice S1 ![15] x slices_S16_S1_15) shapeCasts_S1_S_

/-- The tail: see the header. -/
def tail (B D G a1 a2 : FVec F S16 .f32) : FVec F S5x16 .f32 :=
  have v7 : FVec F S16 .f32 := splat16 (constant S_ .f32 0x3727C5AC#32)
  have v8 : FVec F S16 .f32 := addf D v7
  have v9 : FVec F S16 .f32 := Host.divf B v8
  have v10 : FVec F S16 .f32 := splat16 (constant S_ .f32 0x48FF0000#32)
  have v11 : FVec F S16 .f32 := Host.divf G v10
  have v12 : FVec F S16 .f32 := splat16 (constant S_ .f32 0x3F800000#32)
  have v13 : IVec S16 1 := cmpf .ogt v9 v12
  have v14 : FVec F S16 .f32 := splat16 (constant S_ .f32 0x3ECCCCCD#32)
  have v15 : IVec S16 1 := cmpf .ogt v11 v14
  have v16 : IVec S16 1 := andi v13 v15
  have v17 : FVec F S16 .f32 := splat16 (constant S_ .f32 0x3F19999A#32)
  have v18 : IVec S16 1 := cmpf .olt v11 v17
  have v19 : IVec S16 1 := andi v16 v18
  have v20 : FVec F S16 .f32 := splat16 (constant S_ .f32 0x3E99999A#32)
  have v21 : IVec S16 1 := cmpf .ole v11 v20
  have v22 : FVec F S16 .f32 := splat16 (constant S_ .f32 0x3F333333#32)
  have v23 : IVec S16 1 := cmpf .oge v11 v22
  have v24 : FVec F S16 .f32 := splat16 (constant S_ .f32 0x3F800000#32)
  have v25 : IVec S16 1 := cmpf .ole v9 v24
  have v26 : FVec F S16 .f32 := splat16 (constant S_ .f32 0x3E99999A#32)
  have v27 : IVec S16 1 := cmpf .ogt v11 v26
  have v28 : IVec S16 1 := andi v25 v27
  have v29 : FVec F S16 .f32 := splat16 (constant S_ .f32 0x3F333333#32)
  have v30 : IVec S16 1 := cmpf .olt v11 v29
  have v31 : IVec S16 1 := andi v28 v30
  have v32 : FVec F S_ .f32 := mulf (constant S_ .f32 0x3F000000#32) (constant S_ .f32 0x40000000#32)
  have v33 : FVec F S_ .f32 := mulf (constant S_ .f32 0x3F000000#32) (constant S_ .f32 0x3F000000#32)
  have v34 : FVec F S_ .f32 := mulf (constant S_ .f32 0x3F000000#32) (constant S_ .f32 0x3F000000#32)
  have v35 : FVec F S_ .f32 := mulf (constant S_ .f32 0x3F000000#32) (constant S_ .f32 0x3F400000#32)
  have v36 : IVec S16 1 := splat16 (constantI S_ 1 0#1)
  have v37 : IVec S1x16 1 := row16 v36
  have v38 : IVec S1x16 1 := row16 v19
  have v39 : IVec S1x16 1 := row16 v21
  have v40 : IVec S1x16 1 := row16 v23
  have v41 : IVec S1x16 1 := row16 v31
  have v42 : IVec S5x16 1 := concatenate S5x16 0 [⟨S1x16, v37⟩, ⟨S1x16, v38⟩, ⟨S1x16, v39⟩, ⟨S1x16, v40⟩, ⟨S1x16, v41⟩] concatenates_5
  have v43 : IVec S16 32 := fun j => (Host.reduce2 reducer_argmax_i1_i32 v42 (iotaInDim S5x16 32 0) (constantI S_ 1 0#1) (constantI S_ 32 0#32) reducesTo_S5x16_S16_d0 h_S_ j).2
  have v44 : FVec F S16 .f32 := splat16 (constant S_ .f32 0x00000000#32)
  have v45 : FVec F S16 .f32 := splat16 v32
  have v46 : FVec F S16 .f32 := splat16 v33
  have v47 : FVec F S16 .f32 := splat16 v34
  have v48 : FVec F S16 .f32 := splat16 v35
  have v50 : IVec S16 1 := cmpi .slt v43 (splat16 (constantI S_ 32 2#32))
  have v52 : IVec S16 1 := cmpi .slt v43 (splat16 (constantI S_ 32 1#32))
  have v53 : FVec F S16 .f32 := select v52 v44 v45
  have v55 : IVec S16 1 := cmpi .slt v43 (splat16 (constantI S_ 32 3#32))
  have v57 : IVec S16 1 := cmpi .slt v43 (splat16 (constantI S_ 32 4#32))
  have v58 : FVec F S16 .f32 := select v57 v47 v48
  have v59 : FVec F S16 .f32 := select v55 v46 v58
  have v60 : FVec F S16 .f32 := select v50 v53 v59
  have v62 : FVec F S_ .f32 := last16 v11
  have v64 : FVec F S_ .f32 := last16 v60
  have v65 : IVec S_ 1 := cmpf .ole v62 (constant S_ .f32 0x3E800000#32)
  have v66 : FVec F S_ .f32 := mulf (constant S_ .f32 0x3F000000#32) v64
  have v67 : FVec F S_ .f32 := mulf v66 (constant S_ .f32 0x3FD9999A#32)
  have v69 : FVec F S16 .f32 := addf a1 (splat16 v67)
  have v70 : IVec S_ 1 := cmpf .oge v62 (constant S_ .f32 0x3F400000#32)
  have v71 : FVec F S_ .f32 := mulf (constant S_ .f32 0x3F000000#32) v64
  have v72 : FVec F S_ .f32 := mulf v71 (constant S_ .f32 0x3FD9999A#32)
  have v74 : FVec F S16 .f32 := subf a1 (splat16 v72)
  have v75 : FVec F S_ .f32 := mulf (constant S_ .f32 0x3E99999A#32) v64
  have v77 : FVec F S16 .f32 := subf a1 (splat16 v75)
  have v78 : FVec F S16 .f32 := select (splat16 v70) v74 v77
  have v79 : FVec F S16 .f32 := select (splat16 v65) v69 v78
  have v80 : IVec S_ 1 := cmpf .ole v62 (constant S_ .f32 0x3E800000#32)
  have v81 : FVec F S_ .f32 := mulf (constant S_ .f32 0x3F000000#32) v64
  have v82 : FVec F S_ .f32 := mulf v81 (constant S_ .f32 0x3FD9999A#32)
  have v84 : FVec F S16 .f32 := addf a2 (splat16 v82)
  have v85 : IVec S_ 1 := cmpf .oge v62 (constant S_ .f32 0x3F400000#32)
  have v86 : FVec F S_ .f32 := mulf (constant S_ .f32 0x3F000000#32) v64
  have v87 : FVec F S_ .f32 := mulf v86 (constant S_ .f32 0x3FD9999A#32)
  have v89 : FVec F S16 .f32 := subf a2 (splat16 v87)
  have v90 : FVec F S_ .f32 := mulf (constant S_ .f32 0x3F333333#32) v64
  have v92 : FVec F S16 .f32 := addf a2 (splat16 v90)
  have v93 : FVec F S16 .f32 := select (splat16 v85) v89 v92
  have v94 : FVec F S16 .f32 := select (splat16 v80) v84 v93
  concatenate S5x16 0 [⟨S1x16, row16 v9⟩, ⟨S1x16, row16 v11⟩, ⟨S1x16, row16 v60⟩, ⟨S1x16, row16 v79⟩, ⟨S1x16, row16 v94⟩] concatenates_5

end Cert.Tail

end
-- ==== Proof.KI.TailValue.lean ====
/-
  The value of the host lines that follow the kernel's region.

  From any contents W of the buffers, the 142 operations after the region leave in the result buffer the
  shared scalar tail applied to column 0 of each of the three accumulator arrays and to the two exposure
  vectors.  Each operation rewrites its own result buffer as its function of the buffers it reads and leaves
  every other buffer as it was; so the result buffer is read off operation by operation, the last stretch of
  operations first, each stretch from the contents the earlier stretches leave.  A concatenation of five arrays
  depends only on the five arrays, which is what lets the reading go on inside the two stacks.  Column 0 of an
  accumulator array [16,128] is the slice [0:16, 0:1] made a vector of length 16: its entry b is the array's
  entry (b, 0).
-/
import proofs.«164688_j20031727468607_2_alg».proof.Proof.KI.Tail
import proofs.«164688_j20031727468607_2_alg».proof.Proof.Tail
import Idealize.ShloMosaic.Lib.StableHlo.Run
import Idealize.ShloMosaic.Lib.ValueIdx
import Idealize.ShloMosaic.Lib.Pipeline.Value

set_option maxRecDepth 16384

noncomputable section

namespace Cert.KernelIdeal.HistValue

open Cert.KernelIdeal Cert.KernelIdeal.Gen Cert.KernelIdeal.Hist
open Idealize.ShloMosaic Idealize.ShloMosaic.ValueIdx Idealize.ShloMosaic.StableHlo

/-- A concatenation of five arrays depends only on the five arrays. -/
@[congr] theorem concatenate5_congr {α : Type} {t : Shape} {ax : Fin t.rank} {s0 s1 s2 s3 s4 : Shape}
    {a0 a0' : s0.Idx → α} {a1 a1' : s1.Idx → α} {a2 a2' : s2.Idx → α} {a3 a3' : s3.Idx → α} {a4 a4' : s4.Idx → α}
    (h : Shape.Concatenates [s0, s1, s2, s3, s4] t ax)
    (e0 : a0 = a0') (e1 : a1 = a1') (e2 : a2 = a2') (e3 : a3 = a3') (e4 : a4 = a4') :
    concatenate t ax [⟨s0, a0⟩, ⟨s1, a1⟩, ⟨s2, a2⟩, ⟨s3, a3⟩, ⟨s4, a4⟩] h
      = concatenate t ax [⟨s0, a0'⟩, ⟨s1, a1'⟩, ⟨s2, a2'⟩, ⟨s3, a3'⟩, ⟨s4, a4'⟩] h := by
  subst e0 e1 e2 e3 e4; rfl

/-- Column 0 of an accumulator array, as a vector of length 16: the slice `[0:16, 0:1]` reshaped. -/
def col0 (A : FVec Ideal S16x128 .f32) : FVec Ideal S16 .f32 :=
  shapeCast S16 (extractStridedSlice S16x1 ![0, 0] A slices_S16x128_S16x1_0_0) shapeCasts_S16x1_S16

/-- Its entry `b` is the array's entry `(b, 0)`. -/
theorem col0_apply (A : FVec Ideal S16x128 .f32) (b : Fin 16) : col0 A (ix1 b) = A (ix2 b (0 : Fin 128)) := by
  unfold col0
  refine (shapeCast_apply _ shapeCasts_S16x1_S16 (ix1 b) (ix2 b (0 : Fin 1)) ?_).trans ?_
  · rw [Shape.rowMajor_val_two, Shape.rowMajor_val_one]
    show b.val * 1 + 0 = b.val
    omega
  · refine extractStridedSlice_apply ![0, 0] A slices_S16x128_S16x1_0_0 (ix2 b (0 : Fin 1)) (ix2 b (0 : Fin 128)) fun a => ?_
    match a with
    | ⟨0, _⟩ => show b.val = 0 + b.val; omega
    | ⟨1, _⟩ => rfl

set_option maxHeartbeats 2000000 in
/-- The result buffer after the 142 operations: the shared tail of column 0 of the three accumulator arrays and
    the two exposure vectors, all read from the contents the operations start from. -/
theorem tail_value (W : Valuation τ sig (Elt Ideal)) :
    StableHlo.after (List.flatten (tailOps (F := Ideal))) W (Proc.devRef .tc main_v100)
      = Cert.Tail.tail (F := Ideal) (col0 (W (Proc.devRef .tc main_v0_0))) (col0 (W (Proc.devRef .tc main_v0_1)))
          (col0 (W (Proc.devRef .tc main_v0_2))) (W (Proc.devRef .tc main_arg1)) (W (Proc.devRef .tc main_arg2)) := by
  simp only [tailOps, List.flatten_cons, List.flatten_nil, List.append_nil]
  simp only [StableHlo.after_append]
  generalize h8 : (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))))) = X
  simp only [hostOps1_8]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h8
  generalize h7 : (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))))) = X
  simp only [hostOps1_7]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h7
  generalize h6 : (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))))) = X
  simp only [hostOps1_6]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h6
  generalize h5 : (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W))))) = X
  simp only [hostOps1_5]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h5
  generalize h4 : (StableHlo.after (hostOps1_3 (F := Ideal)) (StableHlo.after (hostOps1_2 (F := Ideal)) (StableHlo.after (hostOps1_1 (F := Ideal)) (StableHlo.after (hostOps1 (F := Ideal)) W)))) = X
  simp only [hostOps1_4]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h4
  generalize h3 : (StableHlo.after (hostOps1_2 (F := Ideal)) (StableHlo.after (hostOps1_1 (F := Ideal)) (StableHlo.after (hostOps1 (F := Ideal)) W))) = X
  simp only [hostOps1_3]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h3
  generalize h2 : (StableHlo.after (hostOps1_1 (F := Ideal)) (StableHlo.after (hostOps1 (F := Ideal)) W)) = X
  simp only [hostOps1_2]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h2
  generalize h1 : (StableHlo.after (hostOps1 (F := Ideal)) W) = X
  simp only [hostOps1_1]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  subst h1
  simp only [hostOps1]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]
  rfl

end Cert.KernelIdeal.HistValue

end
-- ==== Proof.KI.Value.lean ====
/-
  The kernel program's result, on the extended reals.

  When the region ends the three accumulator arrays hold, along every lane of row b, the number of bright
  pixels, the number of dark pixels and the sum of the grey values of image b.  The later host lines take
  column 0 of each — three vectors of length 16 — and apply the scalar tail to them and the two exposure
  vectors, which they find as launched.  So the result array is the tail of the specification's three
  statistics of the image and the two exposure vectors.
-/
import proofs.«164688_j20031727468607_2_alg».proof.Proof.KI.Stats
import proofs.«164688_j20031727468607_2_alg».proof.Proof.KI.TailValue
import proofs.«164688_j20031727468607_2_alg».proof.Proof.Tail

set_option maxRecDepth 16384

noncomputable section

namespace Cert.KernelIdeal.Hist

open Cert.KernelIdeal.Gen Cert.KernelIdeal.HistValue
open Idealize.ShloMosaic Idealize.ShloMosaic.TcCoe Idealize.SL.Sem Idealize.ShloMosaic.ValueIdx

variable (m : (ℓ : Loc nD τ sig) → Buf (Elt Ideal) ℓ) (ρ : Dev nD → PrngReg)

/-- Column 0 of the first accumulator array is the per-image number of bright pixels. -/
theorem col0_result1 (c : Dev nD) :
    col0 (result1 m c) = fun j => Cert.Spec.bright (m ((c : Thread nD τ).loc main_arg0)) (j 0) := by
  funext j
  obtain ⟨b, rfl⟩ : ∃ b : Fin 16, j = ix1 b := ⟨j 0, eq_ix1 j⟩
  rw [col0_apply]
  exact result1_spec m c b 0

/-- Column 0 of the second is the per-image number of dark pixels. -/
theorem col0_result2 (c : Dev nD) :
    col0 (result2 m c) = fun j => Cert.Spec.dark (m ((c : Thread nD τ).loc main_arg0)) (j 0) := by
  funext j
  obtain ⟨b, rfl⟩ : ∃ b : Fin 16, j = ix1 b := ⟨j 0, eq_ix1 j⟩
  rw [col0_apply]
  exact result2_spec m c b 0

/-- Column 0 of the third is the per-image sum of the grey values. -/
theorem col0_result3 (c : Dev nD) :
    col0 (result3 m c) = fun j => Cert.Spec.graySum (m ((c : Thread nD τ).loc main_arg0)) (j 0) := by
  funext j
  obtain ⟨b, rfl⟩ : ∃ b : Fin 16, j = ix1 b := ⟨j 0, eq_ix1 j⟩
  rw [col0_apply]
  exact result3_spec m c b 0

/-- The result buffer after the later lines: the tail of the three statistics and the two exposure vectors. -/
theorem tail_out (c : Dev nD) :
    Pipeline.afterTail₀ cfgs (dats m) 0 (V0 m) tailOps c main_v100
      = Cert.Tail.tail (F := Ideal) (fun j => Cert.Spec.bright (m ((c : Thread nD τ).loc main_arg0)) (j 0))
          (fun j => Cert.Spec.dark (m ((c : Thread nD τ).loc main_arg0)) (j 0))
          (fun j => Cert.Spec.graySum (m ((c : Thread nD τ).loc main_arg0)) (j 0))
          (m ((c : Thread nD τ).loc main_arg1)) (m ((c : Thread nD τ).loc main_arg2)) := by
  unfold Pipeline.afterTail₀
  refine (tail_value _).trans ?_
  have e1 := Pipeline.withArrays_arr (cfgs 0).spec launch0.win.arr_inj c (V0 m c) (fun w => (dats m 0 c).arrAt w (cfgs 0).N) 1
  have e2 := Pipeline.withArrays_arr (cfgs 0).spec launch0.win.arr_inj c (V0 m c) (fun w => (dats m 0 c).arrAt w (cfgs 0).N) 2
  have e3 := Pipeline.withArrays_arr (cfgs 0).spec launch0.win.arr_inj c (V0 m c) (fun w => (dats m 0 c).arrAt w (cfgs 0).N) 3
  have a1 := Pipeline.withArrays_of_ne (cfgs 0).spec c (V0 m c) (fun w => (dats m 0 c).arrAt w (cfgs 0).N) main_arg1 (by decide)
  have a2 := Pipeline.withArrays_of_ne (cfgs 0).spec c (V0 m c) (fun w => (dats m 0 c).arrAt w (cfgs 0).N) main_arg2 (by decide)
  have f1 : (dats m 0 c).arrAt 1 (cfgs 0).N = result1 m c := final_1 m c
  have f2 : (dats m 0 c).arrAt 2 (cfgs 0).N = result2 m c := final_2 m c
  have f3 : (dats m 0 c).arrAt 3 (cfgs 0).N = result3 m c := final_3 m c
  rw [f1] at e1; rw [f2] at e2; rw [f3] at e3
  exact congr (congr (congr (congr (congrArg (Cert.Tail.tail (F := Ideal)) ((congrArg col0 e1).trans (col0_result1 m c)))
    ((congrArg col0 e2).trans (col0_result2 m c))) ((congrArg col0 e3).trans (col0_result3 m c))) a1) a2

/-- The kernel program's run, read: the result array at the tail of the specification's statistics, the arguments
    unchanged. -/
theorem run_value : θ_run defs (onTc (τ := τ) (main (F := Ideal))) ⟨m, fun _ => 0, ρ⟩ (fun r => ∀ c : Dev nD,
      r.2.mem ((c.tc : Thread nD τ).loc main_v100)
        = Cert.Tail.tail (F := Ideal) (fun j => Cert.Spec.bright (m ((c.tc : Thread nD τ).loc main_arg0)) (j 0))
            (fun j => Cert.Spec.dark (m ((c.tc : Thread nD τ).loc main_arg0)) (j 0))
            (fun j => Cert.Spec.graySum (m ((c.tc : Thread nD τ).loc main_arg0)) (j 0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v100 (Pipeline.mem_restRefs_of main_v100 (by decide) (by decide))).trans (tail_out m c),
     ((h c).1 0).trans (((dats m 0 c).arrAt_in 0 rfl _).trans ((A_eq m c 0).trans (V_main_arg0 m c))),
     ((h c).2 main_arg1 (Pipeline.mem_restRefs_of main_arg1 (by decide) (by decide))).trans (afterTail_arg1 m (dats m) c),
     ((h c).2 main_arg2 (Pipeline.mem_restRefs_of main_arg2 (by decide) (by decide))).trans (afterTail_arg2 m (dats m) c)⟩)
    (run_main m ρ)

end Cert.KernelIdeal.Hist

end
-- ==== Proof.RefOps.lean ====
/-
  The reference program's sequence of operations, written out as three lists, one per printed window of its
  main function, with each call of a module-local function replaced by that function's own operations over the
  buffers of that call.  The whole program is the concatenation of the three lists.
-/
import proofs.«164688_j20031727468607_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
/-- The operations of the first window (statements 1 to 60). -/
abbrev ops0 : List (HloOp τ sig (Elt F)) :=
  ( StableHlo.nullary main_cst (constant S_ .f32 0x00000000#32)
  :: StableHlo.binary main_arg0 main_cst main_v0 ((fun x v => Host.reduceAdd x v reducesTo_S16x3x544x960_S16x544x960_d1 h_S_) : (⟨S16x3x544x960, .f32⟩ : BufTy).Contents (Elt F) → (⟨S_, .f32⟩ : BufTy).Contents (Elt F) → (⟨S16x544x960, .f32⟩ : BufTy).Contents (Elt F))
  :: StableHlo.nullary main_cst_0 (constant S_ .f32 0x40400000#32)
  :: StableHlo.unary main_cst_0 main_v1 (broadcastInDim S16x544x960 ![] bcast_S_S16x544x960 : (⟨S_, .f32⟩ : BufTy).Contents (Elt F) → (⟨S16x544x960, .f32⟩ : BufTy).Contents (Elt F))
  :: StableHlo.binary main_v0 main_v1 main_v2 (Host.divf : (⟨S16x544x960, .f32⟩ : BufTy).Contents (Elt F) → (⟨S16x544x960, .f32⟩ : BufTy).Contents (Elt F) → (⟨S16x544x960, .f32⟩ : BufTy).Contents (Elt F))
  :: StableHlo.reshape main_v2 main_v3 rfl shapeCasts_S16x544x960_S16x522240
  :: StableHlo.nullary main_cst_1 (constant S_ .f32 0x3F400000#32)
  :: StableHlo.unary main_cst_1 main_v4 (broadcastInDim S16x522240 ![] bcast_S_S16x522240 : (⟨S_, .f32⟩ : BufTy).Contents (Elt F) → (⟨S16x522240, .f32⟩ : BufTy).Contents (Elt F))
  :: StableHlo.binary main_v3 main_v4 main_v5 (cmpf .oge : (⟨S16x522240, .f32⟩ : BufTy).Contents (Elt F) → (⟨S16x522240, .f32⟩ : BufTy).Contents (Elt F) → (⟨S16x522240, .i1⟩ : BufTy).Contents (Elt F))
  :: StableHlo.nullary main_cst_2 (constant S_ .f32 0x3F800000#32)
  :: StableHlo.unary main_cst_2 main_v6 (broadcastInDim S16x522240 ![] bcast_S_S16x522240 : (⟨S_, .f32⟩ : BufTy).Contents (Elt F) → (⟨S16x522240, .f32⟩ : BufTy).Contents (Elt F))
  :: StableHlo.binary main_v3 main_v6 main_v7 (cmpf .ole : (⟨S16x522240, .f32⟩ : BufTy).Contents (Elt F) → (⟨S16x522240, .f32⟩ : BufTy).Contents (Elt F) → (⟨S16x522240, .i1⟩ : BufTy).Contents (Elt F))
  :: StableHlo.binary main_v5 main_v7 main_v8 (andi : (⟨S16x522240, .i1⟩ : BufTy).Contents (Elt F) → (⟨S16x522240, .i1⟩ : BufTy).Contents (Elt F) → (⟨S16x522240, .i1⟩ : BufTy).Contents (Elt F))
  :: StableHlo.unary main_v8 main_v9 (uitofp .f32 : (⟨S16x522240, .i1⟩ : BufTy).Contents (Elt F) → (⟨S16x522240, .f32⟩ : BufTy).Contents (Elt F))
  :: StableHlo.nullary main_cst_3 (constant S_ .f32 0x00000000#32)
  :: StableHlo.binary main_v9 main_cst_3 main_v10 ((fun x v => Host.reduceAdd x v reducesTo_S16x522240_S16_d1 h_S_) : (⟨S16x522240, .f32⟩ : BufTy).Contents (Elt F) → (⟨S_, .f32⟩ : BufTy).Contents (Elt F) → (⟨S16, .f32⟩ : BufTy).Contents (Elt F))
  :: StableHlo.nullary main_cst_4 (constant S_ .f32 0x00000000#32)
  :: StableHlo.unary main_cst_4 main_v11 (broadcastInDim S16x522240 ![] bcast_S_S16x522240 : (⟨S_, .f32⟩ : BufTy).Contents (Elt F) → (⟨S16x522240, .f32⟩ : BufTy).Contents (Elt F))
  :: StableHlo.binary main_v3 main_v11 main_v12 (cmpf .oge : (⟨S16x522240, .f32⟩ : BufTy).Contents (Elt F) → (⟨S16x522240, .f32⟩ : BufTy).Contents (Elt F) → (⟨S16x522240, .i1⟩ : BufTy).Contents (Elt F))
  :: StableHlo.nullary main_cst_5 (constant S_ .f32 0x3E800000#32)
  :: StableHlo.unary main_cst_5 main_v13 (broadcastInDim S16x522240 ![] bcast_S_S16x522240 : (⟨S_, .f32⟩ : BufTy).Contents (Elt F) → (⟨S16x522240, .f32⟩ : BufTy).Contents (Elt F))
  :: StableHlo.binary main_v3 main_v13 main_v14 (cmpf .olt : (⟨S16x522240, .f32⟩ : BufTy).Contents (Elt F) → (⟨S16x522240, .f32⟩ : BufTy).Contents (Elt F) → (⟨S16x522240, .i1⟩ : BufTy).Contents (Elt F))
  :: StableHlo.binary main_v12 main_v14 main_v15 (andi : (⟨S16x522240, .i1⟩ : BufTy).Contents (Elt F) → (⟨S16x522240, .i1⟩ : BufTy).Contents (Elt F) → (⟨S16x522240, .i1⟩ : BufTy).Contents (Elt F))
  :: StableHlo.unary main_v15 main_v16 (uitofp .f32 : (⟨S16x522240, .i1⟩ : BufTy).Contents (Elt F) → (⟨S16x522240, .f32⟩ : BufTy).Contents (Elt F))
  :: StableHlo.nullary main_cst_6 (constant S_ .f32 0x00000000#32)
  :: StableHlo.binary main_v16 main_cst_6 main_v17 ((fun x v => Host.reduceAdd x v reducesTo_S16x522240_S16_d1 h_S_) : (⟨S16x522240, .f32⟩ : BufTy).Contents (Elt F) → (⟨S_, .f32⟩ : BufTy).Contents (Elt F) → (⟨S16, .f32⟩ : BufTy).Contents (Elt F))
  :: StableHlo.nullary main_cst_7 (constant S_ .f32 0x3727C5AC#32)
  :: StableHlo.unary main_cst_7 main_v18 (broadcastInDim S16 ![] bcast_S_S16 : (⟨S_, .f32⟩ : BufTy).Contents (Elt F) → (⟨S16, .f32⟩ : BufTy).Contents (Elt F))
  :: StableHlo.binary main_v17 main_v18 main_v19 (addf : (⟨S16, .f32⟩ : BufTy).Contents (Elt F) → (⟨S16, .f32⟩ : BufTy).Contents (Elt F) → (⟨S16, .f32⟩ : BufTy).Contents (Elt F))
  :: StableHlo.binary main_v10 main_v19 main_v20 (Host.divf : (⟨S16, .f32⟩ : BufTy).Contents (Elt F) → (⟨S16, .f32⟩ : BufTy).Contents (Elt F) → (⟨S16, .f32⟩ : BufTy).Contents (Elt F))
  :: StableHlo.nullary main_cst_8 (constant S_ .f32 0x00000000#32)
  :: StableHlo.binary main_v2 main_cst_8 main_v21 ((fun x v => Host.reduceAdd x v reducesTo_S16x544x960_S16_d1_2 h_S_) : (⟨S16x544x960, .f32⟩ : BufTy).Contents (Elt F) → (⟨S_, .f32⟩ : BufTy).Contents (Elt F) → (⟨S16, .f32⟩ : BufTy).Contents (Elt F))
  :: StableHlo.nullary main_cst_9 (constant S_ .f32 0x48FF0000#32)
  :: StableHlo.unary main_cst_9 main_v22 (broadcastInDim S16 ![] bcast_S_S16 : (⟨S_, .f32⟩ : BufTy).Contents (Elt F) → (⟨S16, .f32⟩ : BufTy).Contents (Elt F))
  :: StableHlo.binary main_v21 main_v22 main_v23 (Host.divf : (⟨S16, .f32⟩ : BufTy).Contents (Elt F) → (⟨S16, .f32⟩ : BufTy).Contents (Elt F) → (⟨S16, .f32⟩ : BufTy).Contents (Elt F))
  :: StableHlo.nullary main_cst_10 (constant S_ .f32 0x3F800000#32)
  :: StableHlo.unary main_cst_10 main_v24 (broadcastInDim S16 ![] bcast_S_S16 : (⟨S_, .f32⟩ : BufTy).Contents (Elt F) → (⟨S16, .f32⟩ : BufTy).Contents (Elt F))
  :: StableHlo.binary main_v20 main_v24 main_v25 (cmpf .ogt : (⟨S16, .f32⟩ : BufTy).Contents (Elt F) → (⟨S16, .f32⟩ : BufTy).Contents (Elt F) → (⟨S16, .i1⟩ : BufTy).Contents (Elt F))
  :: StableHlo.nullary main_cst_11 (constant S_ .f32 0x3ECCCCCD#32)
  :: StableHlo.unary main_cst_11 main_v26 (broadcastInDim S16 ![] bcast_S_S16 : (⟨S_, .f32⟩ : BufTy).Contents (Elt F) → (⟨S16, .f32⟩ : BufTy).Contents (Elt F))
  :: StableHlo.binary main_v23 main_v26 main_v27 (cmpf .ogt : (⟨S16, .f32⟩ : BufTy).Contents (Elt F) → (⟨S16, .f32⟩ : BufTy).Contents (Elt F) → (⟨S16, .i1⟩ : BufTy).Contents (Elt F))
  :: StableHlo.binary main_v25 main_v27 main_v28 (andi : (⟨S16, .i1⟩ : BufTy).Contents (Elt F) → (⟨S16, .i1⟩ : BufTy).Contents (Elt F) → (⟨S16, .i1⟩ : BufTy).Contents (Elt F))
  :: StableHlo.nullary main_cst_12 (constant S_ .f32 0x3F19999A#32)
  :: StableHlo.unary main_cst_12 main_v29 (broadcastInDim S16 ![] bcast_S_S16 : (⟨S_, .f32⟩ : BufTy).Contents (Elt F) → (⟨S16, .f32⟩ : BufTy).Contents (Elt F))
  :: StableHlo.binary main_v23 main_v29 main_v30 (cmpf .olt : (⟨S16, .f32⟩ : BufTy).Contents (Elt F) → (⟨S16, .f32⟩ : BufTy).Contents (Elt F) → (⟨S16, .i1⟩ : BufTy).Contents (Elt F))
  :: StableHlo.binary main_v28 main_v30 main_v31 (andi : (⟨S16, .i1⟩ : BufTy).Contents (Elt F) → (⟨S16, .i1⟩ : BufTy).Contents (Elt F) → (⟨S16, .i1⟩ : BufTy).Contents (Elt F))
  :: StableHlo.nullary main_cst_13 (constant S_ .f32 0x3E99999A#32)
  :: StableHlo.unary main_cst_13 main_v32 (broadcastInDim S16 ![] bcast_S_S16 : (⟨S_, .f32⟩ : BufTy).Contents (Elt F) → (⟨S16, .f32⟩ : BufTy).Contents (Elt F))
  :: StableHlo.binary main_v23 main_v32 main_v33 (cmpf .ole : (⟨S16, .f32⟩ : BufTy).Contents (Elt F) → (⟨S16, .f32⟩ : BufTy).Contents (Elt F) → (⟨S16, .i1⟩ : BufTy).Contents (Elt F))
  :: StableHlo.nullary main_cst_14 (constant S_ .f32 0x3F333333#32)
  :: StableHlo.unary main_cst_14 main_v34 (broadcastInDim S16 ![] bcast_S_S16 : (⟨S_, .f32⟩ : BufTy).Contents (Elt F) → (⟨S16, .f32⟩ : BufTy).Contents (Elt F))
  :: StableHlo.binary main_v23 main_v34 main_v35 (cmpf .oge : (⟨S16, .f32⟩ : BufTy).Contents (Elt F) → (⟨S16, .f32⟩ : BufTy).Contents (Elt F) → (⟨S16, .i1⟩ : BufTy).Contents (Elt F))
  :: StableHlo.nullary main_cst_15 (constant S_ .f32 0x3F800000#32)
  :: StableHlo.unary main_cst_15 main_v36 (broadcastInDim S16 ![] bcast_S_S16 : (⟨S_, .f32⟩ : BufTy).Contents (Elt F) → (⟨S16, .f32⟩ : BufTy).Contents (Elt F))
  :: StableHlo.binary main_v20 main_v36 main_v37 (cmpf .ole : (⟨S16, .f32⟩ : BufTy).Contents (Elt F) → (⟨S16, .f32⟩ : BufTy).Contents (Elt F) → (⟨S16, .i1⟩ : BufTy).Contents (Elt F))
  :: StableHlo.nullary main_cst_16 (constant S_ .f32 0x3E99999A#32)
  :: StableHlo.unary main_cst_16 main_v38 (broadcastInDim S16 ![] bcast_S_S16 : (⟨S_, .f32⟩ : BufTy).Contents (Elt F) → (⟨S16, .f32⟩ : BufTy).Contents (Elt F))
  :: StableHlo.binary main_v23 main_v38 main_v39 (cmpf .ogt : (⟨S16, .f32⟩ : BufTy).Contents (Elt F) → (⟨S16, .f32⟩ : BufTy).Contents (Elt F) → (⟨S16, .i1⟩ : BufTy).Contents (Elt F))
  :: StableHlo.binary main_v37 main_v39 main_v40 (andi : (⟨S16, .i1⟩ : BufTy).Contents (Elt F) → (⟨S16, .i1⟩ : BufTy).Contents (Elt F) → (⟨S16, .i1⟩ : BufTy).Contents (Elt F))
  :: StableHlo.nullary main_cst_17 (constant S_ .f32 0x3F333333#32)
  :: [] )

theorem ops0_sub : (ops0 : List (HloOp τ sig (Elt F))).Forall fun op => op.bufs ⊆ tcRefs τ sig :=
  ⟨nullary_bufs_sub .., binary_bufs_sub .., nullary_bufs_sub .., unary_bufs_sub .., binary_bufs_sub .., reshape_bufs_sub .., nullary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., binary_bufs_sub .., nullary_bufs_sub .., unary_bufs_sub .., binary_bufs_sub .., binary_bufs_sub .., unary_bufs_sub .., nullary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub ..⟩

/-- The operations of the second window (statements 61 to 120); the five operations of the index-of-first-true function stand where it is called. -/
abbrev ops1 : List (HloOp τ sig (Elt F)) :=
  ( StableHlo.unary main_cst_17 main_v41 (broadcastInDim S16 ![] bcast_S_S16 : (⟨S_, .f32⟩ : BufTy).Contents (Elt F) → (⟨S16, .f32⟩ : BufTy).Contents (Elt F))
  :: StableHlo.binary main_v23 main_v41 main_v42 (cmpf .olt : (⟨S16, .f32⟩ : BufTy).Contents (Elt F) → (⟨S16, .f32⟩ : BufTy).Contents (Elt F) → (⟨S16, .i1⟩ : BufTy).Contents (Elt F))
  :: StableHlo.binary main_v40 main_v42 main_v43 (andi : (⟨S16, .i1⟩ : BufTy).Contents (Elt F) → (⟨S16, .i1⟩ : BufTy).Contents (Elt F) → (⟨S16, .i1⟩ : BufTy).Contents (Elt F))
  :: StableHlo.nullary main_cst_18 (constant S_ .f32 0x3F000000#32)
  :: StableHlo.nullary main_cst_19 (constant S_ .f32 0x40000000#32)
  :: StableHlo.binary main_cst_18 main_cst_19 main_v44 (mulf : (⟨S_, .f32⟩ : BufTy).Contents (Elt F) → (⟨S_, .f32⟩ : BufTy).Contents (Elt F) → (⟨S_, .f32⟩ : BufTy).Contents (Elt F))
  :: StableHlo.nullary main_cst_20 (constant S_ .f32 0x3F000000#32)
  :: StableHlo.nullary main_cst_21 (constant S_ .f32 0x3F000000#32)
  :: StableHlo.binary main_cst_20 main_cst_21 main_v45 (mulf : (⟨S_, .f32⟩ : BufTy).Contents (Elt F) → (⟨S_, .f32⟩ : BufTy).Contents (Elt F) → (⟨S_, .f32⟩ : BufTy).Contents (Elt F))
  :: StableHlo.nullary main_cst_22 (constant S_ .f32 0x3F000000#32)
  :: StableHlo.nullary main_cst_23 (constant S_ .f32 0x3F000000#32)
  :: StableHlo.binary main_cst_22 main_cst_23 main_v46 (mulf : (⟨S_, .f32⟩ : BufTy).Contents (Elt F) → (⟨S_, .f32⟩ : BufTy).Contents (Elt F) → (⟨S_, .f32⟩ : BufTy).Contents (Elt F))
  :: StableHlo.nullary main_cst_24 (constant S_ .f32 0x3F000000#32)
  :: StableHlo.nullary main_cst_25 (constant S_ .f32 0x3F400000#32)
  :: StableHlo.binary main_cst_24 main_cst_25 main_v47 (mulf : (⟨S_, .f32⟩ : BufTy).Contents (Elt F) → (⟨S_, .f32⟩ : BufTy).Contents (Elt F) → (⟨S_, .f32⟩ : BufTy).Contents (Elt F))
  :: StableHlo.nullary main_c (constantI S_ 1 0#1)
  :: StableHlo.unary main_c main_v48 (broadcastInDim S16 ![] bcast_S_S16 : (⟨S_, .i1⟩ : BufTy).Contents (Elt F) → (⟨S16, .i1⟩ : BufTy).Contents (Elt F))
  :: StableHlo.unary main_v48 main_v49 (broadcastInDim S1x16 ![1] bcast_S16_S1x16_1 : (⟨S16, .i1⟩ : BufTy).Contents (Elt F) → (⟨S1x16, .i1⟩ : BufTy).Contents (Elt F))
  :: StableHlo.unary main_v31 main_v50 (broadcastInDim S1x16 ![1] bcast_S16_S1x16_1 : (⟨S16, .i1⟩ : BufTy).Contents (Elt F) → (⟨S1x16, .i1⟩ : BufTy).Contents (Elt F))
  :: StableHlo.unary main_v33 main_v51 (broadcastInDim S1x16 ![1] bcast_S16_S1x16_1 : (⟨S16, .i1⟩ : BufTy).Contents (Elt F) → (⟨S1x16, .i1⟩ : BufTy).Contents (Elt F))
  :: StableHlo.unary main_v35 main_v52 (broadcastInDim S1x16 ![1] bcast_S16_S1x16_1 : (⟨S16, .i1⟩ : BufTy).Contents (Elt F) → (⟨S1x16, .i1⟩ : BufTy).Contents (Elt F))
  :: StableHlo.unary main_v43 main_v53 (broadcastInDim S1x16 ![1] bcast_S16_S1x16_1 : (⟨S16, .i1⟩ : BufTy).Contents (Elt F) → (⟨S1x16, .i1⟩ : BufTy).Contents (Elt F))
  :: StableHlo.nary ![main_v49, main_v50, main_v51, main_v52, main_v53] main_v54 (fun u => concatenate S5x16 0 [⟨S1x16, u 0⟩, ⟨S1x16, u 1⟩, ⟨S1x16, u 2⟩, ⟨S1x16, u 3⟩, ⟨S1x16, u 4⟩] concatenates_S1x16_S1x16_S1x16_S1x16_S1x16_S5x16_d0)
  :: StableHlo.TRef.nullary (.of main_call0_v0 : StableHlo.TRef sig ⟨S5x16, .i32⟩) (iotaInDim S5x16 32 0)
  :: StableHlo.TRef.nullary (.of main_call0_c : StableHlo.TRef sig ⟨S_, .i1⟩) (constantI S_ 1 0#1)
  :: StableHlo.TRef.nullary (.of main_call0_c_0 : StableHlo.TRef sig ⟨S_, .i32⟩) (constantI S_ 32 0#32)
  :: StableHlo.TRef.quaternary (.of main_v54 : StableHlo.TRef sig ⟨S5x16, .i1⟩) (.of main_call0_v0 : StableHlo.TRef sig ⟨S5x16, .i32⟩) (.of main_call0_c : StableHlo.TRef sig ⟨S_, .i1⟩) (.of main_call0_c_0 : StableHlo.TRef sig ⟨S_, .i32⟩) (.of main_call0_v1_0 : StableHlo.TRef sig ⟨S16, .i1⟩) (fun x y u v j => (Host.reduce2 reducer_argmax_i1_i32 x y u v reducesTo_S5x16_S16_d0 h_S_ j).1)
  :: StableHlo.TRef.quaternary (.of main_v54 : StableHlo.TRef sig ⟨S5x16, .i1⟩) (.of main_call0_v0 : StableHlo.TRef sig ⟨S5x16, .i32⟩) (.of main_call0_c : StableHlo.TRef sig ⟨S_, .i1⟩) (.of main_call0_c_0 : StableHlo.TRef sig ⟨S_, .i32⟩) (.of main_v55 : StableHlo.TRef sig ⟨S16, .i32⟩) (fun x y u v j => (Host.reduce2 reducer_argmax_i1_i32 x y u v reducesTo_S5x16_S16_d0 h_S_ j).2)
  :: StableHlo.nullary main_cst_26 (constant S_ .f32 0x00000000#32)
  :: StableHlo.unary main_cst_26 main_v56 (broadcastInDim S16 ![] bcast_S_S16 : (⟨S_, .f32⟩ : BufTy).Contents (Elt F) → (⟨S16, .f32⟩ : BufTy).Contents (Elt F))
  :: StableHlo.unary main_v44 main_v57 (broadcastInDim S16 ![] bcast_S_S16 : (⟨S_, .f32⟩ : BufTy).Contents (Elt F) → (⟨S16, .f32⟩ : BufTy).Contents (Elt F))
  :: StableHlo.unary main_v45 main_v58 (broadcastInDim S16 ![] bcast_S_S16 : (⟨S_, .f32⟩ : BufTy).Contents (Elt F) → (⟨S16, .f32⟩ : BufTy).Contents (Elt F))
  :: StableHlo.unary main_v46 main_v59 (broadcastInDim S16 ![] bcast_S_S16 : (⟨S_, .f32⟩ : BufTy).Contents (Elt F) → (⟨S16, .f32⟩ : BufTy).Contents (Elt F))
  :: StableHlo.unary main_v47 main_v60 (broadcastInDim S16 ![] bcast_S_S16 : (⟨S_, .f32⟩ : BufTy).Contents (Elt F) → (⟨S16, .f32⟩ : BufTy).Contents (Elt F))
  :: StableHlo.nullary main_c_27 (constantI S_ 32 2#32)
  :: StableHlo.unary main_c_27 main_v61 (broadcastInDim S16 ![] bcast_S_S16 : (⟨S_, .i32⟩ : BufTy).Contents (Elt F) → (⟨S16, .i32⟩ : BufTy).Contents (Elt F))
  :: StableHlo.binary main_v55 main_v61 main_v62 (cmpi .slt : (⟨S16, .i32⟩ : BufTy).Contents (Elt F) → (⟨S16, .i32⟩ : BufTy).Contents (Elt F) → (⟨S16, .i1⟩ : BufTy).Contents (Elt F))
  :: StableHlo.nullary main_c_28 (constantI S_ 32 1#32)
  :: StableHlo.unary main_c_28 main_v63 (broadcastInDim S16 ![] bcast_S_S16 : (⟨S_, .i32⟩ : BufTy).Contents (Elt F) → (⟨S16, .i32⟩ : BufTy).Contents (Elt F))
  :: StableHlo.binary main_v55 main_v63 main_v64 (cmpi .slt : (⟨S16, .i32⟩ : BufTy).Contents (Elt F) → (⟨S16, .i32⟩ : BufTy).Contents (Elt F) → (⟨S16, .i1⟩ : BufTy).Contents (Elt F))
  :: StableHlo.ternary main_v64 main_v56 main_v57 main_v65 (select : (⟨S16, .i1⟩ : BufTy).Contents (Elt F) → (⟨S16, .f32⟩ : BufTy).Contents (Elt F) → (⟨S16, .f32⟩ : BufTy).Contents (Elt F) → (⟨S16, .f32⟩ : BufTy).Contents (Elt F))
  :: StableHlo.nullary main_c_29 (constantI S_ 32 3#32)
  :: StableHlo.unary main_c_29 main_v66 (broadcastInDim S16 ![] bcast_S_S16 : (⟨S_, .i32⟩ : BufTy).Contents (Elt F) → (⟨S16, .i32⟩ : BufTy).Contents (Elt F))
  :: StableHlo.binary main_v55 main_v66 main_v67 (cmpi .slt : (⟨S16, .i32⟩ : BufTy).Contents (Elt F) → (⟨S16, .i32⟩ : BufTy).Contents (Elt F) → (⟨S16, .i1⟩ : BufTy).Contents (Elt F))
  :: StableHlo.nullary main_c_30 (constantI S_ 32 4#32)
  :: StableHlo.unary main_c_30 main_v68 (broadcastInDim S16 ![] bcast_S_S16 : (⟨S_, .i32⟩ : BufTy).Contents (Elt F) → (⟨S16, .i32⟩ : BufTy).Contents (Elt F))
  :: StableHlo.binary main_v55 main_v68 main_v69 (cmpi .slt : (⟨S16, .i32⟩ : BufTy).Contents (Elt F) → (⟨S16, .i32⟩ : BufTy).Contents (Elt F) → (⟨S16, .i1⟩ : BufTy).Contents (Elt F))
  :: StableHlo.ternary main_v69 main_v59 main_v60 main_v70 (select : (⟨S16, .i1⟩ : BufTy).Contents (Elt F) → (⟨S16, .f32⟩ : BufTy).Contents (Elt F) → (⟨S16, .f32⟩ : BufTy).Contents (Elt F) → (⟨S16, .f32⟩ : BufTy).Contents (Elt F))
  :: StableHlo.ternary main_v67 main_v58 main_v70 main_v71 (select : (⟨S16, .i1⟩ : BufTy).Contents (Elt F) → (⟨S16, .f32⟩ : BufTy).Contents (Elt F) → (⟨S16, .f32⟩ : BufTy).Contents (Elt F) → (⟨S16, .f32⟩ : BufTy).Contents (Elt F))
  :: StableHlo.ternary main_v62 main_v65 main_v71 main_v72 (select : (⟨S16, .i1⟩ : BufTy).Contents (Elt F) → (⟨S16, .f32⟩ : BufTy).Contents (Elt F) → (⟨S16, .f32⟩ : BufTy).Contents (Elt F) → (⟨S16, .f32⟩ : BufTy).Contents (Elt F))
  :: StableHlo.unary main_v23 main_v73 ((extractStridedSlice S1 ![15] · slices_S16_S1_15) : (⟨S16, .f32⟩ : BufTy).Contents (Elt F) → (⟨S1, .f32⟩ : BufTy).Contents (Elt F))
  :: StableHlo.reshape main_v73 main_v74 rfl shapeCasts_S1_S_
  :: StableHlo.unary main_v72 main_v75 ((extractStridedSlice S1 ![15] · slices_S16_S1_15) : (⟨S16, .f32⟩ : BufTy).Contents (Elt F) → (⟨S1, .f32⟩ : BufTy).Contents (Elt F))
  :: StableHlo.reshape main_v75 main_v76 rfl shapeCasts_S1_S_
  :: StableHlo.nullary main_cst_31 (constant S_ .f32 0x3E800000#32)
  :: StableHlo.binary main_v74 main_cst_31 main_v77 (cmpf .ole : (⟨S_, .f32⟩ : BufTy).Contents (Elt F) → (⟨S_, .f32⟩ : BufTy).Contents (Elt F) → (⟨S_, .i1⟩ : BufTy).Contents (Elt F))
  :: StableHlo.nullary main_cst_32 (constant S_ .f32 0x3F000000#32)
  :: StableHlo.binary main_cst_32 main_v76 main_v78 (mulf : (⟨S_, .f32⟩ : BufTy).Contents (Elt F) → (⟨S_, .f32⟩ : BufTy).Contents (Elt F) → (⟨S_, .f32⟩ : BufTy).Contents (Elt F))
  :: StableHlo.nullary main_cst_33 (constant S_ .f32 0x3FD9999A#32)
  :: StableHlo.binary main_v78 main_cst_33 main_v79 (mulf : (⟨S_, .f32⟩ : BufTy).Contents (Elt F) → (⟨S_, .f32⟩ : BufTy).Contents (Elt F) → (⟨S_, .f32⟩ : BufTy).Contents (Elt F))
  :: StableHlo.unary main_v79 main_v80 (broadcastInDim S16 ![] bcast_S_S16 : (⟨S_, .f32⟩ : BufTy).Contents (Elt F) → (⟨S16, .f32⟩ : BufTy).Contents (Elt F))
  :: StableHlo.binary main_arg1 main_v80 main_v81 (addf : (⟨S16, .f32⟩ : BufTy).Contents (Elt F) → (⟨S16, .f32⟩ : BufTy).Contents (Elt F) → (⟨S16, .f32⟩ : BufTy).Contents (Elt F))
  :: StableHlo.nullary main_cst_34 (constant S_ .f32 0x3F400000#32)
  :: StableHlo.binary main_v74 main_cst_34 main_v82 (cmpf .oge : (⟨S_, .f32⟩ : BufTy).Contents (Elt F) → (⟨S_, .f32⟩ : BufTy).Contents (Elt F) → (⟨S_, .i1⟩ : BufTy).Contents (Elt F))
  :: [] )

theorem ops1_sub : (ops1 : List (HloOp τ sig (Elt F))).Forall fun op => op.bufs ⊆ tcRefs τ sig :=
  ⟨unary_bufs_sub .., binary_bufs_sub .., binary_bufs_sub .., nullary_bufs_sub .., nullary_bufs_sub .., binary_bufs_sub .., nullary_bufs_sub .., nullary_bufs_sub .., binary_bufs_sub .., nullary_bufs_sub .., nullary_bufs_sub .., binary_bufs_sub .., nullary_bufs_sub .., nullary_bufs_sub .., binary_bufs_sub .., nullary_bufs_sub .., unary_bufs_sub .., unary_bufs_sub .., unary_bufs_sub .., unary_bufs_sub .., unary_bufs_sub .., unary_bufs_sub .., nary_bufs_sub .., nullary_bufs_sub .., nullary_bufs_sub .., nullary_bufs_sub .., quaternary_bufs_sub .., quaternary_bufs_sub .., nullary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., ternary_bufs_sub .., ternary_bufs_sub .., unary_bufs_sub .., reshape_bufs_sub .., unary_bufs_sub .., reshape_bufs_sub .., nullary_bufs_sub .., binary_bufs_sub .., nullary_bufs_sub .., binary_bufs_sub .., nullary_bufs_sub .., binary_bufs_sub .., unary_bufs_sub .., binary_bufs_sub .., nullary_bufs_sub .., binary_bufs_sub ..⟩

/-- The operations of the third window (statements 121 to 160); each of the four selections stands where it is called. -/
abbrev ops2 : List (HloOp τ sig (Elt F)) :=
  ( StableHlo.nullary main_cst_35 (constant S_ .f32 0x3F000000#32)
  :: StableHlo.binary main_cst_35 main_v76 main_v83 (mulf : (⟨S_, .f32⟩ : BufTy).Contents (Elt F) → (⟨S_, .f32⟩ : BufTy).Contents (Elt F) → (⟨S_, .f32⟩ : BufTy).Contents (Elt F))
  :: StableHlo.nullary main_cst_36 (constant S_ .f32 0x3FD9999A#32)
  :: StableHlo.binary main_v83 main_cst_36 main_v84 (mulf : (⟨S_, .f32⟩ : BufTy).Contents (Elt F) → (⟨S_, .f32⟩ : BufTy).Contents (Elt F) → (⟨S_, .f32⟩ : BufTy).Contents (Elt F))
  :: StableHlo.unary main_v84 main_v85 (broadcastInDim S16 ![] bcast_S_S16 : (⟨S_, .f32⟩ : BufTy).Contents (Elt F) → (⟨S16, .f32⟩ : BufTy).Contents (Elt F))
  :: StableHlo.binary main_arg1 main_v85 main_v86 (subf : (⟨S16, .f32⟩ : BufTy).Contents (Elt F) → (⟨S16, .f32⟩ : BufTy).Contents (Elt F) → (⟨S16, .f32⟩ : BufTy).Contents (Elt F))
  :: StableHlo.nullary main_cst_37 (constant S_ .f32 0x3E99999A#32)
  :: StableHlo.binary main_cst_37 main_v76 main_v87 (mulf : (⟨S_, .f32⟩ : BufTy).Contents (Elt F) → (⟨S_, .f32⟩ : BufTy).Contents (Elt F) → (⟨S_, .f32⟩ : BufTy).Contents (Elt F))
  :: StableHlo.unary main_v87 main_v88 (broadcastInDim S16 ![] bcast_S_S16 : (⟨S_, .f32⟩ : BufTy).Contents (Elt F) → (⟨S16, .f32⟩ : BufTy).Contents (Elt F))
  :: StableHlo.binary main_arg1 main_v88 main_v89 (subf : (⟨S16, .f32⟩ : BufTy).Contents (Elt F) → (⟨S16, .f32⟩ : BufTy).Contents (Elt F) → (⟨S16, .f32⟩ : BufTy).Contents (Elt F))
  :: StableHlo.TRef.ternary (.of main_v82 : StableHlo.TRef sig ⟨S_, .i1⟩) (.of main_v86 : StableHlo.TRef sig ⟨S16, .f32⟩) (.of main_v89 : StableHlo.TRef sig ⟨S16, .f32⟩) (.of main_v90 : StableHlo.TRef sig ⟨S16, .f32⟩) (fun p a b => select (broadcastInDim S16 ![] bcast_S_S16 p) a b)
  :: StableHlo.TRef.ternary (.of main_v77 : StableHlo.TRef sig ⟨S_, .i1⟩) (.of main_v81 : StableHlo.TRef sig ⟨S16, .f32⟩) (.of main_v90 : StableHlo.TRef sig ⟨S16, .f32⟩) (.of main_v91 : StableHlo.TRef sig ⟨S16, .f32⟩) (fun p a b => select (broadcastInDim S16 ![] bcast_S_S16 p) a b)
  :: StableHlo.nullary main_cst_38 (constant S_ .f32 0x3E800000#32)
  :: StableHlo.binary main_v74 main_cst_38 main_v92 (cmpf .ole : (⟨S_, .f32⟩ : BufTy).Contents (Elt F) → (⟨S_, .f32⟩ : BufTy).Contents (Elt F) → (⟨S_, .i1⟩ : BufTy).Contents (Elt F))
  :: StableHlo.nullary main_cst_39 (constant S_ .f32 0x3F000000#32)
  :: StableHlo.binary main_cst_39 main_v76 main_v93 (mulf : (⟨S_, .f32⟩ : BufTy).Contents (Elt F) → (⟨S_, .f32⟩ : BufTy).Contents (Elt F) → (⟨S_, .f32⟩ : BufTy).Contents (Elt F))
  :: StableHlo.nullary main_cst_40 (constant S_ .f32 0x3FD9999A#32)
  :: StableHlo.binary main_v93 main_cst_40 main_v94 (mulf : (⟨S_, .f32⟩ : BufTy).Contents (Elt F) → (⟨S_, .f32⟩ : BufTy).Contents (Elt F) → (⟨S_, .f32⟩ : BufTy).Contents (Elt F))
  :: StableHlo.unary main_v94 main_v95 (broadcastInDim S16 ![] bcast_S_S16 : (⟨S_, .f32⟩ : BufTy).Contents (Elt F) → (⟨S16, .f32⟩ : BufTy).Contents (Elt F))
  :: StableHlo.binary main_arg2 main_v95 main_v96 (addf : (⟨S16, .f32⟩ : BufTy).Contents (Elt F) → (⟨S16, .f32⟩ : BufTy).Contents (Elt F) → (⟨S16, .f32⟩ : BufTy).Contents (Elt F))
  :: StableHlo.nullary main_cst_41 (constant S_ .f32 0x3F400000#32)
  :: StableHlo.binary main_v74 main_cst_41 main_v97 (cmpf .oge : (⟨S_, .f32⟩ : BufTy).Contents (Elt F) → (⟨S_, .f32⟩ : BufTy).Contents (Elt F) → (⟨S_, .i1⟩ : BufTy).Contents (Elt F))
  :: StableHlo.nullary main_cst_42 (constant S_ .f32 0x3F000000#32)
  :: StableHlo.binary main_cst_42 main_v76 main_v98 (mulf : (⟨S_, .f32⟩ : BufTy).Contents (Elt F) → (⟨S_, .f32⟩ : BufTy).Contents (Elt F) → (⟨S_, .f32⟩ : BufTy).Contents (Elt F))
  :: StableHlo.nullary main_cst_43 (constant S_ .f32 0x3FD9999A#32)
  :: StableHlo.binary main_v98 main_cst_43 main_v99 (mulf : (⟨S_, .f32⟩ : BufTy).Contents (Elt F) → (⟨S_, .f32⟩ : BufTy).Contents (Elt F) → (⟨S_, .f32⟩ : BufTy).Contents (Elt F))
  :: StableHlo.unary main_v99 main_v100 (broadcastInDim S16 ![] bcast_S_S16 : (⟨S_, .f32⟩ : BufTy).Contents (Elt F) → (⟨S16, .f32⟩ : BufTy).Contents (Elt F))
  :: StableHlo.binary main_arg2 main_v100 main_v101 (subf : (⟨S16, .f32⟩ : BufTy).Contents (Elt F) → (⟨S16, .f32⟩ : BufTy).Contents (Elt F) → (⟨S16, .f32⟩ : BufTy).Contents (Elt F))
  :: StableHlo.nullary main_cst_44 (constant S_ .f32 0x3F333333#32)
  :: StableHlo.binary main_cst_44 main_v76 main_v102 (mulf : (⟨S_, .f32⟩ : BufTy).Contents (Elt F) → (⟨S_, .f32⟩ : BufTy).Contents (Elt F) → (⟨S_, .f32⟩ : BufTy).Contents (Elt F))
  :: StableHlo.unary main_v102 main_v103 (broadcastInDim S16 ![] bcast_S_S16 : (⟨S_, .f32⟩ : BufTy).Contents (Elt F) → (⟨S16, .f32⟩ : BufTy).Contents (Elt F))
  :: StableHlo.binary main_arg2 main_v103 main_v104 (addf : (⟨S16, .f32⟩ : BufTy).Contents (Elt F) → (⟨S16, .f32⟩ : BufTy).Contents (Elt F) → (⟨S16, .f32⟩ : BufTy).Contents (Elt F))
  :: StableHlo.TRef.ternary (.of main_v97 : StableHlo.TRef sig ⟨S_, .i1⟩) (.of main_v101 : StableHlo.TRef sig ⟨S16, .f32⟩) (.of main_v104 : StableHlo.TRef sig ⟨S16, .f32⟩) (.of main_v105 : StableHlo.TRef sig ⟨S16, .f32⟩) (fun p a b => select (broadcastInDim S16 ![] bcast_S_S16 p) a b)
  :: StableHlo.TRef.ternary (.of main_v92 : StableHlo.TRef sig ⟨S_, .i1⟩) (.of main_v96 : StableHlo.TRef sig ⟨S16, .f32⟩) (.of main_v105 : StableHlo.TRef sig ⟨S16, .f32⟩) (.of main_v106 : StableHlo.TRef sig ⟨S16, .f32⟩) (fun p a b => select (broadcastInDim S16 ![] bcast_S_S16 p) a b)
  :: StableHlo.unary main_v20 main_v107 (broadcastInDim S1x16 ![1] bcast_S16_S1x16_1 : (⟨S16, .f32⟩ : BufTy).Contents (Elt F) → (⟨S1x16, .f32⟩ : BufTy).Contents (Elt F))
  :: StableHlo.unary main_v23 main_v108 (broadcastInDim S1x16 ![1] bcast_S16_S1x16_1 : (⟨S16, .f32⟩ : BufTy).Contents (Elt F) → (⟨S1x16, .f32⟩ : BufTy).Contents (Elt F))
  :: StableHlo.unary main_v72 main_v109 (broadcastInDim S1x16 ![1] bcast_S16_S1x16_1 : (⟨S16, .f32⟩ : BufTy).Contents (Elt F) → (⟨S1x16, .f32⟩ : BufTy).Contents (Elt F))
  :: StableHlo.unary main_v91 main_v110 (broadcastInDim S1x16 ![1] bcast_S16_S1x16_1 : (⟨S16, .f32⟩ : BufTy).Contents (Elt F) → (⟨S1x16, .f32⟩ : BufTy).Contents (Elt F))
  :: StableHlo.unary main_v106 main_v111 (broadcastInDim S1x16 ![1] bcast_S16_S1x16_1 : (⟨S16, .f32⟩ : BufTy).Contents (Elt F) → (⟨S1x16, .f32⟩ : BufTy).Contents (Elt F))
  :: StableHlo.nary ![main_v107, main_v108, main_v109, main_v110, main_v111] main_v112 (fun u => concatenate S5x16 0 [⟨S1x16, u 0⟩, ⟨S1x16, u 1⟩, ⟨S1x16, u 2⟩, ⟨S1x16, u 3⟩, ⟨S1x16, u 4⟩] concatenates_S1x16_S1x16_S1x16_S1x16_S1x16_S5x16_d0)
  :: [] )

theorem ops2_sub : (ops2 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub .., binary_bufs_sub .., unary_bufs_sub .., binary_bufs_sub .., ternary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., binary_bufs_sub .., nullary_bufs_sub .., binary_bufs_sub .., nullary_bufs_sub .., binary_bufs_sub .., unary_bufs_sub .., binary_bufs_sub .., nullary_bufs_sub .., binary_bufs_sub .., unary_bufs_sub .., binary_bufs_sub .., ternary_bufs_sub .., ternary_bufs_sub .., unary_bufs_sub .., unary_bufs_sub .., unary_bufs_sub .., unary_bufs_sub .., unary_bufs_sub .., nary_bufs_sub ..⟩

/-- All the operations of the reference program, in order. -/
abbrev ops : List (HloOp τ sig (Elt F)) := ops0 ++ (ops1 ++ ops2)

theorem ops_sub : (ops : List (HloOp τ sig (Elt F))).Forall fun op => op.bufs ⊆ tcRefs τ sig :=
  List.forall_append.2 ⟨ops0_sub, List.forall_append.2 ⟨ops1_sub, ops2_sub⟩⟩

end Cert.ReferenceIdeal.RefRun

end
-- ==== Proof.RefRun.lean ====
/-
  The reference program's run.  Its main function is the straight line of the operations listed in the
  operations module: each printed window is the sequence of its own list, a called function contributing its
  body's operations over that call's buffers, and the three windows in order are the sequence of the three
  lists appended.  Since the program consists of tensor operations only and scopes no buffer and no
  semaphore, every weakly fair execution terminates with each buffer holding the fold of the operations'
  results over the contents at launch; no operation writes an argument, so the three arguments are unchanged.
-/
import proofs.«164688_j20031727468607_2_alg».proof.Proof.RefOps
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window is the sequence of its operations. -/
theorem main_part0_eq (c : Dev nD) : main_part0 (F := F) c = seq ops0 := by
  chain_rfl

/-- The second window is the sequence of its operations, the called function's body unfolded in place. -/
theorem main_part1_eq (c : Dev nD) : main_part1 (F := F) c = seq ops1 := by
  chain_rfl

/-- The third window is the sequence of its operations, each called function's body unfolded in place. -/
theorem main_part2_eq (c : Dev nD) : main_part2 (F := F) c = seq ops2 := by
  chain_rfl

/-- The main function is the sequence of all the operations. -/
theorem main_eq (c : Dev nD) : main (F := F) c = seq ops := by
  show (main_part0 (F := F) c >>= fun _ => main_part1 (F := F) c >>= fun _ => main_part2 (F := F) c) = _
  rw [main_part0_eq, main_part1_eq, main_part2_eq, ← seq_append, ← seq_append]

theorem scopedRefs_eq : (Finset.univ.filter fun b : Ref sig .tc => b.isScoped) = ∅ := by decide
theorem scopedSems_eq : (Finset.univ.filter fun sm : SemLoc sig => sm.isScoped .tc) = ∅ := by decide

/-- The buffers the operations of window 0 write, in order. -/
abbrev ops0_W : List (Ref sig .tc) := [main_cst, main_v0, main_cst_0, main_v1, main_v2, main_v3, main_cst_1, main_v4, main_v5, main_cst_2, main_v6, main_v7, main_v8, main_v9, main_cst_3, main_v10, main_cst_4, main_v11, main_v12, main_cst_5, main_v13, main_v14, main_v15, main_v16, main_cst_6, main_v17, main_cst_7, main_v18, main_v19, main_v20, main_cst_8, main_v21, main_cst_9, main_v22, main_v23, main_cst_10, main_v24, main_v25, main_cst_11, main_v26, main_v27, main_v28, main_cst_12, main_v29, main_v30, main_v31, main_cst_13, main_v32, main_v33, main_cst_14, main_v34, main_v35, main_cst_15, main_v36, main_v37, main_cst_16, main_v38, main_v39, main_v40, main_cst_17]

set_option maxRecDepth 4096 in
theorem ops0_writes : (ops0 : List (HloOp τ sig (Elt F))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes,
      Finset.singleton_subset_iff, List.mem_toFinset]; exact List.mem_map_of_mem (by decide))

/-- The buffers the operations of window 1 write, in order. -/
abbrev ops1_W : List (Ref sig .tc) := [main_v41, main_v42, main_v43, main_cst_18, main_cst_19, main_v44, main_cst_20, main_cst_21, main_v45, main_cst_22, main_cst_23, main_v46, main_cst_24, main_cst_25, main_v47, main_c, main_v48, main_v49, main_v50, main_v51, main_v52, main_v53, main_v54, main_call0_v0, main_call0_c, main_call0_c_0, main_call0_v1_0, main_v55, main_cst_26, main_v56, main_v57, main_v58, main_v59, main_v60, main_c_27, main_v61, main_v62, main_c_28, main_v63, main_v64, main_v65, main_c_29, main_v66, main_v67, main_c_30, main_v68, main_v69, main_v70, main_v71, main_v72, main_v73, main_v74, main_v75, main_v76, main_cst_31, main_v77, main_cst_32, main_v78, main_cst_33, main_v79, main_v80, main_v81, main_cst_34, main_v82]

set_option maxRecDepth 4096 in
theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes,
      Finset.singleton_subset_iff, List.mem_toFinset]; exact List.mem_map_of_mem (by decide))

/-- The buffers the operations of window 2 write, in order. -/
abbrev ops2_W : List (Ref sig .tc) := [main_cst_35, main_v83, main_cst_36, main_v84, main_v85, main_v86, main_cst_37, main_v87, main_v88, main_v89, main_v90, main_v91, main_cst_38, main_v92, main_cst_39, main_v93, main_cst_40, main_v94, main_v95, main_v96, main_cst_41, main_v97, main_cst_42, main_v98, main_cst_43, main_v99, main_v100, main_v101, main_cst_44, main_v102, main_v103, main_v104, main_v105, main_v106, main_v107, main_v108, main_v109, main_v110, main_v111, main_v112]

set_option maxRecDepth 4096 in
theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes,
      Finset.singleton_subset_iff, List.mem_toFinset]; exact List.mem_map_of_mem (by decide))

/-- The fold over two lists in a row is the fold over the second of the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A buffer no window writes holds after the whole program what it held at launch. -/
theorem after_keep (V : Valuation τ sig (Elt F)) (r : Ref sig .tc) (h0 : r ∉ ops0_W) (h1 : r ∉ ops1_W) (h2 : r ∉ ops2_W) :
    after (ops : List (HloOp τ sig (Elt F))) V (Proc.devRef .tc r) = V (Proc.devRef .tc r) := by
  rw [after_app, after_app, after_of_writes_sub ops2 _ ops2_writes h2,
    after_of_writes_sub ops1 _ ops1_writes h1, after_of_writes_sub ops0 _ ops0_writes h0]

/-- On every device, for any float values, from any memory with zero counters: every weakly fair execution of the
    main function terminates with the result buffer at the fold of the operations' results over the launch
    contents and the three arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v112) = after ops (launchContents m c) (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v112,
      (h c main_arg0).trans (after_keep _ main_arg0 (by decide) (by decide) (by decide)),
      (h c main_arg1).trans (after_keep _ main_arg1 (by decide) (by decide) (by decide)),
      (h c main_arg2).trans (after_keep _ main_arg2 (by decide) (by decide) (by decide))⟩)
    (run_seq scopedRefs_eq scopedSems_eq defs main (fun _ => ops) main_eq (fun _ => ops_sub) m ρ)

end Cert.ReferenceIdeal.RefRun

end
-- ==== Proof.RefDefs.lean ====
/-
  The reference program's result as one term of its three arguments.

  The three per-image statistics the program forms from the image array are named: the grey image (the channel
  sum from the initial value zero, divided by three), its rows laid end to end, the sums over the flattened
  pixels of the bright and the dark test read as numbers, and the sum of the grey image over rows and columns
  at once.  Unfolding the fold of the operations' results at the result buffer, each operation's result at its
  own buffer being its function's value and at any other buffer what was there, leaves the scalar tail applied
  to those three statistics and the two exposure vectors.
-/
import proofs.«164688_j20031727468607_2_alg».proof.Proof.RefRun
import proofs.«164688_j20031727468607_2_alg».proof.Proof.Tail

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Five rows of sixteen stacked into a five by sixteen array. -/
def cat5 {α : Type} (u0 u1 u2 u3 u4 : S1x16.Idx → α) : S5x16.Idx → α :=
  concatenate S5x16 0 [⟨S1x16, u0⟩, ⟨S1x16, u1⟩, ⟨S1x16, u2⟩, ⟨S1x16, u3⟩, ⟨S1x16, u4⟩]
    concatenates_S1x16_S1x16_S1x16_S1x16_S1x16_S5x16_d0

/-- The stacked condition bits, each row's contents read at its own buffer. -/
theorem v54_result' (hxs hy) (W : Valuation τ sig (Elt F)) :
    (nary (τ := τ) ![main_v49, main_v50, main_v51, main_v52, main_v53] main_v54
        (fun u => concatenate S5x16 0 [⟨S1x16, u 0⟩, ⟨S1x16, u 1⟩, ⟨S1x16, u 2⟩, ⟨S1x16, u 3⟩, ⟨S1x16, u 4⟩]
          concatenates_S1x16_S1x16_S1x16_S1x16_S1x16_S5x16_d0) hxs hy).result W (no_index (Proc.devRef .tc main_v54))
      = cat5 (W (Proc.devRef .tc main_v49)) (W (Proc.devRef .tc main_v50)) (W (Proc.devRef .tc main_v51))
          (W (Proc.devRef .tc main_v52)) (W (Proc.devRef .tc main_v53)) :=
  (nary_result ..).trans rfl

/-- The stacked result rows, each row's contents read at its own buffer. -/
theorem v112_result' (hxs hy) (W : Valuation τ sig (Elt F)) :
    (nary (τ := τ) ![main_v107, main_v108, main_v109, main_v110, main_v111] main_v112
        (fun u => concatenate S5x16 0 [⟨S1x16, u 0⟩, ⟨S1x16, u 1⟩, ⟨S1x16, u 2⟩, ⟨S1x16, u 3⟩, ⟨S1x16, u 4⟩]
          concatenates_S1x16_S1x16_S1x16_S1x16_S1x16_S5x16_d0) hxs hy).result W (no_index (Proc.devRef .tc main_v112))
      = cat5 (W (Proc.devRef .tc main_v107)) (W (Proc.devRef .tc main_v108)) (W (Proc.devRef .tc main_v109))
          (W (Proc.devRef .tc main_v110)) (W (Proc.devRef .tc main_v111)) :=
  (nary_result ..).trans rfl

/-- The fold's value at a buffer, in one pass: each operation's result at its own buffer is its function's value,
    at any other buffer what was there. -/
macro "results_simp" : tactic =>
  `(tactic| (simp (disch := decide) only [after_cons, after_nil,
      nullary_result', unary_result', binary_result', ternary_result', quaternary_result', reshape_result',
      v54_result', v112_result',
      nullary_result_ne', unary_result_ne', binary_result_ne', ternary_result_ne', quaternary_result_ne', reshape_result_ne',
      nary_result_ne']))

/-- The grey image: the sum of the three channels (from the initial value zero) divided by three. -/
def gray3 (x : FVec F S16x3x544x960 .f32) : FVec F S16x544x960 .f32 :=
  Host.divf (Host.reduceAdd x (constant S_ .f32 0x00000000#32) reducesTo_S16x3x544x960_S16x544x960_d1 h_S_)
    (broadcastInDim S16x544x960 ![] bcast_S_S16x544x960 (constant S_ .f32 0x40400000#32))

/-- The grey image with its rows laid end to end. -/
def flat (x : FVec F S16x3x544x960 .f32) : FVec F S16x522240 .f32 :=
  shapeCast S16x522240 (gray3 x) shapeCasts_S16x544x960_S16x522240

/-- Per image, the sum over the flattened pixels of the bright test read as a number. -/
def vB (x : FVec F S16x3x544x960 .f32) : FVec F S16 .f32 :=
  Host.reduceAdd
    (uitofp .f32 (andi (cmpf .oge (flat x) (broadcastInDim S16x522240 ![] bcast_S_S16x522240 (constant S_ .f32 0x3F400000#32)))
      (cmpf .ole (flat x) (broadcastInDim S16x522240 ![] bcast_S_S16x522240 (constant S_ .f32 0x3F800000#32)))) : FVec F S16x522240 .f32)
    (constant S_ .f32 0x00000000#32) reducesTo_S16x522240_S16_d1 h_S_

/-- Per image, the sum over the flattened pixels of the dark test read as a number. -/
def vD (x : FVec F S16x3x544x960 .f32) : FVec F S16 .f32 :=
  Host.reduceAdd
    (uitofp .f32 (andi (cmpf .oge (flat x) (broadcastInDim S16x522240 ![] bcast_S_S16x522240 (constant S_ .f32 0x00000000#32)))
      (cmpf .olt (flat x) (broadcastInDim S16x522240 ![] bcast_S_S16x522240 (constant S_ .f32 0x3E800000#32)))) : FVec F S16x522240 .f32)
    (constant S_ .f32 0x00000000#32) reducesTo_S16x522240_S16_d1 h_S_

/-- Per image, the sum of the grey image over its rows and columns at once. -/
def vG (x : FVec F S16x3x544x960 .f32) : FVec F S16 .f32 :=
  Host.reduceAdd (gray3 x) (constant S_ .f32 0x00000000#32) reducesTo_S16x544x960_S16_d1_2 h_S_

set_option maxRecDepth 8192 in
set_option maxHeartbeats 8000000 in
/-- The result buffer after the whole program: the scalar tail of the three statistics of the image array and the
    two exposure vectors, all read at launch. -/
theorem out_eq (V : Valuation τ sig (Elt F)) :
    after (ops : List (HloOp τ sig (Elt F))) V (Proc.devRef .tc main_v112)
      = Cert.Tail.tail (vB (V (Proc.devRef .tc main_arg0))) (vD (V (Proc.devRef .tc main_arg0))) (vG (V (Proc.devRef .tc main_arg0)))
          (V (Proc.devRef .tc main_arg1)) (V (Proc.devRef .tc main_arg2)) := by
  rw [after_app, after_app]
  results_simp
  rfl

end Cert.ReferenceIdeal.RefRun

end
-- ==== Proof.RefValue.lean ====
/-
  The value of the reference program's three statistics on the extended reals, and with it the value of its
  result.

  The grey image read at pixel (h, l) of image b is the specification's grey value: the channel sum starts
  from zero, and zero plus a sum is the sum.  The flattened grey image read at position k of image b is the
  grey value at row k / 960 and column k % 960, the two arrays having the same row-major order.  The sum over
  the 522240 flat positions of a function of that grey value is therefore the double sum over the 544 rows and
  960 columns, which gives the bright and the dark counts; the sum of the grey image over its two pixel axes
  at once ranges over the indices whose image coordinate is b, and those are the pairs (row, column), which
  gives the grey sum.  The result buffer then holds the scalar tail of the three specified statistics and the
  two exposure vectors.
-/
import proofs.«164688_j20031727468607_2_alg».proof.Proof.RefDefs
import proofs.«164688_j20031727468607_2_alg».proof.Proof.Spec
import proofs.«164688_j20031727468607_2_alg».proof.Proof.Sums
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem
  Idealize.ShloMosaic.StableHlo Idealize.ShloMosaic.ValueIdx

/-- Summing out the channel axis leaves the image, row and column axes. -/
theorem reduces_c : Shape.Reduces S16x3x544x960 [1] S16x544x960 := by decide
/-- Summing out the flat pixel axis leaves the image axis. -/
theorem reduces_f : Shape.Reduces S16x522240 [1] S16 := by decide

/-- The grey image at a pixel is the specification's grey value. -/
theorem gray3_apply (x : Cert.Spec.Img) (b : Fin 16) (h : Fin 544) (l : Fin 960) :
    gray3 (F := Ideal) x (ix3 b h l) = Cert.Spec.gray x b h l := by
  show Ideal.div (Ideal.hostReduceAdd reducesTo_S16x3x544x960_S16x544x960_d1 x (Ideal.ofBits .f32 0x00000000#32) (ix3 b h l))
      (Ideal.ofBits .f32 0x40400000#32) = _
  rw [Ideal.hostReduceAdd_single _ reduces_c, Ideal.ofBits_zero_f32, zero_add]
  unfold Cert.Spec.gray
  refine congrArg (fun s => Ideal.div s _) (Finset.sum_congr rfl fun c _ => congrArg x (funext fun a => ?_))
  match a with
  | ⟨0, _⟩ => rfl
  | ⟨1, _⟩ => rfl
  | ⟨2, _⟩ => rfl
  | ⟨3, _⟩ => rfl

/-- The flattened grey image at flat position k is the grey value at row k / 960, column k % 960. -/
theorem flat_apply (x : Cert.Spec.Img) (b : Fin 16) (k : Fin 522240) :
    flat (F := Ideal) x (ix2 b k) = Cert.Spec.gray x b ⟨k.val / 960, by omega⟩ ⟨k.val % 960, by omega⟩ := by
  unfold flat
  refine (shapeCast_apply (gray3 (F := Ideal) x) shapeCasts_S16x544x960_S16x522240 (ix2 b k)
    (ix3 b ⟨k.val / 960, by omega⟩ ⟨k.val % 960, by omega⟩) ?_).trans (gray3_apply x b _ _)
  rw [Shape.rowMajor_val_three, Shape.rowMajor_val_two]
  show (b.val * 544 + k.val / 960) * 960 + k.val % 960 = b.val * 522240 + k.val
  omega

/-- The index that restores flat position k of image b. -/
theorem lift_f (j : S16.Idx) (k : Fin 522240) : reduces_f.lift j k = ix2 (j 0) k :=
  funext fun a => match a with
    | ⟨0, _⟩ => rfl
    | ⟨1, _⟩ => rfl

/-- The bright count: the flat sum is the double sum over rows and columns. -/
theorem vB_eq (x : Cert.Spec.Img) (j : S16.Idx) : vB (F := Ideal) x j = Cert.Spec.bright x (j 0) := by
  show Ideal.hostReduceAdd reducesTo_S16x522240_S16_d1 (fun i => Cert.Spec.brightBit (flat (F := Ideal) x i))
      (Ideal.ofBits .f32 0x00000000#32) j = _
  rw [Ideal.hostReduceAdd_single _ reduces_f, Ideal.ofBits_zero_f32, zero_add]
  unfold Cert.Spec.bright
  refine Eq.trans ?_ (Cert.Sums.sum_flat_image fun h l => Cert.Spec.brightBit (Cert.Spec.gray x (j 0) h l))
  refine Finset.sum_congr rfl fun k _ => ?_
  exact congrArg Cert.Spec.brightBit ((congrArg (flat (F := Ideal) x) (lift_f j k)).trans (flat_apply x (j 0) k))

/-- The dark count, likewise. -/
theorem vD_eq (x : Cert.Spec.Img) (j : S16.Idx) : vD (F := Ideal) x j = Cert.Spec.dark x (j 0) := by
  show Ideal.hostReduceAdd reducesTo_S16x522240_S16_d1 (fun i => Cert.Spec.darkBit (flat (F := Ideal) x i))
      (Ideal.ofBits .f32 0x00000000#32) j = _
  rw [Ideal.hostReduceAdd_single _ reduces_f, Ideal.ofBits_zero_f32, zero_add]
  unfold Cert.Spec.dark
  refine Eq.trans ?_ (Cert.Sums.sum_flat_image fun h l => Cert.Spec.darkBit (Cert.Spec.gray x (j 0) h l))
  refine Finset.sum_congr rfl fun k _ => ?_
  exact congrArg Cert.Spec.darkBit ((congrArg (flat (F := Ideal) x) (lift_f j k)).trans (flat_apply x (j 0) k))

/-- The grey sum: the indices of image b are the pairs (row, column). -/
theorem vG_eq (x : Cert.Spec.Img) (j : S16.Idx) : vG (F := Ideal) x j = Cert.Spec.graySum x (j 0) := by
  show Ideal.hostReduceAdd reducesTo_S16x544x960_S16_d1_2 (gray3 (F := Ideal) x) (Ideal.ofBits .f32 0x00000000#32) j = _
  unfold Ideal.hostReduceAdd Cert.Spec.graySum
  rw [Ideal.ofBits_zero_f32, zero_add, ← Finset.sum_product' Finset.univ Finset.univ fun h l => Cert.Spec.gray x (j 0) h l]
  refine Finset.sum_bij' (fun i _ => (i 1, i 2)) (fun p _ => ix3 (j 0) p.1 p.2) ?_ ?_ ?_ ?_ ?_
  · intro i _; exact Finset.mem_product.2 ⟨Finset.mem_univ _, Finset.mem_univ _⟩
  · intro p _
    refine Finset.mem_filter.2 ⟨Finset.mem_univ _, funext fun a => ?_⟩
    match a with
    | ⟨0, _⟩ => exact Fin.ext rfl
  · intro i hi
    have hd : reducesTo_S16x544x960_S16_d1_2.drop i = j := (Finset.mem_filter.1 hi).2
    have h0 : j 0 = i 0 := by rw [← hd]; exact Fin.ext rfl
    funext a
    match a with
    | ⟨0, _⟩ => exact h0
    | ⟨1, _⟩ => rfl
    | ⟨2, _⟩ => rfl
  · intro p _; rfl
  · intro i hi
    have hd : reducesTo_S16x544x960_S16_d1_2.drop i = j := (Finset.mem_filter.1 hi).2
    have h0 : j 0 = i 0 := by rw [← hd]; exact Fin.ext rfl
    rw [h0]
    exact (congrArg (gray3 (F := Ideal) x) (eq_ix3 i)).trans (gray3_apply x (i 0) (i 1) (i 2))

/-- The result buffer after the whole program, on the extended reals: the scalar tail of the specified bright
    count, dark count and grey sum of the image array and of the two exposure vectors. -/
theorem value_eq (V : Valuation τ sig (Elt Ideal)) :
    after (ops : List (HloOp τ sig (Elt Ideal))) V (Proc.devRef .tc main_v112)
      = Cert.Tail.tail (F := Ideal) (fun j => Cert.Spec.bright (V (Proc.devRef .tc main_arg0)) (j 0))
          (fun j => Cert.Spec.dark (V (Proc.devRef .tc main_arg0)) (j 0))
          (fun j => Cert.Spec.graySum (V (Proc.devRef .tc main_arg0)) (j 0))
          (V (Proc.devRef .tc main_arg1)) (V (Proc.devRef .tc main_arg2)) := by
  rw [out_eq, show vB (F := Ideal) (V (Proc.devRef .tc main_arg0)) = _ from funext (vB_eq _),
    show vD (F := Ideal) (V (Proc.devRef .tc main_arg0)) = _ from funext (vD_eq _),
    show vG (F := Ideal) (V (Proc.devRef .tc main_arg0)) = _ from funext (vG_eq _)]

/-- On every device, on the extended reals, from any memory with zero counters: every weakly fair execution of
    the main function terminates with the result buffer at the scalar tail of the specified statistics of the
    image array at launch and of the two exposure vectors at launch, and the three arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v112)
        = Cert.Tail.tail (F := Ideal) (fun j => Cert.Spec.bright (m ((c.tc : Thread nD τ).loc main_arg0)) (j 0))
            (fun j => Cert.Spec.dark (m ((c.tc : Thread nD τ).loc main_arg0)) (j 0))
            (fun j => Cert.Spec.graySum (m ((c.tc : Thread nD τ).loc main_arg0)) (j 0))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (value_eq (launchContents m c)), (h c).2⟩) (run m ρ)

end Cert.ReferenceIdeal.RefRun

end
-- ==== Proof.lean ====
/-
  The certificate's claim, assembled.

  The kernel program sums, tile by tile over a grid of 34 points, three per-image statistics of the image
  array — the number of bright pixels, the number of dark pixels, the sum of the grey values — into three
  accumulators, and then runs a scalar tail on them; the reference takes the same three statistics in one
  pass each and runs the same tail.  Frames: each program runs to its end without a fault and leaves its
  three arguments as launched (the kernel program's from the pipeline's frame run continued by the later
  host lines, at both instances; the reference's from its run as a straight line of host operations).  The
  idealization rewrote nothing.  On the extended reals both result arrays are the one tail function of the
  same three statistics — sums in a commutative monoid, which do not depend on their grouping — and of
  arguments that agree.
-/
import proofs.«164688_j20031727468607_2_alg».proof.Defs
import proofs.«164688_j20031727468607_2_alg».proof.Proof.Gen.Kernel
import proofs.«164688_j20031727468607_2_alg».proof.Proof.Gen.KernelIdeal
import proofs.«164688_j20031727468607_2_alg».proof.Proof.Gen.ReferenceIdeal
import proofs.«164688_j20031727468607_2_alg».proof.Proof.Gen.Pre_finite_inputs
import proofs.«164688_j20031727468607_2_alg».proof.Proof.KB.Frame
import proofs.«164688_j20031727468607_2_alg».proof.Proof.KI.Frame
import proofs.«164688_j20031727468607_2_alg».proof.Proof.KI.Value
import proofs.«164688_j20031727468607_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hist.frame m ρ

theorem frame_ki : Cert.frame_KernelIdeal (hKernelIdeal := Cert.KernelIdeal.Gen.facts) (hPre_finite_inputs := Cert.Pre_finite_inputs.Gen.facts) :=
  fun m ρ _ => Cert.KernelIdeal.Hist.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

theorem preserves : Cert.preserves_Kernel_KernelIdeal := trivial

/-- Both programs end with the shared tail of the specification's three statistics of arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hist.run_value m ρ, ?_⟩
  refine (θ_run Cert.ReferenceIdeal.defs _ _).mono (fun _ h c => ⟨(h c).1.trans ?_, (h c).2⟩)
    (Cert.ReferenceIdeal.RefRun.run_value m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
